-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1 : Shape := ⟨2, ![10000, 1]⟩
abbrev S2x320000 : Shape := ⟨2, ![2, 320000]⟩
abbrev S10000 : Shape := ⟨1, ![10000]⟩
abbrev S1x256 : Shape := ⟨2, ![1, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S10000x1 : S_.BroadcastsInDim S10000x1 (![] : Fin 0 → Fin S10000x1.rank)
  reducesTo_S10000x1_S_d0_1 : S10000x1.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_

variable [Facts]

def fn_part4 {F : FTy → Type} [FloatOps F] (main_arg1 : IVec S2x320000 32) (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 0#32
  let main_v74 : IVec S2x320000 32 := broadcastInDim S2x320000 ![] bcast_S_S2x320000 main_c_28
  let main_v75 : IVec S2x320000 1 := cmpi .sge main_arg1 main_v74
  let main_c_29 : IVec S_ 1 := constantI S_ 1 1#1
  let main_v76 : IVec S_ 1 := (fun x v => Host.reduce IntOp.andi x v reducesTo_S2x320000_S_d0_1 h_S_) main_v75 main_c_29
  let main_v77 : IVec S_ 1 := andi main_v73 main_v76
  let main_c_30 : IVec S_ 32 := constantI S_ 32 10000#32
  let main_v78 : IVec S2x320000 32 := broadcastInDim S2x320000 ![] bcast_S_S2x320000 main_c_30
  let main_v79 : IVec S2x320000 1 := cmpi .slt main_arg1 main_v78
  let main_c_31 : IVec S_ 1 := constantI S_ 1 1#1
  let main_v80 : IVec S_ 1 := (fun x v => Host.reduce IntOp.andi x v reducesTo_S2x320000_S_d0_1 h_S_) main_v79 main_c_31
  let main_v81 : IVec S_ 1 := andi main_v77 main_v80
  main_v81

def fn_part3 {F : FTy → Type} [FloatOps F] (main_arg1 : IVec S2x320000 32) (main_arg13 : FVec F S64x32 .f32) (main_arg14 : FVec F S32 .f32) (main_arg15 : FVec F S32x1 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x32 .f32 := Host.absf main_arg13
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x1 .f32 := Host.absf main_arg15
  let main_cst_24 : FVec F S_ .f32 := constant S_ .f32 0x7F800000#32
  let main_v65 : FVec F S32x1 .f32 := broadcastInDim S32x1 ![] bcast_S_S32x1 main_cst_24
  let main_v66 : IVec S32x1 1 := cmpf .olt main_v64 main_v65
  let main_c_25 : IVec S_ 1 := constantI S_ 1 1#1
  let main_v67 : IVec S_ 1 := (fun x v => Host.reduce IntOp.andi x v reducesTo_S32x1_S_d0_1 h_S_) main_v66 main_c_25
  fn_part4 (F := F) main_arg1 main_arg16 main_v63 main_v67

def fn_part2 {F : FTy → Type} [FloatOps F] (main_arg1 : IVec S2x320000 32) (main_arg9 : FVec F S128x128 .f32) (main_arg10 : FVec F S128 .f32) (main_arg11 : FVec F S128x64 .f32) (main_arg12 : FVec F S64 .f32) (main_arg13 : FVec F S64x32 .f32) (main_arg14 : FVec F S32 .f32) (main_arg15 : FVec F S32x1 .f32) (main_arg16 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_arg15 main_arg16 main_v48 main_v49 main_v50

def fn_part1 {F : FTy → Type} [FloatOps F] (main_arg1 : IVec S2x320000 32) (main_arg6 : FVec F S256 .f32) (main_arg7 : FVec F S256x128 .f32) (main_arg8 : FVec F S128 .f32) (main_arg9 : FVec F S128x128 .f32) (main_arg10 : FVec F S128 .f32) (main_arg11 : FVec F S128x64 .f32) (main_arg12 : FVec F S64 .f32) (main_arg13 : FVec F S64x32 .f32) (main_arg14 : FVec F S32 .f32) (main_arg15 : FVec F S32x1 .f32) (main_arg16 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_arg13 main_arg14 main_arg15 main_arg16 main_v33

def fn {F : FTy → Type} [FloatOps F] (main_arg0 : FVec F S10000x1 .f32) (main_arg1 : IVec S2x320000 32) (main_arg2 : IVec S10000 32) (main_arg3 : FVec F S1x256 .f32) (main_arg4 : FVec F S256 .f32) (main_arg5 : FVec F S256x256 .f32) (main_arg6 : FVec F S256 .f32) (main_arg7 : FVec F S256x128 .f32) (main_arg8 : FVec F S128 .f32) (main_arg9 : FVec F S128x128 .f32) (main_arg10 : FVec F S128 .f32) (main_arg11 : FVec F S128x64 .f32) (main_arg12 : FVec F S64 .f32) (main_arg13 : FVec F S64x32 .f32) (main_arg14 : FVec F S32 .f32) (main_arg15 : FVec F S32x1 .f32) (main_arg16 : FVec F S1 .f32) : IVec S_ 1 :=
  let main_v0 : FVec F S10000x1 .f32 := Host.absf main_arg0
  let main_cst : FVec F S_ .f32 := constant S_ .f32 0x7F800000#32
  let main_v1 : FVec F S10000x1 .f32 := broadcastInDim S10000x1 ![] bcast_S_S10000x1 main_cst
  let main_v2 : IVec S10000x1 1 := cmpf .olt main_v0 main_v1
  let main_c : IVec S_ 1 := constantI S_ 1 1#1
  let main_v3 : IVec S_ 1 := (fun x v => Host.reduce IntOp.andi x v reducesTo_S10000x1_S_d0_1 h_S_) main_v2 main_c
  let main_v4 : FVec F S1x256 .f32 := Host.absf main_arg3
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg6 main_arg7 main_arg8 main_arg9 main_arg10 main_arg11 main_arg12 main_arg13 main_arg14 main_arg15 main_arg16 main_v13 main_v16
-- ==== Kernel.lean ====
abbrev S10000x1 : Shape := ⟨2, ![10000, 1]⟩
abbrev S2x320000 : Shape := ⟨2, ![2, 320000]⟩
abbrev S10000 : Shape := ⟨1, ![10000]⟩
abbrev S1x256 : Shape := ⟨2, ![1, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10240x10240 : Shape := ⟨2, ![10240, 10240]⟩
abbrev S330000x2 : Shape := ⟨2, ![330000, 2]⟩
abbrev S10000x256 : Shape := ⟨2, ![10000, 256]⟩
abbrev S10240x256 : Shape := ⟨2, ![10240, 256]⟩
abbrev S2048x2048 : Shape := ⟨2, ![2048, 2048]⟩
abbrev S2048x256 : Shape := ⟨2, ![2048, 256]⟩
abbrev S64x256 : Shape := ⟨2, ![64, 256]⟩
abbrev S64x1 : Shape := ⟨2, ![64, 1]⟩
abbrev S64x128 : Shape := ⟨2, ![64, 128]⟩
abbrev S1x128 : Shape := ⟨2, ![1, 128]⟩
abbrev S64x64 : Shape := ⟨2, ![64, 64]⟩
abbrev S1x64 : Shape := ⟨2, ![1, 64]⟩
abbrev S1x32 : Shape := ⟨2, ![1, 32]⟩
abbrev S1x1 : Shape := ⟨2, ![1, 1]⟩

abbrev nBuf : Space → Nat
  | .hbm => 149
  | .vmem => 16
  | .smem => 0
  | _ => 0

abbrev hbmTy0_0 (i : Nat) : BufTy := match i % 128 with
  | 0 => ⟨S10000x1, .f32⟩
  | 1 => ⟨S2x320000, .i32⟩
  | 2 => ⟨S10000, .i32⟩
  | 3 => ⟨S1x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S128x128, .f32⟩
  | 10 => ⟨S128, .f32⟩
  | 11 => ⟨S128x64, .f32⟩
  | 12 => ⟨S64, .f32⟩
  | 13 => ⟨S64x32, .f32⟩
  | 14 => ⟨S32, .f32⟩
  | 15 => ⟨S32x1, .f32⟩
  | 16 => ⟨S1, .f32⟩
  | 17 => ⟨S10000, .i32⟩
  | 18 => ⟨S1x320000, .i32⟩
  | 19 => ⟨S320000, .i32⟩
  | 20 => ⟨S330000, .i32⟩
  | 21 => ⟨S1x320000, .i32⟩
  | 22 => ⟨S320000, .i32⟩
  | 23 => ⟨S330000, .i32⟩
  | 24 => ⟨S_, .f32⟩
  | 25 => ⟨S330000, .f32⟩
  | 26 => ⟨S_, .f32⟩
  | 27 => ⟨S10000, .f32⟩
  | 28 => ⟨S330000x1, .i32⟩
  | 29 => ⟨S10000, .f32⟩
  | 30 => ⟨S_, .f32⟩
  | 31 => ⟨S10000, .f32⟩
  | 32 => ⟨S10000, .i1⟩
  | 33 => ⟨S_, .f32⟩
  | 34 => ⟨S10000, .f32⟩
  | 35 => ⟨S10000, .f32⟩
  | 36 => ⟨S10000, .f32⟩
  | 37 => ⟨S_, .f32⟩
  | 38 => ⟨S10000, .f32⟩
  | 39 => ⟨S10000, .f32⟩
  | 40 => ⟨S_, .f32⟩
  | 41 => ⟨S_, .f32⟩
  | 42 => ⟨S10000, .f32⟩
  | 43 => ⟨S10000, .f32⟩
  | 44 => ⟨S_, .i32⟩
  | 45 => ⟨S330000, .i32⟩
  | 46 => ⟨S330000, .i1⟩
  | 47 => ⟨S_, .i32⟩
  | 48 => ⟨S330000, .i32⟩
  | 49 => ⟨S330000, .i32⟩
  | 50 => ⟨S330000, .i32⟩
  | 51 => ⟨S330000x1, .i32⟩
  | 52 => ⟨S330000, .f32⟩
  | 53 => ⟨S_, .i32⟩
  | 54 => ⟨S330000, .i32⟩
  | 55 => ⟨S330000, .i1⟩
  | 56 => ⟨S_, .i32⟩
  | 57 => ⟨S330000, .i32⟩
  | 58 => ⟨S330000, .i32⟩
  | 59 => ⟨S330000, .i32⟩
  | 60 => ⟨S330000x1, .i32⟩
  | 61 => ⟨S330000, .f32⟩
  | 62 => ⟨S330000, .f32⟩
  | 63 => ⟨S_, .f32⟩
  | 64 => ⟨S10240x10240, .f32⟩
  | 65 => ⟨S_, .i32⟩
  | 66 => ⟨S330000, .i32⟩
  | 67 => ⟨S330000, .i1⟩
  | 68 => ⟨S_, .i32⟩
  | 69 => ⟨S330000, .i32⟩
  | 70 => ⟨S330000, .i32⟩
  | 71 => ⟨S330000, .i32⟩
  | 72 => ⟨S_, .i32⟩
  | 73 => ⟨S330000, .i32⟩
  | 74 => ⟨S330000, .i1⟩
  | 75 => ⟨S_, .i32⟩
  | 76 => ⟨S330000, .i32⟩
  | 77 => ⟨S330000, .i32⟩
  | 78 => ⟨S330000, .i32⟩
  | 79 => ⟨S330000x1, .i32⟩
  | 80 => ⟨S330000x1, .i32⟩
  | 81 => ⟨S330000x2, .i32⟩
  | 82 => ⟨S10240x10240, .f32⟩
  | 83 => ⟨S10240x10240, .bf16⟩
  | 84 => ⟨S10000x256, .f32⟩
  | 85 => ⟨S_, .i32⟩
  | 86 => ⟨S_, .f32⟩
  | 87 => ⟨S10240x256, .f32⟩
  | 88 => ⟨S10240x256, .bf16⟩
  | 89 => ⟨S1x256, .f32⟩
  | 90 => ⟨S10240x256, .f32⟩
  | 91 => ⟨S10000x256, .f32⟩
  | 92 => ⟨S10000x256, .f32⟩
  | 93 => ⟨S_, .i32⟩
  | 94 => ⟨S_, .f32⟩
  | 95 => ⟨S10240x256, .f32⟩
  | 96 => ⟨S10240x256, .bf16⟩
  | 97 => ⟨S1x256, .f32⟩
  | 98 => ⟨S10240x256, .f32⟩
  | 99 => ⟨S10000x256, .f32⟩
  | 100 => ⟨S_, .f32⟩
  | 101 => ⟨S64x256, .f32⟩
  | 102 => ⟨S10000x1, .i32⟩
  | 103 => ⟨S64x256, .f32⟩
  | 104 => ⟨S_, .f32⟩
  | 105 => ⟨S10000, .f32⟩
  | 106 => ⟨S_, .f32⟩
  | 107 => ⟨S64, .f32⟩
  | 108 => ⟨S10000x1, .i32⟩
  | 109 => ⟨S64, .f32⟩
  | 110 => ⟨S_, .f32⟩
  | 111 => ⟨S64, .f32⟩
  | 112 => ⟨S64, .f32⟩
  | 113 => ⟨S64x1, .f32⟩
  | 114 => ⟨S64x256, .f32⟩
  | 115 => ⟨S64x256, .f32⟩
  | 116 => ⟨S64x128, .f32⟩
  | 117 => ⟨S1x128, .f32⟩
  | 118 => ⟨S64x128, .f32⟩
  | 119 => ⟨S64x128, .f32⟩
  | 120 => ⟨S_, .f32⟩
  | 121 => ⟨S64x128, .f32⟩
  | 122 => ⟨S64x128, .f32⟩
  | 123 => ⟨S64x128, .f32⟩
  | 124 => ⟨S1x128, .f32⟩
  | 125 => ⟨S64x128, .f32⟩
  | 126 => ⟨S64x128, .f32⟩
  | 127 => ⟨S_, .f32⟩
  | _ => ⟨S10000x1, .f32⟩

abbrev hbmTy0_1 (i : Nat) : BufTy := match i % 128 with
  | 0 => ⟨S64x128, .f32⟩
  | 1 => ⟨S64x128, .f32⟩
  | 2 => ⟨S64x64, .f32⟩
  | 3 => ⟨S1x64, .f32⟩
  | 4 => ⟨S64x64, .f32⟩
  | 5 => ⟨S64x64, .f32⟩
  | 6 => ⟨S_, .f32⟩
  | 7 => ⟨S64x64, .f32⟩
  | 8 => ⟨S64x64, .f32⟩
  | 9 => ⟨S64x32, .f32⟩
  | 10 => ⟨S1x32, .f32⟩
  | 11 => ⟨S64x32, .f32⟩
  | 12 => ⟨S64x32, .f32⟩
  | 13 => ⟨S_, .f32⟩
  | 14 => ⟨S64x32, .f32⟩
  | 15 => ⟨S64x32, .f32⟩
  | 16 => ⟨S64x1, .f32⟩
  | 17 => ⟨S1x1, .f32⟩
  | 18 => ⟨S64x1, .f32⟩
  | 19 => ⟨S64x1, .f32⟩
  | 20 => ⟨S64, .f32⟩
  | _ => ⟨S10000x1, .f32⟩

abbrev hbmTy (i : Nat) : BufTy := match i / 128 with
  | 0 => hbmTy0_0 i
  | 1 => hbmTy0_1 i
  | _ => ⟨S10000x1, .f32⟩

abbrev bufTy : (tb : Table) → Fin (tcTables nBuf tb) → BufTy
  | .hbm, ⟨i, _⟩ => hbmTy i
  | .local _ .vmem, ⟨0, _⟩ => ⟨S2048x2048, .bf16⟩
  | .local _ .vmem, ⟨1, _⟩ => ⟨S2048x2048, .bf16⟩
  | .local _ .vmem, ⟨2, _⟩ => ⟨S2048x256, .bf16⟩
  | .local _ .vmem, ⟨3, _⟩ => ⟨S2048x256, .bf16⟩
  | .local _ .vmem, ⟨4, _⟩ => ⟨S1x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x2048, .bf16⟩
  | .local _ .vmem, ⟨9, _⟩ => ⟨S2048x2048, .bf16⟩
  | .local _ .vmem, ⟨10, _⟩ => ⟨S2048x256, .bf16⟩
  | .local _ .vmem, ⟨11, _⟩ => ⟨S2048x256, .bf16⟩
  | .local _ .vmem, ⟨12, _⟩ => ⟨S1x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | _, _ => ⟨S10000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v18 : Ref sig .tc := ⟨.hbm, 43, rfl⟩
abbrev main_c : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_c_7 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_8 : Ref sig .tc := ⟨.hbm, 63, rfl⟩
abbrev main_v34 : Ref sig .tc := ⟨.hbm, 64, rfl⟩
abbrev main_c_9 : Ref sig .tc := ⟨.hbm, 65, rfl⟩
abbrev main_v35 : Ref sig .tc := ⟨.hbm, 66, rfl⟩
abbrev main_v36 : Ref sig .tc := ⟨.hbm, 67, rfl⟩
abbrev main_c_10 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_11 : Ref sig .tc := ⟨.hbm, 72, rfl⟩
abbrev main_v40 : Ref sig .tc := ⟨.hbm, 73, rfl⟩
abbrev main_v41 : Ref sig .tc := ⟨.hbm, 74, rfl⟩
abbrev main_c_12 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_13 : Ref sig .tc := ⟨.hbm, 85, rfl⟩
abbrev main_call1_v0 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_14 : Ref sig .tc := ⟨.hbm, 93, rfl⟩
abbrev main_call2_v0 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_15 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_16 : Ref sig .tc := ⟨.hbm, 104, rfl⟩
abbrev main_v65 : Ref sig .tc := ⟨.hbm, 105, rfl⟩
abbrev main_cst_17 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_18 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_call3_cst : Ref sig .tc := ⟨.hbm, 120, rfl⟩
abbrev main_call3_v0 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_call4_cst : Ref sig .tc := ⟨.hbm, 127, rfl⟩
abbrev main_call4_v0 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_call5_cst : Ref sig .tc := ⟨.hbm, 134, rfl⟩
abbrev main_call5_v0 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_call6_cst : Ref sig .tc := ⟨.hbm, 141, rfl⟩
abbrev main_call6_v0 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![5, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![5, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S_S10240x10240 : S_.BroadcastsInDim S10240x10240 (![] : Fin 0 → Fin S10240x10240.rank)
  concatenates_S330000x1_S330000x1_S330000x2_d1 : Shape.Concatenates [S330000x1, S330000x1] S330000x2 1
  bitsLt_bf16_f32 : FTy.bits .bf16 < FTy.bits .f32
  pads_S10000x256_S10240x256_02400_000 : S10000x256.Pads (![0, 0] : Fin 2 → Nat) ![240, 0] ![0, 0] S10240x256
  h_S_ : 0 < S_.numel
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S10240x256_S10000x256_0_0 : S10240x256.Slices ![0, 0] S10000x256
  bcast_S_S64x256 : S_.BroadcastsInDim S64x256 (![] : Fin 0 → Fin S64x256.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  scatter_S10240x10240_S330000x2_S330000_n_01_01_1_wf : ScatterDims.WF S10240x10240 S330000x2 S330000 [] [0, 1] [0, 1] 1
  dot_S10000x1_S1x256_S10000x256_1_0_0_1_n_n_wf : DotDims.WF S10000x1 S1x256 S10000x256 [1] [0] [0] [1] [] []
  dot_S2048x2048_S2048x256_S2048x256_1_0_0_1_n_n_wf : DotDims.WF S2048x2048 S2048x256 S2048x256 [1] [0] [0] [1] [] []
  dot_S10000x256_S256x256_S10000x256_1_0_0_1_n_n_wf : DotDims.WF S10000x256 S256x256 S10000x256 [1] [0] [0] [1] [] []
  scatter_S64x256_S10000x1_S10000x256_1_0_0_1_wf : ScatterDims.WF S64x256 S10000x1 S10000x256 [1] [0] [0] 1
  scatter_S64_S10000x1_S10000_n_0_0_1_wf : ScatterDims.WF S64 S10000x1 S10000 [] [0] [0] 1
  dot_S64x256_S256x128_S64x128_1_0_0_1_n_n_wf : DotDims.WF S64x256 S256x128 S64x128 [1] [0] [0] [1] [] []
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S10240x10240.size a
  hwx0_0 : ∀ i : grid0.Coords, EltTy.bits .bf16 = 32 ∨ (Rect.block (s := S10240x10240) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S10240x256.size a
  hwx0_1 : ∀ i : grid0.Coords, EltTy.bits .bf16 = 32 ∨ (Rect.block (s := S10240x256) S2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S10240x256.size a
  hwx0_3 : ∀ i : grid0.Coords, EltTy.bits .f32 = 32 ∨ (Rect.block (s := S10240x256) S2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S10240x10240.size a
  hwx1_0 : ∀ i : grid1.Coords, EltTy.bits .bf16 = 32 ∨ (Rect.block (s := S10240x10240) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S10240x256.size a
  hwx1_1 : ∀ i : grid1.Coords, EltTy.bits .bf16 = 32 ∨ (Rect.block (s := S10240x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S10240x256.size a
  hwx1_3 : ∀ i : grid1.Coords, EltTy.bits .f32 = 32 ∨ (Rect.block (s := S10240x256) S2048x256.size (cc1_transform_3 i) (hinb1_3 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10240x10240_S330000x2_S330000_n_01_01_1 : ScatterDims S10240x10240 S330000x2 S330000 where
  updateWindowDims := []
  insertedWindowDims := [0, 1]
  scatterDimsToOperandDims := [0, 1]
  indexVectorDim := 1
  wf := scatter_S10240x10240_S330000x2_S330000_n_01_01_1_wf
def dot_S10000x1_S1x256_S10000x256_1_0_0_1_n_n : DotDims S10000x1 S1x256 S10000x256 where
  lhsContracting := [1]
  rhsContracting := [0]
  lhsNonContracting := [0]
  rhsNonContracting := [1]
  lhsBatch := []
  rhsBatch := []
  wf := dot_S10000x1_S1x256_S10000x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S64x256_S10000x1_S10000x256_1_0_0_1 : ScatterDims S64x256 S10000x1 S10000x256 where
  updateWindowDims := [1]
  insertedWindowDims := [0]
  scatterDimsToOperandDims := [0]
  indexVectorDim := 1
  wf := scatter_S64x256_S10000x1_S10000x256_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_v49) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v49) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S10000x1 : Shape := ⟨2, ![10000, 1]⟩
abbrev S2x320000 : Shape := ⟨2, ![2, 320000]⟩
abbrev S10000 : Shape := ⟨1, ![10000]⟩
abbrev S1x256 : Shape := ⟨2, ![1, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x256 : Shape := ⟨2, ![10000, 256]⟩
abbrev S330000x256 : Shape := ⟨2, ![330000, 256]⟩
abbrev S64x256 : Shape := ⟨2, ![64, 256]⟩
abbrev S64x1 : Shape := ⟨2, ![64, 1]⟩
abbrev S64x128 : Shape := ⟨2, ![64, 128]⟩
abbrev S1x128 : Shape := ⟨2, ![1, 128]⟩
abbrev S64x64 : Shape := ⟨2, ![64, 64]⟩
abbrev S1x64 : Shape := ⟨2, ![1, 64]⟩
abbrev S1x32 : Shape := ⟨2, ![1, 32]⟩
abbrev S1x1 : Shape := ⟨2, ![1, 1]⟩

abbrev nBuf : Space → Nat
  | .hbm => 204
  | .vmem => 0
  | .smem => 0
  | _ => 0

abbrev hbmTy0_0 (i : Nat) : BufTy := match i % 128 with
  | 0 => ⟨S10000x1, .f32⟩
  | 1 => ⟨S2x320000, .i32⟩
  | 2 => ⟨S10000, .i32⟩
  | 3 => ⟨S1x256, .f32⟩
  | 4 => ⟨S256, .f32⟩
  | 5 => ⟨S256x256, .f32⟩
  | 6 => ⟨S256, .f32⟩
  | 7 => ⟨S256x128, .f32⟩
  | 8 => ⟨S128, .f32⟩
  | 9 => ⟨S128x128, .f32⟩
  | 10 => ⟨S128, .f32⟩
  | 11 => ⟨S128x64, .f32⟩
  | 12 => ⟨S64, .f32⟩
  | 13 => ⟨S64x32, .f32⟩
  | 14 => ⟨S32, .f32⟩
  | 15 => ⟨S32x1, .f32⟩
  | 16 => ⟨S1, .f32⟩
  | 17 => ⟨S10000, .i32⟩
  | 18 => ⟨S1x320000, .i32⟩
  | 19 => ⟨S320000, .i32⟩
  | 20 => ⟨S330000, .i32⟩
  | 21 => ⟨S1x320000, .i32⟩
  | 22 => ⟨S320000, .i32⟩
  | 23 => ⟨S330000, .i32⟩
  | 24 => ⟨S_, .f32⟩
  | 25 => ⟨S330000, .f32⟩
  | 26 => ⟨S_, .f32⟩
  | 27 => ⟨S10000, .f32⟩
  | 28 => ⟨S330000x1, .i32⟩
  | 29 => ⟨S10000, .f32⟩
  | 30 => ⟨S_, .f32⟩
  | 31 => ⟨S10000, .f32⟩
  | 32 => ⟨S10000, .i1⟩
  | 33 => ⟨S_, .f32⟩
  | 34 => ⟨S10000, .f32⟩
  | 35 => ⟨S10000, .f32⟩
  | 36 => ⟨S10000, .f32⟩
  | 37 => ⟨S_, .f32⟩
  | 38 => ⟨S10000, .f32⟩
  | 39 => ⟨S10000, .f32⟩
  | 40 => ⟨S_, .f32⟩
  | 41 => ⟨S_, .f32⟩
  | 42 => ⟨S10000, .f32⟩
  | 43 => ⟨S10000, .f32⟩
  | 44 => ⟨S_, .i32⟩
  | 45 => ⟨S330000, .i32⟩
  | 46 => ⟨S330000, .i1⟩
  | 47 => ⟨S_, .i32⟩
  | 48 => ⟨S330000, .i32⟩
  | 49 => ⟨S330000, .i32⟩
  | 50 => ⟨S330000, .i32⟩
  | 51 => ⟨S330000x1, .i32⟩
  | 52 => ⟨S330000, .f32⟩
  | 53 => ⟨S_, .i32⟩
  | 54 => ⟨S330000, .i32⟩
  | 55 => ⟨S330000, .i1⟩
  | 56 => ⟨S_, .i32⟩
  | 57 => ⟨S330000, .i32⟩
  | 58 => ⟨S330000, .i32⟩
  | 59 => ⟨S330000, .i32⟩
  | 60 => ⟨S330000x1, .i32⟩
  | 61 => ⟨S330000, .f32⟩
  | 62 => ⟨S330000, .f32⟩
  | 63 => ⟨S10000x256, .f32⟩
  | 64 => ⟨S_, .i32⟩
  | 65 => ⟨S330000, .i32⟩
  | 66 => ⟨S330000, .i1⟩
  | 67 => ⟨S_, .i32⟩
  | 68 => ⟨S330000, .i32⟩
  | 69 => ⟨S330000, .i32⟩
  | 70 => ⟨S330000, .i32⟩
  | 71 => ⟨S330000x1, .i32⟩
  | 72 => ⟨S330000x256, .f32⟩
  | 73 => ⟨S330000x1, .f32⟩
  | 74 => ⟨S330000x256, .f32⟩
  | 75 => ⟨S330000x256, .f32⟩
  | 76 => ⟨S_, .f32⟩
  | 77 => ⟨S10000x256, .f32⟩
  | 78 => ⟨S330000x1, .i32⟩
  | 79 => ⟨S10000x256, .f32⟩
  | 80 => ⟨S1x256, .f32⟩
  | 81 => ⟨S10000x256, .f32⟩
  | 82 => ⟨S10000x256, .f32⟩
  | 83 => ⟨S_, .f32⟩
  | 84 => ⟨S10000x256, .f32⟩
  | 85 => ⟨S10000x256, .f32⟩
  | 86 => ⟨S10000, .i32⟩
  | 87 => ⟨S1x320000, .i32⟩
  | 88 => ⟨S320000, .i32⟩
  | 89 => ⟨S330000, .i32⟩
  | 90 => ⟨S1x320000, .i32⟩
  | 91 => ⟨S320000, .i32⟩
  | 92 => ⟨S330000, .i32⟩
  | 93 => ⟨S_, .f32⟩
  | 94 => ⟨S330000, .f32⟩
  | 95 => ⟨S_, .f32⟩
  | 96 => ⟨S10000, .f32⟩
  | 97 => ⟨S330000x1, .i32⟩
  | 98 => ⟨S10000, .f32⟩
  | 99 => ⟨S_, .f32⟩
  | 100 => ⟨S10000, .f32⟩
  | 101 => ⟨S10000, .i1⟩
  | 102 => ⟨S_, .f32⟩
  | 103 => ⟨S10000, .f32⟩
  | 104 => ⟨S10000, .f32⟩
  | 105 => ⟨S10000, .f32⟩
  | 106 => ⟨S_, .f32⟩
  | 107 => ⟨S10000, .f32⟩
  | 108 => ⟨S10000, .f32⟩
  | 109 => ⟨S_, .f32⟩
  | 110 => ⟨S_, .f32⟩
  | 111 => ⟨S10000, .f32⟩
  | 112 => ⟨S10000, .f32⟩
  | 113 => ⟨S_, .i32⟩
  | 114 => ⟨S330000, .i32⟩
  | 115 => ⟨S330000, .i1⟩
  | 116 => ⟨S_, .i32⟩
  | 117 => ⟨S330000, .i32⟩
  | 118 => ⟨S330000, .i32⟩
  | 119 => ⟨S330000, .i32⟩
  | 120 => ⟨S330000x1, .i32⟩
  | 121 => ⟨S330000, .f32⟩
  | 122 => ⟨S_, .i32⟩
  | 123 => ⟨S330000, .i32⟩
  | 124 => ⟨S330000, .i1⟩
  | 125 => ⟨S_, .i32⟩
  | 126 => ⟨S330000, .i32⟩
  | 127 => ⟨S330000, .i32⟩
  | _ => ⟨S10000x1, .f32⟩

abbrev hbmTy0_1 (i : Nat) : BufTy := match i % 128 with
  | 0 => ⟨S330000, .i32⟩
  | 1 => ⟨S330000x1, .i32⟩
  | 2 => ⟨S330000, .f32⟩
  | 3 => ⟨S330000, .f32⟩
  | 4 => ⟨S10000x256, .f32⟩
  | 5 => ⟨S_, .i32⟩
  | 6 => ⟨S330000, .i32⟩
  | 7 => ⟨S330000, .i1⟩
  | 8 => ⟨S_, .i32⟩
  | 9 => ⟨S330000, .i32⟩
  | 10 => ⟨S330000, .i32⟩
  | 11 => ⟨S330000, .i32⟩
  | 12 => ⟨S330000x1, .i32⟩
  | 13 => ⟨S330000x256, .f32⟩
  | 14 => ⟨S330000x1, .f32⟩
  | 15 => ⟨S330000x256, .f32⟩
  | 16 => ⟨S330000x256, .f32⟩
  | 17 => ⟨S_, .f32⟩
  | 18 => ⟨S10000x256, .f32⟩
  | 19 => ⟨S330000x1, .i32⟩
  | 20 => ⟨S10000x256, .f32⟩
  | 21 => ⟨S1x256, .f32⟩
  | 22 => ⟨S10000x256, .f32⟩
  | 23 => ⟨S10000x256, .f32⟩
  | 24 => ⟨S_, .f32⟩
  | 25 => ⟨S10000x256, .f32⟩
  | 26 => ⟨S10000x256, .f32⟩
  | 27 => ⟨S_, .f32⟩
  | 28 => ⟨S64x256, .f32⟩
  | 29 => ⟨S10000x1, .i32⟩
  | 30 => ⟨S64x256, .f32⟩
  | 31 => ⟨S_, .f32⟩
  | 32 => ⟨S10000, .f32⟩
  | 33 => ⟨S_, .f32⟩
  | 34 => ⟨S64, .f32⟩
  | 35 => ⟨S10000x1, .i32⟩
  | 36 => ⟨S64, .f32⟩
  | 37 => ⟨S_, .f32⟩
  | 38 => ⟨S64, .f32⟩
  | 39 => ⟨S64, .f32⟩
  | 40 => ⟨S64x1, .f32⟩
  | 41 => ⟨S64x256, .f32⟩
  | 42 => ⟨S64x256, .f32⟩
  | 43 => ⟨S64x128, .f32⟩
  | 44 => ⟨S1x128, .f32⟩
  | 45 => ⟨S64x128, .f32⟩
  | 46 => ⟨S64x128, .f32⟩
  | 47 => ⟨S_, .f32⟩
  | 48 => ⟨S64x128, .f32⟩
  | 49 => ⟨S64x128, .f32⟩
  | 50 => ⟨S64x128, .f32⟩
  | 51 => ⟨S1x128, .f32⟩
  | 52 => ⟨S64x128, .f32⟩
  | 53 => ⟨S64x128, .f32⟩
  | 54 => ⟨S_, .f32⟩
  | 55 => ⟨S64x128, .f32⟩
  | 56 => ⟨S64x128, .f32⟩
  | 57 => ⟨S64x64, .f32⟩
  | 58 => ⟨S1x64, .f32⟩
  | 59 => ⟨S64x64, .f32⟩
  | 60 => ⟨S64x64, .f32⟩
  | 61 => ⟨S_, .f32⟩
  | 62 => ⟨S64x64, .f32⟩
  | 63 => ⟨S64x64, .f32⟩
  | 64 => ⟨S64x32, .f32⟩
  | 65 => ⟨S1x32, .f32⟩
  | 66 => ⟨S64x32, .f32⟩
  | 67 => ⟨S64x32, .f32⟩
  | 68 => ⟨S_, .f32⟩
  | 69 => ⟨S64x32, .f32⟩
  | 70 => ⟨S64x32, .f32⟩
  | 71 => ⟨S64x1, .f32⟩
  | 72 => ⟨S1x1, .f32⟩
  | 73 => ⟨S64x1, .f32⟩
  | 74 => ⟨S64x1, .f32⟩
  | 75 => ⟨S64, .f32⟩
  | _ => ⟨S10000x1, .f32⟩

abbrev hbmTy (i : Nat) : BufTy := match i / 128 with
  | 0 => hbmTy0_0 i
  | 1 => hbmTy0_1 i
  | _ => ⟨S10000x1, .f32⟩

abbrev bufTy : (tb : Table) → Fin (tcTables nBuf tb) → BufTy
  | .hbm, ⟨i, _⟩ => hbmTy i
  | _, _ => ⟨S10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v18 : Ref sig .tc := ⟨.hbm, 43, rfl⟩
abbrev main_c : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_c_7 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_c_9 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_10 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call1_cst : Ref sig .tc := ⟨.hbm, 83, rfl⟩
abbrev main_call1_v0 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_11 : Ref sig .tc := ⟨.hbm, 93, rfl⟩
abbrev main_v59 : Ref sig .tc := ⟨.hbm, 94, rfl⟩
abbrev main_cst_12 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_13 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_15 : Ref sig .tc := ⟨.hbm, 106, rfl⟩
abbrev main_v68 : Ref sig .tc := ⟨.hbm, 107, rfl⟩
abbrev main_v69 : Ref sig .tc := ⟨.hbm, 108, rfl⟩
abbrev main_cst_16 : Ref sig .tc := ⟨.hbm, 109, rfl⟩
abbrev main_call2_v0 : Ref sig .tc := ⟨.hbm, 110, rfl⟩
abbrev main_call2_v1 : Ref sig .tc := ⟨.hbm, 111, rfl⟩
abbrev main_v70 : Ref sig .tc := ⟨.hbm, 112, rfl⟩
abbrev main_c_17 : Ref sig .tc := ⟨.hbm, 113, rfl⟩
abbrev main_v71 : Ref sig .tc := ⟨.hbm, 114, rfl⟩
abbrev main_v72 : Ref sig .tc := ⟨.hbm, 115, rfl⟩
abbrev main_c_18 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_19 : Ref sig .tc := ⟨.hbm, 122, rfl⟩
abbrev main_v78 : Ref sig .tc := ⟨.hbm, 123, rfl⟩
abbrev main_v79 : Ref sig .tc := ⟨.hbm, 124, rfl⟩
abbrev main_c_20 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_c_21 : Ref sig .tc := ⟨.hbm, 133, rfl⟩
abbrev main_v87 : Ref sig .tc := ⟨.hbm, 134, rfl⟩
abbrev main_v88 : Ref sig .tc := ⟨.hbm, 135, rfl⟩
abbrev main_c_22 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_23 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_call3_cst : Ref sig .tc := ⟨.hbm, 152, rfl⟩
abbrev main_call3_v0 : Ref sig .tc := ⟨.hbm, 153, rfl⟩
abbrev main_v103 : Ref sig .tc := ⟨.hbm, 154, rfl⟩
abbrev main_cst_24 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_25 : Ref sig .tc := ⟨.hbm, 159, rfl⟩
abbrev main_v107 : Ref sig .tc := ⟨.hbm, 160, rfl⟩
abbrev main_cst_26 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_27 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_call4_cst : Ref sig .tc := ⟨.hbm, 175, rfl⟩
abbrev main_call4_v0 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_call5_cst : Ref sig .tc := ⟨.hbm, 182, rfl⟩
abbrev main_call5_v0 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_call6_cst : Ref sig .tc := ⟨.hbm, 189, rfl⟩
abbrev main_call6_v0 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_call7_cst : Ref sig .tc := ⟨.hbm, 196, rfl⟩
abbrev main_call7_v0 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S64x256 : S_.BroadcastsInDim S64x256 (![] : Fin 0 → Fin S64x256.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x1_S1x256_S10000x256_1_0_0_1_n_n_wf : DotDims.WF S10000x1 S1x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x256_S10000x256_1_0_0_1_n_n_wf : DotDims.WF S10000x256 S256x256 S10000x256 [1] [0] [0] [1] [] []
  scatter_S64x256_S10000x1_S10000x256_1_0_0_1_wf : ScatterDims.WF S64x256 S10000x1 S10000x256 [1] [0] [0] 1
  scatter_S64_S10000x1_S10000_n_0_0_1_wf : ScatterDims.WF S64 S10000x1 S10000 [] [0] [0] 1
  dot_S64x256_S256x128_S64x128_1_0_0_1_n_n_wf : DotDims.WF S64x256 S256x128 S64x128 [1] [0] [0] [1] [] []
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x1_S1x256_S10000x256_1_0_0_1_n_n : DotDims S10000x1 S1x256 S10000x256 where
  lhsContracting := [1]
  rhsContracting := [0]
  lhsNonContracting := [0]
  rhsNonContracting := [1]
  lhsBatch := []
  rhsBatch := []
  wf := dot_S10000x1_S1x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S64x256_S10000x1_S10000x256_1_0_0_1 : ScatterDims S64x256 S10000x1 S10000x256 where
  updateWindowDims := [1]
  insertedWindowDims := [0]
  scatterDimsToOperandDims := [0]
  indexVectorDim := 1
  wf := scatter_S64x256_S10000x1_S10000x256_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

class Facts : Prop extends Facts₀ where

variable [Facts]
-- ==== Proof.K.Data0.lean ====
/- The proof data of pallas_call 0 (the adjacency matmul with bias and relu): on a 5 × 5 grid of points t = 5·i + k the body
   adds the product of the (i, k) block of the matrix with the k-th row block of the features to an accumulator it keeps
   in scratch — set to zero first when k = 0 — and, when k = 4, stores max(accumulator + bias, 0) as the i-th row block of the
   result. Stated here: each window's block at a point, the accumulator after each point by recursion on the point, the
   result block, the region invariant (the scratch at the accumulator the point before left), and the proof data. -/
import proofs.«143978_j4672924418728_1_alg».proof.Proof.Gen.Kernel.Launch
import proofs.«143978_j4672924418728_1_alg».proof.Proof.Gen.Kernel.Skeleton
import proofs.«143978_j4672924418728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the TensorCore's buffers when the region is entered: the parameter the region's proof data is stated at. -/
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch operand: the accumulator's buffer, whole. -/
abbrev scM0 : Memref sig .tc .vmem S2048x256 .f32 := Memref.whole cc0_scratch0

/-- The accumulator after the body at position `n`: this point's block product added to what the point before left,
    or to zero at the first point of a row block's sweep (n ≡ 0 mod 5). -/
def accAt0 (c : Dev nD) : (n : ℕ) → n < cfg0.N → Vec F S2048x256 .f32
  | 0, hn => k0_pay2 k0_pay1 (iblk0 V c 0 ⟨0, hn⟩) (iblk0 V c 1 ⟨0, hn⟩)
  | n + 1, hn =>
    k0_pay2 (if (n + 1) % 5 = 0 then k0_pay1 else accAt0 c n (Nat.lt_of_succ_lt hn))
      (iblk0 V c 0 ⟨n + 1, hn⟩) (iblk0 V c 1 ⟨n + 1, hn⟩)

/-- The accumulator at a first point of a sweep starts from zero. -/
theorem accAt0_first (c : Dev nD) (t : Fin cfg0.N) (h : t.val % 5 = 0) :
    accAt0 V c t.val t.isLt = k0_pay2 k0_pay1 (iblk0 V c 0 t) (iblk0 V c 1 t) := by
  obtain ⟨n, hn⟩ := t
  cases n with
  | zero => rfl
  | succ n => exact congrArg (fun z => k0_pay2 z _ _) (if_pos h)

/-- At any other point it continues from what the point before left. -/
theorem accAt0_next (c : Dev nD) (t : Fin cfg0.N) (h : ¬ t.val % 5 = 0) :
    accAt0 V c t.val t.isLt
      = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact congrArg (fun z => k0_pay2 z _ _) (if_neg h)

/-- The result block the body stores at the last point of a sweep: the accumulator plus the bias row, clipped below at zero.
    (At the other points the window is idle and this term is consulted by nothing.) -/
def outAt0 (c : Dev nD) (t : Fin cfg0.N) : Vec F S2048x256 .f32 :=
  k0_pay3 (accAt0 V c t.val t.isLt) (iblk0 V c 2 t)

/-- The core's scoped buffers that belong to the other pallas_call (its staging buffers and its scratch), each whole at
    some contents: the region does not touch them, and its invariant carries them from entry to exit. -/
def restS0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f))

/-- The region invariant before position `n`: before the first point the scoped rest with the scratch at anything;
    afterwards the scratch at the accumulator the point before left, the other call's scoped buffers at some contents, and the
    generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ restS0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ restS0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ restS0 c) ∗ (∃ r, prngReg c r)) := by
  cases n with
  | zero => exact absurd rfl hz
  | succ n => rfl

/-- The proof data of the pipeline on core `c`: the arrays as the region finds them; after the body each input's
    buffer at its block and the result's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

end Cert.Kernel.Hand

end
-- ==== Proof.K.Data1.lean ====
/- The proof data of pallas_call 1 (the adjacency matmul with bias and relu): on a 5 × 5 grid of points t = 5·i + k the body
   adds the product of the (i, k) block of the matrix with the k-th row block of the features to an accumulator it keeps
   in scratch — set to zero first when k = 0 — and, when k = 4, stores max(accumulator + bias, 0) as the i-th row block of the
   result. Stated here: each window's block at a point, the accumulator after each point by recursion on the point, the
   result block, the region invariant (the scratch at the accumulator the point before left), and the proof data. -/
import proofs.«143978_j4672924418728_1_alg».proof.Proof.Gen.Kernel.Launch
import proofs.«143978_j4672924418728_1_alg».proof.Proof.Gen.Kernel.Skeleton
import proofs.«143978_j4672924418728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the TensorCore's buffers when the region is entered: the parameter the region's proof data is stated at. -/
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operand: the accumulator's buffer, whole. -/
abbrev scM1 : Memref sig .tc .vmem S2048x256 .f32 := Memref.whole cc1_scratch0

/-- The accumulator after the body at position `n`: this point's block product added to what the point before left,
    or to zero at the first point of a row block's sweep (n ≡ 0 mod 5). -/
def accAt1 (c : Dev nD) : (n : ℕ) → n < cfg1.N → Vec F S2048x256 .f32
  | 0, hn => k1_pay2 k1_pay1 (iblk1 V c 0 ⟨0, hn⟩) (iblk1 V c 1 ⟨0, hn⟩)
  | n + 1, hn =>
    k1_pay2 (if (n + 1) % 5 = 0 then k1_pay1 else accAt1 c n (Nat.lt_of_succ_lt hn))
      (iblk1 V c 0 ⟨n + 1, hn⟩) (iblk1 V c 1 ⟨n + 1, hn⟩)

/-- The accumulator at a first point of a sweep starts from zero. -/
theorem accAt1_first (c : Dev nD) (t : Fin cfg1.N) (h : t.val % 5 = 0) :
    accAt1 V c t.val t.isLt = k1_pay2 k1_pay1 (iblk1 V c 0 t) (iblk1 V c 1 t) := by
  obtain ⟨n, hn⟩ := t
  cases n with
  | zero => rfl
  | succ n => exact congrArg (fun z => k1_pay2 z _ _) (if_pos h)

/-- At any other point it continues from what the point before left. -/
theorem accAt1_next (c : Dev nD) (t : Fin cfg1.N) (h : ¬ t.val % 5 = 0) :
    accAt1 V c t.val t.isLt
      = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact congrArg (fun z => k1_pay2 z _ _) (if_neg h)

/-- The result block the body stores at the last point of a sweep: the accumulator plus the bias row, clipped below at zero.
    (At the other points the window is idle and this term is consulted by nothing.) -/
def outAt1 (c : Dev nD) (t : Fin cfg1.N) : Vec F S2048x256 .f32 :=
  k1_pay3 (accAt1 V c t.val t.isLt) (iblk1 V c 2 t)

/-- The core's scoped buffers that belong to the other pallas_call (its staging buffers and its scratch), each whole at
    some contents: the region does not touch them, and its invariant carries them from entry to exit. -/
def restS1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f))

/-- The region invariant before position `n`: before the first point the scoped rest with the scratch at anything;
    afterwards the scratch at the accumulator the point before left, the other call's scoped buffers at some contents, and the
    generator register at some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ restS1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt1 V c n hn) ∗ restS1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt1 V c (n - 1) (by omega)) ∗ restS1 c) ∗ (∃ r, prngReg c r)) := by
  cases n with
  | zero => exact absurd rfl hz
  | succ n => rfl

/-- The proof data of the pipeline on core `c`: the arrays as the region finds them; after the body each input's
    buffer at its block and the result's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

end Cert.Kernel.Hand

end
-- ==== Proof.K.RunVals.lean ====
/- What the two kernel regions leave in the core's unscoped buffers. A region changes one buffer only: the array of its
   output window (window 3), which ends at the contents the pipeline's write-backs leave; its three input arrays and
   every other buffer stay as they were when the region was entered. The contents after the first region feed the host
   operations before the second one, so the second region's entry contents are stated over what the first one leaves. -/
import proofs.«143978_j4672924418728_1_alg».proof.Proof.Gen.Kernel.Regions
import proofs.«143978_j4672924418728_1_alg».proof.Proof.K.Data0
import proofs.«143978_j4672924418728_1_alg».proof.Proof.K.Data1

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.ShloMosaic.Pipeline (Dat)

variable {F : FTy → Type} [FloatOps F]

variable (m : (ℓ : Loc nD τ sig) → Buf (Elt F) ℓ)

/-- The TensorCore's buffers when the first region is entered: the launch contents after the host operations before it. -/
abbrev ent0 : (c : Dev nD) → (b : Ref sig .tc) → Buf (Elt F) ((c : Thread nD τ).loc b) :=
  fun c b => Gen.V5 m c (Proc.devRef .tc b)

/-- The first region's result array when the region is left: its write-backs folded over the entry contents. -/
def res0 (c : Dev nD) : Buf (Elt F) ((c : Thread nD τ).loc main_v54) :=
  (dat0 (ent0 m) c).arrAt 3 cfg0.N

/-- What the regions leave, as far as the first region: the entry contents with the result array replaced. -/
def outsA : Gen.Outs (F := F) := fun _ r c =>
  Function.update (Gen.V5 m c) (Proc.devRef .tc main_v54) (res0 m c) (Proc.devRef .tc r)

/-- The TensorCore's buffers when the second region is entered, over what the first one leaves. -/
abbrev ent1A : (c : Dev nD) → (b : Ref sig .tc) → Buf (Elt F) ((c : Thread nD τ).loc b) :=
  fun c b => Gen.V9 m (outsA m) c (Proc.devRef .tc b)

/-- The second region's result array when the region is left. -/
def res1 (c : Dev nD) : Buf (Elt F) ((c : Thread nD τ).loc main_v60) :=
  (dat1 (ent1A m) c).arrAt 3 cfg1.N

/-- What the regions leave in the unscoped buffers: after the second region (position 10) its entry contents with its
    result array replaced; at any other position the entry contents of the first region with its result array replaced. -/
def outs : Gen.Outs (F := F) := fun J r c =>
  match J with
  | 10 => Function.update (Gen.V9 m (outsA m) c) (Proc.devRef .tc main_v60) (res1 m c) (Proc.devRef .tc r)
  | _ => Function.update (Gen.V5 m c) (Proc.devRef .tc main_v54) (res0 m c) (Proc.devRef .tc r)

/-- The TensorCore's buffers when the second region is entered. -/
abbrev ent1 : (c : Dev nD) → (b : Ref sig .tc) → Buf (Elt F) ((c : Thread nD τ).loc b) :=
  fun c b => Gen.V9 m (outs m) c (Proc.devRef .tc b)

theorem outs_six (r : Ref sig .tc) (c : Dev nD) : outs m 6 r c = outsA m 6 r c := rfl

/-- The contents after the first region do not depend on what is said of the second. -/
theorem V6_outs (c : Dev nD) : Gen.V6 m (outs m) c = Gen.V6 m (outsA m) c :=
  congrArg (Function.update (Gen.V5 m c) (Proc.devRef .tc main_v54)) (outs_six m main_v54 c)

theorem V9_outs (c : Dev nD) : Gen.V9 m (outs m) c = Gen.V9 m (outsA m) c := by
  show StableHlo.after hostOps1_2 (StableHlo.after hostOps1_1 (StableHlo.after hostOps1 (Gen.V6 m (outs m) c)))
    = StableHlo.after hostOps1_2 (StableHlo.after hostOps1_1 (StableHlo.after hostOps1 (Gen.V6 m (outsA m) c)))
  rw [V6_outs]

theorem ent1_eq : ent1 m = ent1A m := funext fun c => funext fun b => by
  show Gen.V9 m (outs m) c _ = Gen.V9 m (outsA m) c _
  rw [V9_outs]

/-- After the first region its result array holds what the pipeline's write-backs leave. -/
theorem outs6 (c : Dev nD) : outs m 6 main_v54 c = (dat0 (ent0 m) c).arrAt 3 cfg0.N := by
  show Function.update (Gen.V5 m c) (Proc.devRef .tc main_v54) (res0 m c) (Proc.devRef .tc main_v54) = _
  rw [Function.update_self]; rfl

/-- After the second region its result array holds what the pipeline's write-backs leave. -/
theorem outs10 (c : Dev nD) : outs m 10 main_v60 c = (dat1 (ent1 m) c).arrAt 3 cfg1.N := by
  rw [ent1_eq]
  show Function.update (Gen.V9 m (outsA m) c) (Proc.devRef .tc main_v60) (res1 m c) (Proc.devRef .tc main_v60) = _
  rw [Function.update_self]; rfl

/-! ## The contents at each region's exit against those at its entry -/

/-- The contents when the first region is left, read at the TensorCore's references. -/
abbrev ext0 : (c : Dev nD) → (b : Ref sig .tc) → Buf (Elt F) ((c : Thread nD τ).loc b) :=
  fun c b => Gen.V6 m (outs m) c (Proc.devRef .tc b)

/-- The contents when the second region is left, read at the TensorCore's references. -/
abbrev ext1 : (c : Dev nD) → (b : Ref sig .tc) → Buf (Elt F) ((c : Thread nD τ).loc b) :=
  fun c b => Gen.V10 m (outs m) c (Proc.devRef .tc b)

/-- At the first region's exit each of its arrays holds what the pipeline leaves: an input array its entry contents
    (it is never written back), the result array the write-backs' fold. -/
theorem hF0 (c : Dev nD) : ∀ w : Fin cfg0.W, (dat0 (ent0 m) c).arrAt w cfg0.N = ext0 m c (Pipeline.arrRef spec0 w)
  | ⟨0, _⟩ => ((dat0 (ent0 m) c).arrAt_in 0 rfl _).trans ((A_eq0 (ent0 m) c 0).trans (Gen.V6_of m (outs m) c main_v49 (by decide)).symm)
  | ⟨1, _⟩ => ((dat0 (ent0 m) c).arrAt_in 1 rfl _).trans ((A_eq0 (ent0 m) c 1).trans (Gen.V6_of m (outs m) c main_v52 (by decide)).symm)
  | ⟨2, _⟩ => ((dat0 (ent0 m) c).arrAt_in 2 rfl _).trans ((A_eq0 (ent0 m) c 2).trans (Gen.V6_of m (outs m) c main_v53 (by decide)).symm)
  | ⟨3, _⟩ => by
    show _ = Function.update (Gen.V5 m c) (Proc.devRef .tc main_v54) (outs m 6 main_v54 c) (Proc.devRef .tc main_v54)
    rw [Function.update_self]; exact (outs6 m c).symm

/-- Every other buffer holds at the exit what it held at the entry. -/
theorem hrest0 (c : Dev nD) : ∀ b, b ∉ Finset.univ.image (Pipeline.arrRef spec0) → ext0 m c b = ent0 m c b :=
  fun b hb => Gen.V6_of m (outs m) c b fun h =>
    hb (Finset.mem_image.mpr ⟨3, Finset.mem_univ _, (List.mem_singleton.mp h).symm⟩)

theorem hF1 (c : Dev nD) : ∀ w : Fin cfg1.W, (dat1 (ent1 m) c).arrAt w cfg1.N = ext1 m c (Pipeline.arrRef spec1 w)
  | ⟨0, _⟩ => ((dat1 (ent1 m) c).arrAt_in 0 rfl _).trans ((A_eq1 (ent1 m) c 0).trans (Gen.V10_of m (outs m) c main_v49 (by decide)).symm)
  | ⟨1, _⟩ => ((dat1 (ent1 m) c).arrAt_in 1 rfl _).trans ((A_eq1 (ent1 m) c 1).trans (Gen.V10_of m (outs m) c main_v58 (by decide)).symm)
  | ⟨2, _⟩ => ((dat1 (ent1 m) c).arrAt_in 2 rfl _).trans ((A_eq1 (ent1 m) c 2).trans (Gen.V10_of m (outs m) c main_v59 (by decide)).symm)
  | ⟨3, _⟩ => by
    show _ = Function.update (Gen.V9 m (outs m) c) (Proc.devRef .tc main_v60) (outs m 10 main_v60 c) (Proc.devRef .tc main_v60)
    rw [Function.update_self]; exact (outs10 m c).symm

theorem hrest1 (c : Dev nD) : ∀ b, b ∉ Finset.univ.image (Pipeline.arrRef spec1) → ext1 m c b = ent1 m c b :=
  fun b hb => Gen.V10_of m (outs m) c b fun h =>
    hb (Finset.mem_image.mpr ⟨3, Finset.mem_univ _, (List.mem_singleton.mp h).symm⟩)

end Cert.Kernel.Hand

end
-- ==== Proof.K.Body0S.lean ====
/- The kernel body of pallas_call 0 branches twice on the inner grid coordinate k of the point t = 5·i + k: k = 0 (zero the
   accumulator first) and k = 4 (store the result block). Stated here: the two conditions as the body computes them from the
   coordinates, their closed forms t mod 5 = 0 and t mod 5 = 4 decided over the 25 points, and where the result window is
   idle (everywhere but at k = 4, and there it is not written back). -/
import proofs.«143978_j4672924418728_1_alg».proof.Proof.Gen.Kernel.Launch
import proofs.«143978_j4672924418728_1_alg».proof.Proof.Gen.Kernel.Skeleton
import proofs.«143978_j4672924418728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (the sweep's first point: the inner grid coordinate is 0), from the grid
    coordinates. -/
abbrev cond0_0 (i : grid0.Coords) : Prop := (Scalar.cmpi .ne (Scalar.extui (Scalar.cmpi .eq (BitVec.ofNat 32 (i 1).val) 0#32)) 0#32) = 1#1
/-- The condition of the body's second `scf.if` (the sweep's last point: the inner grid coordinate is 4). -/
abbrev cond0_1 (i : grid0.Coords) : Prop := k0_cond2 i = 1#1

/-- The first condition holds exactly at the first point of each sweep — decided over the grid. -/
theorem hcond0_0 : ∀ t : Fin cfg0.N, cond0_0 (grid0.coords t) ↔ t.val % 5 = 0 :=
  (by decide +kernel : ∀ t : Fin grid0.N, cond0_0 (grid0.coords t) ↔ t.val % 5 = 0)
/-- The second holds exactly at the last point of each sweep. -/
theorem hcond0_1 : ∀ t : Fin cfg0.N, cond0_1 (grid0.coords t) ↔ t.val % 5 = 4 :=
  (by decide +kernel : ∀ t : Fin grid0.N, cond0_1 (grid0.coords t) ↔ t.val % 5 = 4)

/-- The result window is idle wherever the second condition fails, and the pipeline does not write it back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it holds the window is live: the body stores the result block. -/
theorem liveAt0_3 : ∀ t : Fin cfg0.N, cond0_1 (grid0.coords t) → cfg0.idle 3 (grid0.coords t) = false := by decide +kernel

end Cert.Kernel.Hand

end
-- ==== Proof.LibWholeBlock.lean ====
/-
  Whole-block loads and stores of a whole buffer.
-/
import Idealize.ShloMosaic.Lib.Pipeline.FrameBody
import Idealize.ShloMosaic.Lib.Pipeline.Frame
import Idealize.ShloMosaic.Lib.Pipeline.Value

noncomputable section

namespace Idealize.ShloMosaic.WholeBlock

open Idealize.ShloMosaic

variable {Val : EltTy → Type} {S : Shape} {e : EltTy} {sig : RefSig} {κ : Kind} {sp : Space}

/-- A list of stores whose LAST one goes through the whole-shape rectangle at zero offsets leaves, read back through
    the view, that store's payload: whatever the buffer held and whatever the earlier stores wrote. -/
theorem read_writes_unit_zero [∀ e, Nonempty (Val e)] (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole-shape rectangle at zero offsets of a whole buffer holding `X` reads `X`. -/
theorem readAt_unit_zero_unread (m : Memref sig κ sp S e) (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  show View.ld (m.view.read Val (hm.unread X)) (Rect.unit off S.size inb) = X
  rw [hm.read_unread, View.ld_unit_zero h inb]

/-- The two zero offsets of a rank-2 rectangle, as the constant function. -/
theorem zero2 : (![0, 0] : Fin 2 → Nat) = fun _ => 0 := by
  funext a; match a with | ⟨0, _⟩ => rfl | ⟨1, _⟩ => rfl

end Idealize.ShloMosaic.WholeBlock

end
-- ==== Proof.K.Body0A.lean ====
/- The kernel body of pallas_call 0 run as a whole at the first point of a sweep (k = 0): on whole staging buffers holding the blocks x0 (matrix), x1 (features)
   and x2 (bias row), the scratch at anything and the result's buffer at anything (handed back untouched), it leaves the scratch at
   zero + x0 · x1 (`k0_pay2 k0_pay1 x0 x1`). Every load and store goes through the whole rectangle at zero offsets, so a covering store
   leaves its payload and a load of a whole buffer reads its contents. -/
import proofs.«143978_j4672924418728_1_alg».proof.Proof.K.Body0S
import proofs.«143978_j4672924418728_1_alg».proof.Proof.LibWholeBlock

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run0_A (c : Dev nD) (i : grid0.Coords)
    (arg2 : Memref sig .tc .vmem S2048x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S2048x256 .f32) (harg5 : arg5.IsWhole)
    (arg6 : Memref sig .tc .vmem S2048x256 .f32) (harg6 : arg6.IsWhole) (hc0 : cond0_0 i) (hc1 : ¬cond0_1 i)
    (x0 : Vec F S2048x2048 .bf16) (x1 : Vec F S2048x256 .bf16) (x2 : Vec F S1x256 .f32) (xi3 : Vec F S2048x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 k0_pay1 x0 x1)) -∗ K ⟨⟩))
      ⊢ wp frame (wpE (defs₀ (F := F)) Variants.none c none) E (cc0__adj_matmul_kernel i arg2 harg2 arg3 harg3 arg4 harg4 arg5 harg5 arg6 harg6) K := by
  simp only [cc0__adj_matmul_kernel_eq_skeleton]; unfold cc0__adj_matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- the later of the two stores into the scratch covers it: its payload is what is left; the accumulator it read
  -- back is the zero block the earlier store wrote
  refine (WholeBlock.read_writes_unit_zero arg6.view _ WholeBlock.zero2 _ _ _).trans ?_
  rw [WholeBlock.readAt_unit_zero_unread arg2 harg2 WholeBlock.zero2, WholeBlock.readAt_unit_zero_unread arg3 harg3 WholeBlock.zero2]
  sl_unfold_run_names
  rw [View.readCov_unit_zero arg6.view WholeBlock.zero2]

end Cert.Kernel.Hand

end
-- ==== Proof.K.Body0B.lean ====
/- The kernel body of pallas_call 0 run as a whole at an inner point of a sweep (0 < k < 4): on whole staging buffers holding the blocks x0 (matrix), x1 (features)
   and x2 (bias row), the scratch at the accumulator `acc` and the result's buffer at anything (handed back untouched), it leaves the
   scratch at acc + x0 · x1 (`k0_pay2 acc x0 x1`). Every load and store goes through the whole rectangle at zero offsets, so a covering store
   leaves its payload and a load of a whole buffer reads its contents. -/
import proofs.«143978_j4672924418728_1_alg».proof.Proof.K.Body0S
import proofs.«143978_j4672924418728_1_alg».proof.Proof.LibWholeBlock

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run0_B (c : Dev nD) (i : grid0.Coords)
    (arg2 : Memref sig .tc .vmem S2048x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S2048x256 .f32) (harg5 : arg5.IsWhole)
    (arg6 : Memref sig .tc .vmem S2048x256 .f32) (harg6 : arg6.IsWhole) (hc0 : ¬cond0_0 i) (hc1 : ¬cond0_1 i)
    (x0 : Vec F S2048x2048 .bf16) (x1 : Vec F S2048x256 .bf16) (x2 : Vec F S1x256 .f32) (xi3 : Vec F S2048x256 .f32) (acc : Vec F S2048x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare acc
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 acc x0 x1)) -∗ K ⟨⟩))
      ⊢ wp frame (wpE (defs₀ (F := F)) Variants.none c none) E (cc0__adj_matmul_kernel i arg2 harg2 arg3 harg3 arg4 harg4 arg5 harg5 arg6 harg6) K := by
  simp only [cc0__adj_matmul_kernel_eq_skeleton]; unfold cc0__adj_matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- the one store covers the scratch: its payload, over the three whole-block loads, is what is left
  refine (WholeBlock.read_writes_unit_zero arg6.view _ WholeBlock.zero2 _ _ []).trans ?_
  rw [WholeBlock.readAt_unit_zero_unread arg6 harg6 WholeBlock.zero2, WholeBlock.readAt_unit_zero_unread arg2 harg2 WholeBlock.zero2, WholeBlock.readAt_unit_zero_unread arg3 harg3 WholeBlock.zero2]

end Cert.Kernel.Hand

end
-- ==== Proof.K.Body0C.lean ====
/- The kernel body of pallas_call 0 run as a whole at the last point of a sweep (k = 4): on whole staging buffers holding the blocks x0 (matrix), x1 (features)
   and x2 (bias row), the scratch at the accumulator `acc`, it leaves the scratch at acc + x0 · x1 and the result's buffer at
   max(acc + x0 · x1 + x2, 0) (`k0_pay3 (k0_pay2 acc x0 x1) x2`). Every load and store goes through the whole rectangle at zero offsets, so a covering store
   leaves its payload and a load of a whole buffer reads its contents. -/
import proofs.«143978_j4672924418728_1_alg».proof.Proof.K.Body0S
import proofs.«143978_j4672924418728_1_alg».proof.Proof.LibWholeBlock

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run0_C (c : Dev nD) (i : grid0.Coords)
    (arg2 : Memref sig .tc .vmem S2048x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S2048x256 .f32) (harg5 : arg5.IsWhole)
    (arg6 : Memref sig .tc .vmem S2048x256 .f32) (harg6 : arg6.IsWhole) (hc0 : ¬cond0_0 i) (hc1 : cond0_1 i)
    (x0 : Vec F S2048x2048 .bf16) (x1 : Vec F S2048x256 .bf16) (x2 : Vec F S1x256 .f32) (acc : Vec F S2048x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare acc
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 acc x0 x1) x2) ∗ owns (c : Thread nD τ) arg6 fullShare (k0_pay2 acc x0 x1)) -∗ K ⟨⟩))
      ⊢ wp frame (wpE (defs₀ (F := F)) Variants.none c none) E (cc0__adj_matmul_kernel i arg2 harg2 arg3 harg3 arg4 harg4 arg5 harg5 arg6 harg6) K := by
  simp only [cc0__adj_matmul_kernel_eq_skeleton]; unfold cc0__adj_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    -- the store into the result's buffer covers it; the accumulator it read back is what the store into the scratch left
    refine (WholeBlock.read_writes_unit_zero arg5.view _ WholeBlock.zero2 _ _ []).trans ?_
    sl_unfold_run_names
    rw [View.readCov_unit_zero arg6.view WholeBlock.zero2, WholeBlock.readAt_unit_zero_unread arg4 harg4 WholeBlock.zero2, WholeBlock.readAt_unit_zero_unread arg6 harg6 WholeBlock.zero2, WholeBlock.readAt_unit_zero_unread arg2 harg2 WholeBlock.zero2, WholeBlock.readAt_unit_zero_unread arg3 harg3 WholeBlock.zero2]
  iexists _; isplitr
  swap; · iexact HS
  ipureintro
  sl_unfold_run_names
  refine (WholeBlock.read_writes_unit_zero arg6.view _ WholeBlock.zero2 _ _ []).trans ?_
  rw [WholeBlock.readAt_unit_zero_unread arg6 harg6 WholeBlock.zero2, WholeBlock.readAt_unit_zero_unread arg2 harg2 WholeBlock.zero2, WholeBlock.readAt_unit_zero_unread arg3 harg3 WholeBlock.zero2]

end Cert.Kernel.Hand

end
-- ==== Proof.K.Body0.lean ====
/- The body of pallas_call 0 at every grid point, against the proof data of Data0: each point falls in one of three cases by
   its position k in its sweep (k = 0, 0 < k < 4, k = 4); in each the whole-body run of that case turns what the point is handed
   — the inputs' blocks, the accumulator the point before left (anything at k = 0), the idle result buffer — into what the proof
   data names after it (`accAt0`, and at k = 4 `outAt0`). Then the obligation in the library's form, and the invariant's two ends. -/
import proofs.«143978_j4672924418728_1_alg».proof.Proof.K.Data0
import proofs.«143978_j4672924418728_1_alg».proof.Proof.K.Body0A
import proofs.«143978_j4672924418728_1_alg».proof.Proof.K.Body0B
import proofs.«143978_j4672924418728_1_alg».proof.Proof.K.Body0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the launch hands the region, with the scratch as a memref owned at some contents and the other call's scoped
    buffers named apart. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA restS0; rw [scopedRest0_eq]; simp only [scM0, owns_whole]; try rfl

/-- Each input window's current staging buffer holds its block at every point, fetched there or not: the body leaves
    the block in place, the windows are uncut and never idle. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- What the body is called with at point `t`: the invariant, what the core owes, and each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position in its sweep selects the case:
    at the first point the scratch is handed over at anything (or, after an earlier sweep, at what that left) and comes
    back at this point's block product added to zero; at a later point it is handed over at the accumulator of the point
    before and comes back with this point's product added; at the last point the result window, idle until then and
    handed back untouched, receives the accumulator plus the bias clipped below at zero. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 25 := lt_of_lt_of_eq t.isLt (show cfg0.N = 25 from N_0)
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  rw [show (dat0 V c).leavesExact 2 t = owns (c : Thread nD τ) (st0_2 t) fullShare ((dat0 V c).after 2 t) from rfl, after0_2]
  by_cases h1 : t.val % 5 = 4
  · have h0 : ¬t.val % 5 = 0 := by omega
    have hz : t.val ≠ 0 := by omega
    rw [show (dat0 V c).leavesExact 3 t = owns (c : Thread nD τ) (st0_3 t) fullShare ((dat0 V c).after 3 t) from by
      unfold Dat.leavesExact; rw [liveAt0_3 t ((hcond0_1 t).mpr h1)], after0_3]
    unfold outAt0
    rw [accAt0_next V c t h0, PhiS0_castSucc V c t, PhiS0_pos V c _ _ hz]
    iintro ⟨⟨⟨HS, HR⟩, Hg⟩, Ho, ⟨%d0, H0⟩, ⟨%d1, H1⟩, ⟨%d2, H2⟩, ⟨%d3, H3⟩⟩
    iapply (run0_C c (grid0.coords t) _ _ _ _ _ _ _ _ _ _ (fun h => h0 ((hcond0_0 t).mp h)) ((hcond0_1 t).mpr h1)
      (iblk0 V c 0 t) (iblk0 V c 1 t) (iblk0 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Dat.leavesExact_idle (dat0 V c) 3 t (idleAt0_3 t (fun h => h1 ((hcond0_1 t).mp h))) (noFlush0_3 t (fun h => h1 ((hcond0_1 t).mp h)))]
    by_cases h0 : t.val % 5 = 0
    · rw [accAt0_first V c t h0]
      by_cases hz : t.val = 0
      · rw [PhiS0_castSucc V c t, PhiS0_zero V c _ _ hz, PhiA0_eq]
        iintro ⟨⟨⟨HS, HR⟩, Hg⟩, Ho, ⟨%d0, H0⟩, ⟨%d1, H1⟩, ⟨%d2, H2⟩, ⟨%d3, H3⟩⟩
        iapply (run0_A c (grid0.coords t) _ _ _ _ _ _ _ _ _ _ ((hcond0_0 t).mpr h0) (fun h => h1 ((hcond0_1 t).mp h))
          (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS, HR⟩, Hg⟩, Ho, ⟨%d0, H0⟩, ⟨%d1, H1⟩, ⟨%d2, H2⟩, ⟨%d3, H3⟩⟩
        iapply (run0_A c (grid0.coords t) _ _ _ _ _ _ _ _ _ _ ((hcond0_0 t).mpr h0) (fun h => h1 ((hcond0_1 t).mp h))
          (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accAt0_next V c t h0, PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (run0_B c (grid0.coords t) _ _ _ _ _ _ _ _ _ _ (fun h => h0 ((hcond0_0 t).mp h)) (fun h => h1 ((hcond0_1 t).mp h))
        (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulator's value is forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]; · iexists _; iexact HS
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 25 := N_0; omega)

end Cert.Kernel.Hand

end
-- ==== Proof.K.Body1S.lean ====
/- The kernel body of pallas_call 1 branches twice on the inner grid coordinate k of the point t = 5·i + k: k = 0 (zero the
   accumulator first) and k = 4 (store the result block). Stated here: the two conditions as the body computes them from the
   coordinates, their closed forms t mod 5 = 0 and t mod 5 = 4 decided over the 25 points, and where the result window is
   idle (everywhere but at k = 4, and there it is not written back). -/
import proofs.«143978_j4672924418728_1_alg».proof.Proof.Gen.Kernel.Launch
import proofs.«143978_j4672924418728_1_alg».proof.Proof.Gen.Kernel.Skeleton
import proofs.«143978_j4672924418728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (the sweep's first point: the inner grid coordinate is 0), from the grid
    coordinates. -/
abbrev cond1_0 (i : grid1.Coords) : Prop := (Scalar.cmpi .ne (Scalar.extui (Scalar.cmpi .eq (BitVec.ofNat 32 (i 1).val) 0#32)) 0#32) = 1#1
/-- The condition of the body's second `scf.if` (the sweep's last point: the inner grid coordinate is 4). -/
abbrev cond1_1 (i : grid1.Coords) : Prop := k1_cond2 i = 1#1

/-- The first condition holds exactly at the first point of each sweep — decided over the grid. -/
theorem hcond1_0 : ∀ t : Fin cfg1.N, cond1_0 (grid1.coords t) ↔ t.val % 5 = 0 :=
  (by decide +kernel : ∀ t : Fin grid1.N, cond1_0 (grid1.coords t) ↔ t.val % 5 = 0)
/-- The second holds exactly at the last point of each sweep. -/
theorem hcond1_1 : ∀ t : Fin cfg1.N, cond1_1 (grid1.coords t) ↔ t.val % 5 = 4 :=
  (by decide +kernel : ∀ t : Fin grid1.N, cond1_1 (grid1.coords t) ↔ t.val % 5 = 4)

/-- The result window is idle wherever the second condition fails, and the pipeline does not write it back there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it holds the window is live: the body stores the result block. -/
theorem liveAt1_3 : ∀ t : Fin cfg1.N, cond1_1 (grid1.coords t) → cfg1.idle 3 (grid1.coords t) = false := by decide +kernel

end Cert.Kernel.Hand

end
-- ==== Proof.K.Body1A.lean ====
/- The kernel body of pallas_call 1 run as a whole at the first point of a sweep (k = 0): on whole staging buffers holding the blocks x0 (matrix), x1 (features)
   and x2 (bias row), the scratch at anything and the result's buffer at anything (handed back untouched), it leaves the scratch at
   zero + x0 · x1 (`k1_pay2 k1_pay1 x0 x1`). Every load and store goes through the whole rectangle at zero offsets, so a covering store
   leaves its payload and a load of a whole buffer reads its contents. -/
import proofs.«143978_j4672924418728_1_alg».proof.Proof.K.Body1S
import proofs.«143978_j4672924418728_1_alg».proof.Proof.LibWholeBlock

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run1_A (c : Dev nD) (i : grid1.Coords)
    (arg2 : Memref sig .tc .vmem S2048x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S2048x256 .f32) (harg5 : arg5.IsWhole)
    (arg6 : Memref sig .tc .vmem S2048x256 .f32) (harg6 : arg6.IsWhole) (hc0 : cond1_0 i) (hc1 : ¬cond1_1 i)
    (x0 : Vec F S2048x2048 .bf16) (x1 : Vec F S2048x256 .bf16) (x2 : Vec F S1x256 .f32) (xi3 : Vec F S2048x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 k1_pay1 x0 x1)) -∗ K ⟨⟩))
      ⊢ wp frame (wpE (defs₀ (F := F)) Variants.none c none) E (cc1__adj_matmul_kernel i arg2 harg2 arg3 harg3 arg4 harg4 arg5 harg5 arg6 harg6) K := by
  simp only [cc1__adj_matmul_kernel_eq_skeleton]; unfold cc1__adj_matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- the later of the two stores into the scratch covers it: its payload is what is left; the accumulator it read
  -- back is the zero block the earlier store wrote
  refine (WholeBlock.read_writes_unit_zero arg6.view _ WholeBlock.zero2 _ _ _).trans ?_
  rw [WholeBlock.readAt_unit_zero_unread arg2 harg2 WholeBlock.zero2, WholeBlock.readAt_unit_zero_unread arg3 harg3 WholeBlock.zero2]
  sl_unfold_run_names
  rw [View.readCov_unit_zero arg6.view WholeBlock.zero2]

end Cert.Kernel.Hand

end
-- ==== Proof.K.Body1B.lean ====
/- The kernel body of pallas_call 1 run as a whole at an inner point of a sweep (0 < k < 4): on whole staging buffers holding the blocks x0 (matrix), x1 (features)
   and x2 (bias row), the scratch at the accumulator `acc` and the result's buffer at anything (handed back untouched), it leaves the
   scratch at acc + x0 · x1 (`k1_pay2 acc x0 x1`). Every load and store goes through the whole rectangle at zero offsets, so a covering store
   leaves its payload and a load of a whole buffer reads its contents. -/
import proofs.«143978_j4672924418728_1_alg».proof.Proof.K.Body1S
import proofs.«143978_j4672924418728_1_alg».proof.Proof.LibWholeBlock

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run1_B (c : Dev nD) (i : grid1.Coords)
    (arg2 : Memref sig .tc .vmem S2048x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S2048x256 .f32) (harg5 : arg5.IsWhole)
    (arg6 : Memref sig .tc .vmem S2048x256 .f32) (harg6 : arg6.IsWhole) (hc0 : ¬cond1_0 i) (hc1 : ¬cond1_1 i)
    (x0 : Vec F S2048x2048 .bf16) (x1 : Vec F S2048x256 .bf16) (x2 : Vec F S1x256 .f32) (xi3 : Vec F S2048x256 .f32) (acc : Vec F S2048x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare acc
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 acc x0 x1)) -∗ K ⟨⟩))
      ⊢ wp frame (wpE (defs₀ (F := F)) Variants.none c none) E (cc1__adj_matmul_kernel i arg2 harg2 arg3 harg3 arg4 harg4 arg5 harg5 arg6 harg6) K := by
  simp only [cc1__adj_matmul_kernel_eq_skeleton]; unfold cc1__adj_matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- the one store covers the scratch: its payload, over the three whole-block loads, is what is left
  refine (WholeBlock.read_writes_unit_zero arg6.view _ WholeBlock.zero2 _ _ []).trans ?_
  rw [WholeBlock.readAt_unit_zero_unread arg6 harg6 WholeBlock.zero2, WholeBlock.readAt_unit_zero_unread arg2 harg2 WholeBlock.zero2, WholeBlock.readAt_unit_zero_unread arg3 harg3 WholeBlock.zero2]

end Cert.Kernel.Hand

end
-- ==== Proof.K.Body1C.lean ====
/- The kernel body of pallas_call 1 run as a whole at the last point of a sweep (k = 4): on whole staging buffers holding the blocks x0 (matrix), x1 (features)
   and x2 (bias row), the scratch at the accumulator `acc`, it leaves the scratch at acc + x0 · x1 and the result's buffer at
   max(acc + x0 · x1 + x2, 0) (`k1_pay3 (k1_pay2 acc x0 x1) x2`). Every load and store goes through the whole rectangle at zero offsets, so a covering store
   leaves its payload and a load of a whole buffer reads its contents. -/
import proofs.«143978_j4672924418728_1_alg».proof.Proof.K.Body1S
import proofs.«143978_j4672924418728_1_alg».proof.Proof.LibWholeBlock

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run1_C (c : Dev nD) (i : grid1.Coords)
    (arg2 : Memref sig .tc .vmem S2048x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S2048x256 .f32) (harg5 : arg5.IsWhole)
    (arg6 : Memref sig .tc .vmem S2048x256 .f32) (harg6 : arg6.IsWhole) (hc0 : ¬cond1_0 i) (hc1 : cond1_1 i)
    (x0 : Vec F S2048x2048 .bf16) (x1 : Vec F S2048x256 .bf16) (x2 : Vec F S1x256 .f32) (acc : Vec F S2048x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare acc
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 acc x0 x1) x2) ∗ owns (c : Thread nD τ) arg6 fullShare (k1_pay2 acc x0 x1)) -∗ K ⟨⟩))
      ⊢ wp frame (wpE (defs₀ (F := F)) Variants.none c none) E (cc1__adj_matmul_kernel i arg2 harg2 arg3 harg3 arg4 harg4 arg5 harg5 arg6 harg6) K := by
  simp only [cc1__adj_matmul_kernel_eq_skeleton]; unfold cc1__adj_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    -- the store into the result's buffer covers it; the accumulator it read back is what the store into the scratch left
    refine (WholeBlock.read_writes_unit_zero arg5.view _ WholeBlock.zero2 _ _ []).trans ?_
    sl_unfold_run_names
    rw [View.readCov_unit_zero arg6.view WholeBlock.zero2, WholeBlock.readAt_unit_zero_unread arg4 harg4 WholeBlock.zero2, WholeBlock.readAt_unit_zero_unread arg6 harg6 WholeBlock.zero2, WholeBlock.readAt_unit_zero_unread arg2 harg2 WholeBlock.zero2, WholeBlock.readAt_unit_zero_unread arg3 harg3 WholeBlock.zero2]
  iexists _; isplitr
  swap; · iexact HS
  ipureintro
  sl_unfold_run_names
  refine (WholeBlock.read_writes_unit_zero arg6.view _ WholeBlock.zero2 _ _ []).trans ?_
  rw [WholeBlock.readAt_unit_zero_unread arg6 harg6 WholeBlock.zero2, WholeBlock.readAt_unit_zero_unread arg2 harg2 WholeBlock.zero2, WholeBlock.readAt_unit_zero_unread arg3 harg3 WholeBlock.zero2]

end Cert.Kernel.Hand

end
-- ==== Proof.K.Body1.lean ====
/- The body of pallas_call 1 at every grid point, against the proof data of Data1: each point falls in one of three cases by
   its position k in its sweep (k = 0, 0 < k < 4, k = 4); in each the whole-body run of that case turns what the point is handed
   — the inputs' blocks, the accumulator the point before left (anything at k = 0), the idle result buffer — into what the proof
   data names after it (`accAt1`, and at k = 4 `outAt1`). Then the obligation in the library's form, and the invariant's two ends. -/
import proofs.«143978_j4672924418728_1_alg».proof.Proof.K.Data1
import proofs.«143978_j4672924418728_1_alg».proof.Proof.K.Body1A
import proofs.«143978_j4672924418728_1_alg».proof.Proof.K.Body1B
import proofs.«143978_j4672924418728_1_alg».proof.Proof.K.Body1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the launch hands the region, with the scratch as a memref owned at some contents and the other call's scoped
    buffers named apart. -/
theorem PhiA1_eq (c : Dev nD) :
    (Pipeline.ΦA spec1 c : sProp 𝕄)
      = iprop(iprop((∃ d, owns (c : Thread nD τ) scM1 fullShare d) ∗ restS1 c) ∗ (∃ r, prngReg c r)) := by
  unfold Pipeline.ΦA restS1; rw [scopedRest1_eq]; simp only [scM1, owns_whole]
  -- the scoped rest lists the scratch last: the two sides differ by the order of the conjuncts only
  apply Idealize.SL.BI.Entails.antisymm
  · show (_ : sProp 𝕄) ⊢ _
    iintro ⟨⟨R1, R2, R3, R4, R5, R6, R7, R8, HS⟩, Hg⟩
    isplitl [HS R1 R2 R3 R4 R5 R6 R7 R8]
    · isplitl [HS]; · iexact HS
      isplitl [R1]; · iexact R1
      isplitl [R2]; · iexact R2
      isplitl [R3]; · iexact R3
      isplitl [R4]; · iexact R4
      isplitl [R5]; · iexact R5
      isplitl [R6]; · iexact R6
      isplitl [R7]; · iexact R7
      iexact R8
    iexact Hg
  · show (_ : sProp 𝕄) ⊢ _
    iintro ⟨⟨HS, R1, R2, R3, R4, R5, R6, R7, R8⟩, Hg⟩
    isplitl [HS R1 R2 R3 R4 R5 R6 R7 R8]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact HS
    iexact Hg

/-- Each input window's current staging buffer holds its block at every point, fetched there or not: the body leaves
    the block in place, the windows are uncut and never idle. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- What the body is called with at point `t`: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's position in its sweep selects the case:
    at the first point the scratch is handed over at anything (or, after an earlier sweep, at what that left) and comes
    back at this point's block product added to zero; at a later point it is handed over at the accumulator of the point
    before and comes back with this point's product added; at the last point the result window, idle until then and
    handed back untouched, receives the accumulator plus the bias clipped below at zero. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  by_cases h1 : t.val % 5 = 4
  · have h0 : ¬t.val % 5 = 0 := by omega
    have hz : t.val ≠ 0 := by omega
    rw [show (dat1 V c).leavesExact 3 t = owns (c : Thread nD τ) (st1_3 t) fullShare ((dat1 V c).after 3 t) from by
      unfold Dat.leavesExact; rw [liveAt1_3 t ((hcond1_1 t).mpr h1)], after1_3]
    unfold outAt1
    rw [accAt1_next V c t h0, PhiS1_castSucc V c t, PhiS1_pos V c _ _ hz]
    iintro ⟨⟨⟨HS, HR⟩, Hg⟩, Ho, ⟨%d0, H0⟩, ⟨%d1, H1⟩, ⟨%d2, H2⟩, ⟨%d3, H3⟩⟩
    iapply (run1_C c (grid1.coords t) _ _ _ _ _ _ _ _ _ _ (fun h => h0 ((hcond1_0 t).mp h)) ((hcond1_1 t).mpr h1)
      (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Dat.leavesExact_idle (dat1 V c) 3 t (idleAt1_3 t (fun h => h1 ((hcond1_1 t).mp h))) (noFlush1_3 t (fun h => h1 ((hcond1_1 t).mp h)))]
    by_cases h0 : t.val % 5 = 0
    · rw [accAt1_first V c t h0]
      by_cases hz : t.val = 0
      · rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩⟩
        iapply (run1_A c (grid1.coords t) _ _ _ _ _ _ _ _ _ _ ((hcond1_0 t).mpr h0) (fun h => h1 ((hcond1_1 t).mp h))
          (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩⟩
        iapply (run1_A c (grid1.coords t) _ _ _ _ _ _ _ _ _ _ ((hcond1_0 t).mpr h0) (fun h => h1 ((hcond1_1 t).mp h))
          (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accAt1_next V c t h0, PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's value is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]; · iexists _; iexact HS
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 25 := N_1; omega)

end Cert.Kernel.Hand

end
-- ==== Proof.K.Run.lean ====
/- The run of @main through its two kernel regions. Between two items of @main a core holds every unscoped buffer whole
   at the contents the items so far leave, its generator register at some state, and owes nothing. A host stretch
   takes the buffers to the contents its operations compute; a kernel region takes its four arrays out of the buffers,
   runs the pipeline over them from the proof data's invariant, and puts them back at what the write-backs leave. At
   the end every unscoped buffer is read off the last contents; the argument arrays, which no item writes, are there
   as launched. -/
import proofs.«143978_j4672924418728_1_alg».proof.Proof.K.RunVals
import proofs.«143978_j4672924418728_1_alg».proof.Proof.K.Body0
import proofs.«143978_j4672924418728_1_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Both pipelines' proof data, each at the contents its region is entered with. -/
def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) c

abbrev 𝒱₀ : Variants := Variants.none
/-- No core owes another anything: no level is assigned. -/
abbrev L : GSem nD τ sig → Finset Unit := fun _ => ∅
abbrev lv : GSem nD τ sig → Unit → ℕ := fun _ _ => 0

/-- What a core holds beside the buffers between any two items: its generator register at some state, and nothing owed. -/
abbrev R (c : Dev nD) : sProp 𝕄 :=
  iprop((∃ r, prngReg c r) ∗ ∃ W, owes (c : Thread nD τ) (0 : CellTallies nD τ sig Unit) W)

/-- The same beside the buffers before, between and after the two regions. -/
abbrev RE : Fin 3 → Dev nD → sProp 𝕄 := fun _ => R

/-! ## The regions as segments -/

-- the library's rules, stated over the pinned configuration, unify with the printed one only when unification may
-- unfold plain definitions in a metavariable's type
set_option backward.isDefEq.respectTransparency.types false in
/-- Region 0 over the thread state: entered with every unscoped buffer at the contents before it, left with them at the
    contents after it. Its four arrays are split out of the unscoped buffers at the entry and put back at the exit; the
    generator register goes into the region invariant and comes back; nothing is owed; the kernel has no semaphore of
    its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (ent0 m) c)
    unfold Pipeline.ΦA
    iintro ⟨Hp, -, Hr⟩
    isplitl [Hr]; · iexact Hr
    iexact Hp
  hout c := by
    refine BIBase.Entails.trans (hout0 (ent0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's rules, stated over the pinned configuration, unify with the printed one only when unification may
-- unfold plain definitions in a metavariable's type
set_option backward.isDefEq.respectTransparency.types false in
/-- Region 1 over the thread state: entered with every unscoped buffer at the contents before it, left with them at the
    contents after it. Its four arrays are split out of the unscoped buffers at the entry and put back at the exit; the
    generator register goes into the region invariant and comes back; nothing is owed; the kernel has no semaphore of
    its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (ent1 m) c)
    unfold Pipeline.ΦA
    iintro ⟨Hp, -, Hr⟩
    isplitl [Hr]; · iexact Hr
    iexact Hp
  hout c := by
    refine BIBase.Entails.trans (hout1 (ent1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost element is the pipelines' own: the certificate adds nothing to it. -/
theorem launch_elt :
    (ownU (initOf (Pipeline.cells cfgs cellOf_inj) (Pipeline.launchToks cfgs cellOf_inj)) : sProp 𝕄)
      ⊢ |={Set.univ}=> iprop(BI.own ((emb₁ : Emb _ 𝕄) (initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core beside its buffers makes the first rest state: the generator register, nothing owed. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (RE 0) : sProp 𝕄) := by
  refine Pipeline.initEach L lv fun c => ?_
  iintro ⟨⟨-, HO, -, Hp, -⟩, -⟩
  imodintro
  isplitl [Hp]; · iexists _; iexact Hp
  iexists ∅; iexact HO

/-- The last rest state owes nothing. -/
theorem rest_fin (c : Dev nD) :
    RE 2 c ⊢ (iprop(∃ W, owes (c : Thread nD τ) (0 : CellTallies nD τ sig Unit) W) : sProp 𝕄) := by
  iintro ⟨-, HO⟩; iexact HO

/-! ## The run -/

-- the launch theorem's implicit arguments are found by unifying its conclusion with this one, which takes unfolding
-- plain definitions in a metavariable's type
set_option backward.isDefEq.respectTransparency.types false in
/-- Every weakly fair execution of @main from memory `m` with zero counters terminates, and in every final memory each
    unscoped buffer of each core holds the last contents: the launch contents taken through the host stretches and, at
    the two result arrays, what the regions leave. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Gen.V19 m (outs m) c b) := by
  refine Pipeline.θ_run_regions_kit_dev (pcfgs (F := F)) Gen.adm (pdats m) () cellOf_inj emb₁ defs₀ 𝒱₀ L lv m ρ main
    (Gen.segs m (outs m) 𝒱₀ L lv RE () (pdats m) (reg0 m) (reg1 m))
    (fun c Q => by
      rewrite [main_chain c, Pipeline.Seg.run_eq_chain,
        show (Gen.segs m (outs m) 𝒱₀ L lv RE () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_elt)
    (T₀ := fun c => iprop(StableHlo.held (c : Thread nD τ) (Pipeline.ucRefs τ sig) (Gen.V0 m c) ∗ RE 0 c))
    (Tₙ := fun c => StableHlo.held (c : Thread nD τ) (Pipeline.ucRefs τ sig) (Gen.V19 m (outs m) c))
    (hch := fun c => ⟨.rfl, .rfl, .rfl, .rfl, .rfl, .rfl, .rfl, .rfl, .rfl, .rfl, .rfl, .rfl, .rfl, .rfl, .rfl, .rfl, .rfl, .rfl, .rfl,
      sep_mono .rfl (rest_fin c)⟩)
    (hinit := ?_)
    (QY := fun c s => ∀ b ∈ Pipeline.ucRefs τ sig, s.mem ((c : Thread nD τ).1, b) = Gen.V19 m (outs m) c b)
    (hfin := fun c s' => ?_) (hQ := fun _ h => h)
  · -- the launch: the unscoped buffers are held at the launch contents; the rest makes the first rest state
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last contents
    iintro ⟨Hh, HSI⟩
    unfold StableHlo.held
    imodintro
    iapply (pointsTo_read_all (Pipeline.ucRefs τ sig) (fun b => ((c : Thread nD τ).1, b)) (Gen.V19 m (outs m) c) s')
    isplitl [Hh] <;> iassumption

/-- The frame claim at any float model: @main terminates from any memory with zero counters and every argument array
    ends as launched (no host stretch writes one and no region may change one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) launch_elt RE (rest_init ρ) rest_fin
    (reg0 m) (fun _ => .rfl) (fun _ => .rfl) (reg1 m) (fun _ => .rfl) (fun _ => .rfl)

end Cert.Kernel.Hand

end
-- ==== Proof.KI.Data0.lean ====
/- The proof data of pallas_call 0 (the adjacency matmul with bias and relu): on a 5 × 5 grid of points t = 5·i + k the body
   adds the product of the (i, k) block of the matrix with the k-th row block of the features to an accumulator it keeps
   in scratch — set to zero first when k = 0 — and, when k = 4, stores max(accumulator + bias, 0) as the i-th row block of the
   result. Stated here: each window's block at a point, the accumulator after each point by recursion on the point, the
   result block, the region invariant (the scratch at the accumulator the point before left), and the proof data. -/
import proofs.«143978_j4672924418728_1_alg».proof.Proof.Gen.KernelIdeal.Launch
import proofs.«143978_j4672924418728_1_alg».proof.Proof.Gen.KernelIdeal.Skeleton
import proofs.«143978_j4672924418728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the TensorCore's buffers when the region is entered: the parameter the region's proof data is stated at. -/
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch operand: the accumulator's buffer, whole. -/
abbrev scM0 : Memref sig .tc .vmem S2048x256 .f32 := Memref.whole cc0_scratch0

/-- The accumulator after the body at position `n`: this point's block product added to what the point before left,
    or to zero at the first point of a row block's sweep (n ≡ 0 mod 5). -/
def accAt0 (c : Dev nD) : (n : ℕ) → n < cfg0.N → Vec F S2048x256 .f32
  | 0, hn => k0_pay2 k0_pay1 (iblk0 V c 0 ⟨0, hn⟩) (iblk0 V c 1 ⟨0, hn⟩)
  | n + 1, hn =>
    k0_pay2 (if (n + 1) % 5 = 0 then k0_pay1 else accAt0 c n (Nat.lt_of_succ_lt hn))
      (iblk0 V c 0 ⟨n + 1, hn⟩) (iblk0 V c 1 ⟨n + 1, hn⟩)

/-- The accumulator at a first point of a sweep starts from zero. -/
theorem accAt0_first (c : Dev nD) (t : Fin cfg0.N) (h : t.val % 5 = 0) :
    accAt0 V c t.val t.isLt = k0_pay2 k0_pay1 (iblk0 V c 0 t) (iblk0 V c 1 t) := by
  obtain ⟨n, hn⟩ := t
  cases n with
  | zero => rfl
  | succ n => exact congrArg (fun z => k0_pay2 z _ _) (if_pos h)

/-- At any other point it continues from what the point before left. -/
theorem accAt0_next (c : Dev nD) (t : Fin cfg0.N) (h : ¬ t.val % 5 = 0) :
    accAt0 V c t.val t.isLt
      = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact congrArg (fun z => k0_pay2 z _ _) (if_neg h)

/-- The result block the body stores at the last point of a sweep: the accumulator plus the bias row, clipped below at zero.
    (At the other points the window is idle and this term is consulted by nothing.) -/
def outAt0 (c : Dev nD) (t : Fin cfg0.N) : Vec F S2048x256 .f32 :=
  k0_pay3 (accAt0 V c t.val t.isLt) (iblk0 V c 2 t)

/-- The core's scoped buffers that belong to the other pallas_call (its staging buffers and its scratch), each whole at
    some contents: the region does not touch them, and its invariant carries them from entry to exit. -/
def restS0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ f : Buf (Elt F) ((c : Thread nD τ).loc cc1_scratch0), ((c : Thread nD τ).loc cc1_scratch0) ↦{fullShare} f))

/-- The region invariant before position `n`: before the first point the scoped rest with the scratch at anything;
    afterwards the scratch at the accumulator the point before left, the other call's scoped buffers at some contents, and the
    generator register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ restS0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ restS0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ restS0 c) ∗ (∃ r, prngReg c r)) := by
  cases n with
  | zero => exact absurd rfl hz
  | succ n => rfl

/-- The proof data of the pipeline on core `c`: the arrays as the region finds them; after the body each input's
    buffer at its block and the result's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

end Cert.KernelIdeal.Hand

end
-- ==== Proof.KI.Data1.lean ====
/- The proof data of pallas_call 1 (the adjacency matmul with bias and relu): on a 5 × 5 grid of points t = 5·i + k the body
   adds the product of the (i, k) block of the matrix with the k-th row block of the features to an accumulator it keeps
   in scratch — set to zero first when k = 0 — and, when k = 4, stores max(accumulator + bias, 0) as the i-th row block of the
   result. Stated here: each window's block at a point, the accumulator after each point by recursion on the point, the
   result block, the region invariant (the scratch at the accumulator the point before left), and the proof data. -/
import proofs.«143978_j4672924418728_1_alg».proof.Proof.Gen.KernelIdeal.Launch
import proofs.«143978_j4672924418728_1_alg».proof.Proof.Gen.KernelIdeal.Skeleton
import proofs.«143978_j4672924418728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of the TensorCore's buffers when the region is entered: the parameter the region's proof data is stated at. -/
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch operand: the accumulator's buffer, whole. -/
abbrev scM1 : Memref sig .tc .vmem S2048x256 .f32 := Memref.whole cc1_scratch0

/-- The accumulator after the body at position `n`: this point's block product added to what the point before left,
    or to zero at the first point of a row block's sweep (n ≡ 0 mod 5). -/
def accAt1 (c : Dev nD) : (n : ℕ) → n < cfg1.N → Vec F S2048x256 .f32
  | 0, hn => k1_pay2 k1_pay1 (iblk1 V c 0 ⟨0, hn⟩) (iblk1 V c 1 ⟨0, hn⟩)
  | n + 1, hn =>
    k1_pay2 (if (n + 1) % 5 = 0 then k1_pay1 else accAt1 c n (Nat.lt_of_succ_lt hn))
      (iblk1 V c 0 ⟨n + 1, hn⟩) (iblk1 V c 1 ⟨n + 1, hn⟩)

/-- The accumulator at a first point of a sweep starts from zero. -/
theorem accAt1_first (c : Dev nD) (t : Fin cfg1.N) (h : t.val % 5 = 0) :
    accAt1 V c t.val t.isLt = k1_pay2 k1_pay1 (iblk1 V c 0 t) (iblk1 V c 1 t) := by
  obtain ⟨n, hn⟩ := t
  cases n with
  | zero => rfl
  | succ n => exact congrArg (fun z => k1_pay2 z _ _) (if_pos h)

/-- At any other point it continues from what the point before left. -/
theorem accAt1_next (c : Dev nD) (t : Fin cfg1.N) (h : ¬ t.val % 5 = 0) :
    accAt1 V c t.val t.isLt
      = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact congrArg (fun z => k1_pay2 z _ _) (if_neg h)

/-- The result block the body stores at the last point of a sweep: the accumulator plus the bias row, clipped below at zero.
    (At the other points the window is idle and this term is consulted by nothing.) -/
def outAt1 (c : Dev nD) (t : Fin cfg1.N) : Vec F S2048x256 .f32 :=
  k1_pay3 (accAt1 V c t.val t.isLt) (iblk1 V c 2 t)

/-- The core's scoped buffers that belong to the other pallas_call (its staging buffers and its scratch), each whole at
    some contents: the region does not touch them, and its invariant carries them from entry to exit. -/
def restS1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f))

/-- The region invariant before position `n`: before the first point the scoped rest with the scratch at anything;
    afterwards the scratch at the accumulator the point before left, the other call's scoped buffers at some contents, and the
    generator register at some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ restS1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt1 V c n hn) ∗ restS1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt1 V c (n - 1) (by omega)) ∗ restS1 c) ∗ (∃ r, prngReg c r)) := by
  cases n with
  | zero => exact absurd rfl hz
  | succ n => rfl

/-- The proof data of the pipeline on core `c`: the arrays as the region finds them; after the body each input's
    buffer at its block and the result's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

end Cert.KernelIdeal.Hand

end
-- ==== Proof.KI.RunVals.lean ====
/- What the two kernel regions leave in the core's unscoped buffers. A region changes one buffer only: the array of its
   output window (window 3), which ends at the contents the pipeline's write-backs leave; its three input arrays and
   every other buffer stay as they were when the region was entered. The contents after the first region feed the host
   operations before the second one, so the second region's entry contents are stated over what the first one leaves. -/
import proofs.«143978_j4672924418728_1_alg».proof.Proof.Gen.KernelIdeal.Regions
import proofs.«143978_j4672924418728_1_alg».proof.Proof.KI.Data0
import proofs.«143978_j4672924418728_1_alg».proof.Proof.KI.Data1

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.ShloMosaic.Pipeline (Dat)

variable {F : FTy → Type} [FloatOps F]

variable (m : (ℓ : Loc nD τ sig) → Buf (Elt F) ℓ)

/-- The TensorCore's buffers when the first region is entered: the launch contents after the host operations before it. -/
abbrev ent0 : (c : Dev nD) → (b : Ref sig .tc) → Buf (Elt F) ((c : Thread nD τ).loc b) :=
  fun c b => Gen.V5 m c (Proc.devRef .tc b)

/-- The first region's result array when the region is left: its write-backs folded over the entry contents. -/
def res0 (c : Dev nD) : Buf (Elt F) ((c : Thread nD τ).loc main_v54) :=
  (dat0 (ent0 m) c).arrAt 3 cfg0.N

/-- What the regions leave, as far as the first region: the entry contents with the result array replaced. -/
def outsA : Gen.Outs (F := F) := fun _ r c =>
  Function.update (Gen.V5 m c) (Proc.devRef .tc main_v54) (res0 m c) (Proc.devRef .tc r)

/-- The TensorCore's buffers when the second region is entered, over what the first one leaves. -/
abbrev ent1A : (c : Dev nD) → (b : Ref sig .tc) → Buf (Elt F) ((c : Thread nD τ).loc b) :=
  fun c b => Gen.V9 m (outsA m) c (Proc.devRef .tc b)

/-- The second region's result array when the region is left. -/
def res1 (c : Dev nD) : Buf (Elt F) ((c : Thread nD τ).loc main_v60) :=
  (dat1 (ent1A m) c).arrAt 3 cfg1.N

/-- What the regions leave in the unscoped buffers: after the second region (position 10) its entry contents with its
    result array replaced; at any other position the entry contents of the first region with its result array replaced. -/
def outs : Gen.Outs (F := F) := fun J r c =>
  match J with
  | 10 => Function.update (Gen.V9 m (outsA m) c) (Proc.devRef .tc main_v60) (res1 m c) (Proc.devRef .tc r)
  | _ => Function.update (Gen.V5 m c) (Proc.devRef .tc main_v54) (res0 m c) (Proc.devRef .tc r)

/-- The TensorCore's buffers when the second region is entered. -/
abbrev ent1 : (c : Dev nD) → (b : Ref sig .tc) → Buf (Elt F) ((c : Thread nD τ).loc b) :=
  fun c b => Gen.V9 m (outs m) c (Proc.devRef .tc b)

theorem outs_six (r : Ref sig .tc) (c : Dev nD) : outs m 6 r c = outsA m 6 r c := rfl

/-- The contents after the first region do not depend on what is said of the second. -/
theorem V6_outs (c : Dev nD) : Gen.V6 m (outs m) c = Gen.V6 m (outsA m) c :=
  congrArg (Function.update (Gen.V5 m c) (Proc.devRef .tc main_v54)) (outs_six m main_v54 c)

theorem V9_outs (c : Dev nD) : Gen.V9 m (outs m) c = Gen.V9 m (outsA m) c := by
  show StableHlo.after hostOps1_2 (StableHlo.after hostOps1_1 (StableHlo.after hostOps1 (Gen.V6 m (outs m) c)))
    = StableHlo.after hostOps1_2 (StableHlo.after hostOps1_1 (StableHlo.after hostOps1 (Gen.V6 m (outsA m) c)))
  rw [V6_outs]

theorem ent1_eq : ent1 m = ent1A m := funext fun c => funext fun b => by
  show Gen.V9 m (outs m) c _ = Gen.V9 m (outsA m) c _
  rw [V9_outs]

/-- After the first region its result array holds what the pipeline's write-backs leave. -/
theorem outs6 (c : Dev nD) : outs m 6 main_v54 c = (dat0 (ent0 m) c).arrAt 3 cfg0.N := by
  show Function.update (Gen.V5 m c) (Proc.devRef .tc main_v54) (res0 m c) (Proc.devRef .tc main_v54) = _
  rw [Function.update_self]; rfl

/-- After the second region its result array holds what the pipeline's write-backs leave. -/
theorem outs10 (c : Dev nD) : outs m 10 main_v60 c = (dat1 (ent1 m) c).arrAt 3 cfg1.N := by
  rw [ent1_eq]
  show Function.update (Gen.V9 m (outsA m) c) (Proc.devRef .tc main_v60) (res1 m c) (Proc.devRef .tc main_v60) = _
  rw [Function.update_self]; rfl

/-! ## The contents at each region's exit against those at its entry -/

/-- The contents when the first region is left, read at the TensorCore's references. -/
abbrev ext0 : (c : Dev nD) → (b : Ref sig .tc) → Buf (Elt F) ((c : Thread nD τ).loc b) :=
  fun c b => Gen.V6 m (outs m) c (Proc.devRef .tc b)

/-- The contents when the second region is left, read at the TensorCore's references. -/
abbrev ext1 : (c : Dev nD) → (b : Ref sig .tc) → Buf (Elt F) ((c : Thread nD τ).loc b) :=
  fun c b => Gen.V10 m (outs m) c (Proc.devRef .tc b)

/-- At the first region's exit each of its arrays holds what the pipeline leaves: an input array its entry contents
    (it is never written back), the result array the write-backs' fold. -/
theorem hF0 (c : Dev nD) : ∀ w : Fin cfg0.W, (dat0 (ent0 m) c).arrAt w cfg0.N = ext0 m c (Pipeline.arrRef spec0 w)
  | ⟨0, _⟩ => ((dat0 (ent0 m) c).arrAt_in 0 rfl _).trans ((A_eq0 (ent0 m) c 0).trans (Gen.V6_of m (outs m) c main_v49 (by decide)).symm)
  | ⟨1, _⟩ => ((dat0 (ent0 m) c).arrAt_in 1 rfl _).trans ((A_eq0 (ent0 m) c 1).trans (Gen.V6_of m (outs m) c main_v52 (by decide)).symm)
  | ⟨2, _⟩ => ((dat0 (ent0 m) c).arrAt_in 2 rfl _).trans ((A_eq0 (ent0 m) c 2).trans (Gen.V6_of m (outs m) c main_v53 (by decide)).symm)
  | ⟨3, _⟩ => by
    show _ = Function.update (Gen.V5 m c) (Proc.devRef .tc main_v54) (outs m 6 main_v54 c) (Proc.devRef .tc main_v54)
    rw [Function.update_self]; exact (outs6 m c).symm

/-- Every other buffer holds at the exit what it held at the entry. -/
theorem hrest0 (c : Dev nD) : ∀ b, b ∉ Finset.univ.image (Pipeline.arrRef spec0) → ext0 m c b = ent0 m c b :=
  fun b hb => Gen.V6_of m (outs m) c b fun h =>
    hb (Finset.mem_image.mpr ⟨3, Finset.mem_univ _, (List.mem_singleton.mp h).symm⟩)

theorem hF1 (c : Dev nD) : ∀ w : Fin cfg1.W, (dat1 (ent1 m) c).arrAt w cfg1.N = ext1 m c (Pipeline.arrRef spec1 w)
  | ⟨0, _⟩ => ((dat1 (ent1 m) c).arrAt_in 0 rfl _).trans ((A_eq1 (ent1 m) c 0).trans (Gen.V10_of m (outs m) c main_v49 (by decide)).symm)
  | ⟨1, _⟩ => ((dat1 (ent1 m) c).arrAt_in 1 rfl _).trans ((A_eq1 (ent1 m) c 1).trans (Gen.V10_of m (outs m) c main_v58 (by decide)).symm)
  | ⟨2, _⟩ => ((dat1 (ent1 m) c).arrAt_in 2 rfl _).trans ((A_eq1 (ent1 m) c 2).trans (Gen.V10_of m (outs m) c main_v59 (by decide)).symm)
  | ⟨3, _⟩ => by
    show _ = Function.update (Gen.V9 m (outs m) c) (Proc.devRef .tc main_v60) (outs m 10 main_v60 c) (Proc.devRef .tc main_v60)
    rw [Function.update_self]; exact (outs10 m c).symm

theorem hrest1 (c : Dev nD) : ∀ b, b ∉ Finset.univ.image (Pipeline.arrRef spec1) → ext1 m c b = ent1 m c b :=
  fun b hb => Gen.V10_of m (outs m) c b fun h =>
    hb (Finset.mem_image.mpr ⟨3, Finset.mem_univ _, (List.mem_singleton.mp h).symm⟩)

end Cert.KernelIdeal.Hand

end
-- ==== Proof.KI.Body0S.lean ====
/- The kernel body of pallas_call 0 branches twice on the inner grid coordinate k of the point t = 5·i + k: k = 0 (zero the
   accumulator first) and k = 4 (store the result block). Stated here: the two conditions as the body computes them from the
   coordinates, their closed forms t mod 5 = 0 and t mod 5 = 4 decided over the 25 points, and where the result window is
   idle (everywhere but at k = 4, and there it is not written back). -/
import proofs.«143978_j4672924418728_1_alg».proof.Proof.Gen.KernelIdeal.Launch
import proofs.«143978_j4672924418728_1_alg».proof.Proof.Gen.KernelIdeal.Skeleton
import proofs.«143978_j4672924418728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (the sweep's first point: the inner grid coordinate is 0), from the grid
    coordinates. -/
abbrev cond0_0 (i : grid0.Coords) : Prop := (Scalar.cmpi .ne (Scalar.extui (Scalar.cmpi .eq (BitVec.ofNat 32 (i 1).val) 0#32)) 0#32) = 1#1
/-- The condition of the body's second `scf.if` (the sweep's last point: the inner grid coordinate is 4). -/
abbrev cond0_1 (i : grid0.Coords) : Prop := k0_cond2 i = 1#1

/-- The first condition holds exactly at the first point of each sweep — decided over the grid. -/
theorem hcond0_0 : ∀ t : Fin cfg0.N, cond0_0 (grid0.coords t) ↔ t.val % 5 = 0 :=
  (by decide +kernel : ∀ t : Fin grid0.N, cond0_0 (grid0.coords t) ↔ t.val % 5 = 0)
/-- The second holds exactly at the last point of each sweep. -/
theorem hcond0_1 : ∀ t : Fin cfg0.N, cond0_1 (grid0.coords t) ↔ t.val % 5 = 4 :=
  (by decide +kernel : ∀ t : Fin grid0.N, cond0_1 (grid0.coords t) ↔ t.val % 5 = 4)

/-- The result window is idle wherever the second condition fails, and the pipeline does not write it back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it holds the window is live: the body stores the result block. -/
theorem liveAt0_3 : ∀ t : Fin cfg0.N, cond0_1 (grid0.coords t) → cfg0.idle 3 (grid0.coords t) = false := by decide +kernel

end Cert.KernelIdeal.Hand

end
-- ==== Proof.KI.Body0A.lean ====
/- The kernel body of pallas_call 0 run as a whole at the first point of a sweep (k = 0): on whole staging buffers holding the blocks x0 (matrix), x1 (features)
   and x2 (bias row), the scratch at anything and the result's buffer at anything (handed back untouched), it leaves the scratch at
   zero + x0 · x1 (`k0_pay2 k0_pay1 x0 x1`). Every load and store goes through the whole rectangle at zero offsets, so a covering store
   leaves its payload and a load of a whole buffer reads its contents. -/
import proofs.«143978_j4672924418728_1_alg».proof.Proof.KI.Body0S
import proofs.«143978_j4672924418728_1_alg».proof.Proof.LibWholeBlock

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run0_A (c : Dev nD) (i : grid0.Coords)
    (arg2 : Memref sig .tc .vmem S2048x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S2048x256 .f32) (harg5 : arg5.IsWhole)
    (arg6 : Memref sig .tc .vmem S2048x256 .f32) (harg6 : arg6.IsWhole) (hc0 : cond0_0 i) (hc1 : ¬cond0_1 i)
    (x0 : Vec F S2048x2048 .bf16) (x1 : Vec F S2048x256 .bf16) (x2 : Vec F S1x256 .f32) (xi3 : Vec F S2048x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 k0_pay1 x0 x1)) -∗ K ⟨⟩))
      ⊢ wp frame (wpE (defs₀ (F := F)) Variants.none c none) E (cc0__adj_matmul_kernel i arg2 harg2 arg3 harg3 arg4 harg4 arg5 harg5 arg6 harg6) K := by
  simp only [cc0__adj_matmul_kernel_eq_skeleton]; unfold cc0__adj_matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- the later of the two stores into the scratch covers it: its payload is what is left; the accumulator it read
  -- back is the zero block the earlier store wrote
  refine (WholeBlock.read_writes_unit_zero arg6.view _ WholeBlock.zero2 _ _ _).trans ?_
  rw [WholeBlock.readAt_unit_zero_unread arg2 harg2 WholeBlock.zero2, WholeBlock.readAt_unit_zero_unread arg3 harg3 WholeBlock.zero2]
  sl_unfold_run_names
  rw [View.readCov_unit_zero arg6.view WholeBlock.zero2]

end Cert.KernelIdeal.Hand

end
-- ==== Proof.KI.Body0B.lean ====
/- The kernel body of pallas_call 0 run as a whole at an inner point of a sweep (0 < k < 4): on whole staging buffers holding the blocks x0 (matrix), x1 (features)
   and x2 (bias row), the scratch at the accumulator `acc` and the result's buffer at anything (handed back untouched), it leaves the
   scratch at acc + x0 · x1 (`k0_pay2 acc x0 x1`). Every load and store goes through the whole rectangle at zero offsets, so a covering store
   leaves its payload and a load of a whole buffer reads its contents. -/
import proofs.«143978_j4672924418728_1_alg».proof.Proof.KI.Body0S
import proofs.«143978_j4672924418728_1_alg».proof.Proof.LibWholeBlock

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run0_B (c : Dev nD) (i : grid0.Coords)
    (arg2 : Memref sig .tc .vmem S2048x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S2048x256 .f32) (harg5 : arg5.IsWhole)
    (arg6 : Memref sig .tc .vmem S2048x256 .f32) (harg6 : arg6.IsWhole) (hc0 : ¬cond0_0 i) (hc1 : ¬cond0_1 i)
    (x0 : Vec F S2048x2048 .bf16) (x1 : Vec F S2048x256 .bf16) (x2 : Vec F S1x256 .f32) (xi3 : Vec F S2048x256 .f32) (acc : Vec F S2048x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare acc
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 acc x0 x1)) -∗ K ⟨⟩))
      ⊢ wp frame (wpE (defs₀ (F := F)) Variants.none c none) E (cc0__adj_matmul_kernel i arg2 harg2 arg3 harg3 arg4 harg4 arg5 harg5 arg6 harg6) K := by
  simp only [cc0__adj_matmul_kernel_eq_skeleton]; unfold cc0__adj_matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- the one store covers the scratch: its payload, over the three whole-block loads, is what is left
  refine (WholeBlock.read_writes_unit_zero arg6.view _ WholeBlock.zero2 _ _ []).trans ?_
  rw [WholeBlock.readAt_unit_zero_unread arg6 harg6 WholeBlock.zero2, WholeBlock.readAt_unit_zero_unread arg2 harg2 WholeBlock.zero2, WholeBlock.readAt_unit_zero_unread arg3 harg3 WholeBlock.zero2]

end Cert.KernelIdeal.Hand

end
-- ==== Proof.KI.Body0C.lean ====
/- The kernel body of pallas_call 0 run as a whole at the last point of a sweep (k = 4): on whole staging buffers holding the blocks x0 (matrix), x1 (features)
   and x2 (bias row), the scratch at the accumulator `acc`, it leaves the scratch at acc + x0 · x1 and the result's buffer at
   max(acc + x0 · x1 + x2, 0) (`k0_pay3 (k0_pay2 acc x0 x1) x2`). Every load and store goes through the whole rectangle at zero offsets, so a covering store
   leaves its payload and a load of a whole buffer reads its contents. -/
import proofs.«143978_j4672924418728_1_alg».proof.Proof.KI.Body0S
import proofs.«143978_j4672924418728_1_alg».proof.Proof.LibWholeBlock

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run0_C (c : Dev nD) (i : grid0.Coords)
    (arg2 : Memref sig .tc .vmem S2048x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S2048x256 .f32) (harg5 : arg5.IsWhole)
    (arg6 : Memref sig .tc .vmem S2048x256 .f32) (harg6 : arg6.IsWhole) (hc0 : ¬cond0_0 i) (hc1 : cond0_1 i)
    (x0 : Vec F S2048x2048 .bf16) (x1 : Vec F S2048x256 .bf16) (x2 : Vec F S1x256 .f32) (acc : Vec F S2048x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare acc
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 acc x0 x1) x2) ∗ owns (c : Thread nD τ) arg6 fullShare (k0_pay2 acc x0 x1)) -∗ K ⟨⟩))
      ⊢ wp frame (wpE (defs₀ (F := F)) Variants.none c none) E (cc0__adj_matmul_kernel i arg2 harg2 arg3 harg3 arg4 harg4 arg5 harg5 arg6 harg6) K := by
  simp only [cc0__adj_matmul_kernel_eq_skeleton]; unfold cc0__adj_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    -- the store into the result's buffer covers it; the accumulator it read back is what the store into the scratch left
    refine (WholeBlock.read_writes_unit_zero arg5.view _ WholeBlock.zero2 _ _ []).trans ?_
    sl_unfold_run_names
    rw [View.readCov_unit_zero arg6.view WholeBlock.zero2, WholeBlock.readAt_unit_zero_unread arg4 harg4 WholeBlock.zero2, WholeBlock.readAt_unit_zero_unread arg6 harg6 WholeBlock.zero2, WholeBlock.readAt_unit_zero_unread arg2 harg2 WholeBlock.zero2, WholeBlock.readAt_unit_zero_unread arg3 harg3 WholeBlock.zero2]
  iexists _; isplitr
  swap; · iexact HS
  ipureintro
  sl_unfold_run_names
  refine (WholeBlock.read_writes_unit_zero arg6.view _ WholeBlock.zero2 _ _ []).trans ?_
  rw [WholeBlock.readAt_unit_zero_unread arg6 harg6 WholeBlock.zero2, WholeBlock.readAt_unit_zero_unread arg2 harg2 WholeBlock.zero2, WholeBlock.readAt_unit_zero_unread arg3 harg3 WholeBlock.zero2]

end Cert.KernelIdeal.Hand

end
-- ==== Proof.KI.Body0.lean ====
/- The body of pallas_call 0 at every grid point, against the proof data of Data0: each point falls in one of three cases by
   its position k in its sweep (k = 0, 0 < k < 4, k = 4); in each the whole-body run of that case turns what the point is handed
   — the inputs' blocks, the accumulator the point before left (anything at k = 0), the idle result buffer — into what the proof
   data names after it (`accAt0`, and at k = 4 `outAt0`). Then the obligation in the library's form, and the invariant's two ends. -/
import proofs.«143978_j4672924418728_1_alg».proof.Proof.KI.Data0
import proofs.«143978_j4672924418728_1_alg».proof.Proof.KI.Body0A
import proofs.«143978_j4672924418728_1_alg».proof.Proof.KI.Body0B
import proofs.«143978_j4672924418728_1_alg».proof.Proof.KI.Body0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the launch hands the region, with the scratch as a memref owned at some contents and the other call's scoped
    buffers named apart. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA restS0; rw [scopedRest0_eq]; simp only [scM0, owns_whole]; try rfl

/-- Each input window's current staging buffer holds its block at every point, fetched there or not: the body leaves
    the block in place, the windows are uncut and never idle. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- What the body is called with at point `t`: the invariant, what the core owes, and each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position in its sweep selects the case:
    at the first point the scratch is handed over at anything (or, after an earlier sweep, at what that left) and comes
    back at this point's block product added to zero; at a later point it is handed over at the accumulator of the point
    before and comes back with this point's product added; at the last point the result window, idle until then and
    handed back untouched, receives the accumulator plus the bias clipped below at zero. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 25 := lt_of_lt_of_eq t.isLt (show cfg0.N = 25 from N_0)
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  rw [show (dat0 V c).leavesExact 2 t = owns (c : Thread nD τ) (st0_2 t) fullShare ((dat0 V c).after 2 t) from rfl, after0_2]
  by_cases h1 : t.val % 5 = 4
  · have h0 : ¬t.val % 5 = 0 := by omega
    have hz : t.val ≠ 0 := by omega
    rw [show (dat0 V c).leavesExact 3 t = owns (c : Thread nD τ) (st0_3 t) fullShare ((dat0 V c).after 3 t) from by
      unfold Dat.leavesExact; rw [liveAt0_3 t ((hcond0_1 t).mpr h1)], after0_3]
    unfold outAt0
    rw [accAt0_next V c t h0, PhiS0_castSucc V c t, PhiS0_pos V c _ _ hz]
    iintro ⟨⟨⟨HS, HR⟩, Hg⟩, Ho, ⟨%d0, H0⟩, ⟨%d1, H1⟩, ⟨%d2, H2⟩, ⟨%d3, H3⟩⟩
    iapply (run0_C c (grid0.coords t) _ _ _ _ _ _ _ _ _ _ (fun h => h0 ((hcond0_0 t).mp h)) ((hcond0_1 t).mpr h1)
      (iblk0 V c 0 t) (iblk0 V c 1 t) (iblk0 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Dat.leavesExact_idle (dat0 V c) 3 t (idleAt0_3 t (fun h => h1 ((hcond0_1 t).mp h))) (noFlush0_3 t (fun h => h1 ((hcond0_1 t).mp h)))]
    by_cases h0 : t.val % 5 = 0
    · rw [accAt0_first V c t h0]
      by_cases hz : t.val = 0
      · rw [PhiS0_castSucc V c t, PhiS0_zero V c _ _ hz, PhiA0_eq]
        iintro ⟨⟨⟨HS, HR⟩, Hg⟩, Ho, ⟨%d0, H0⟩, ⟨%d1, H1⟩, ⟨%d2, H2⟩, ⟨%d3, H3⟩⟩
        iapply (run0_A c (grid0.coords t) _ _ _ _ _ _ _ _ _ _ ((hcond0_0 t).mpr h0) (fun h => h1 ((hcond0_1 t).mp h))
          (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS, HR⟩, Hg⟩, Ho, ⟨%d0, H0⟩, ⟨%d1, H1⟩, ⟨%d2, H2⟩, ⟨%d3, H3⟩⟩
        iapply (run0_A c (grid0.coords t) _ _ _ _ _ _ _ _ _ _ ((hcond0_0 t).mpr h0) (fun h => h1 ((hcond0_1 t).mp h))
          (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accAt0_next V c t h0, PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (run0_B c (grid0.coords t) _ _ _ _ _ _ _ _ _ _ (fun h => h0 ((hcond0_0 t).mp h)) (fun h => h1 ((hcond0_1 t).mp h))
        (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulator's value is forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]; · iexists _; iexact HS
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 25 := N_0; omega)

end Cert.KernelIdeal.Hand

end
-- ==== Proof.KI.Body1S.lean ====
/- The kernel body of pallas_call 1 branches twice on the inner grid coordinate k of the point t = 5·i + k: k = 0 (zero the
   accumulator first) and k = 4 (store the result block). Stated here: the two conditions as the body computes them from the
   coordinates, their closed forms t mod 5 = 0 and t mod 5 = 4 decided over the 25 points, and where the result window is
   idle (everywhere but at k = 4, and there it is not written back). -/
import proofs.«143978_j4672924418728_1_alg».proof.Proof.Gen.KernelIdeal.Launch
import proofs.«143978_j4672924418728_1_alg».proof.Proof.Gen.KernelIdeal.Skeleton
import proofs.«143978_j4672924418728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (the sweep's first point: the inner grid coordinate is 0), from the grid
    coordinates. -/
abbrev cond1_0 (i : grid1.Coords) : Prop := (Scalar.cmpi .ne (Scalar.extui (Scalar.cmpi .eq (BitVec.ofNat 32 (i 1).val) 0#32)) 0#32) = 1#1
/-- The condition of the body's second `scf.if` (the sweep's last point: the inner grid coordinate is 4). -/
abbrev cond1_1 (i : grid1.Coords) : Prop := k1_cond2 i = 1#1

/-- The first condition holds exactly at the first point of each sweep — decided over the grid. -/
theorem hcond1_0 : ∀ t : Fin cfg1.N, cond1_0 (grid1.coords t) ↔ t.val % 5 = 0 :=
  (by decide +kernel : ∀ t : Fin grid1.N, cond1_0 (grid1.coords t) ↔ t.val % 5 = 0)
/-- The second holds exactly at the last point of each sweep. -/
theorem hcond1_1 : ∀ t : Fin cfg1.N, cond1_1 (grid1.coords t) ↔ t.val % 5 = 4 :=
  (by decide +kernel : ∀ t : Fin grid1.N, cond1_1 (grid1.coords t) ↔ t.val % 5 = 4)

/-- The result window is idle wherever the second condition fails, and the pipeline does not write it back there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it holds the window is live: the body stores the result block. -/
theorem liveAt1_3 : ∀ t : Fin cfg1.N, cond1_1 (grid1.coords t) → cfg1.idle 3 (grid1.coords t) = false := by decide +kernel

end Cert.KernelIdeal.Hand

end
-- ==== Proof.KI.Body1A.lean ====
/- The kernel body of pallas_call 1 run as a whole at the first point of a sweep (k = 0): on whole staging buffers holding the blocks x0 (matrix), x1 (features)
   and x2 (bias row), the scratch at anything and the result's buffer at anything (handed back untouched), it leaves the scratch at
   zero + x0 · x1 (`k1_pay2 k1_pay1 x0 x1`). Every load and store goes through the whole rectangle at zero offsets, so a covering store
   leaves its payload and a load of a whole buffer reads its contents. -/
import proofs.«143978_j4672924418728_1_alg».proof.Proof.KI.Body1S
import proofs.«143978_j4672924418728_1_alg».proof.Proof.LibWholeBlock

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run1_A (c : Dev nD) (i : grid1.Coords)
    (arg2 : Memref sig .tc .vmem S2048x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S2048x256 .f32) (harg5 : arg5.IsWhole)
    (arg6 : Memref sig .tc .vmem S2048x256 .f32) (harg6 : arg6.IsWhole) (hc0 : cond1_0 i) (hc1 : ¬cond1_1 i)
    (x0 : Vec F S2048x2048 .bf16) (x1 : Vec F S2048x256 .bf16) (x2 : Vec F S1x256 .f32) (xi3 : Vec F S2048x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 k1_pay1 x0 x1)) -∗ K ⟨⟩))
      ⊢ wp frame (wpE (defs₀ (F := F)) Variants.none c none) E (cc1__adj_matmul_kernel i arg2 harg2 arg3 harg3 arg4 harg4 arg5 harg5 arg6 harg6) K := by
  simp only [cc1__adj_matmul_kernel_eq_skeleton]; unfold cc1__adj_matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- the later of the two stores into the scratch covers it: its payload is what is left; the accumulator it read
  -- back is the zero block the earlier store wrote
  refine (WholeBlock.read_writes_unit_zero arg6.view _ WholeBlock.zero2 _ _ _).trans ?_
  rw [WholeBlock.readAt_unit_zero_unread arg2 harg2 WholeBlock.zero2, WholeBlock.readAt_unit_zero_unread arg3 harg3 WholeBlock.zero2]
  sl_unfold_run_names
  rw [View.readCov_unit_zero arg6.view WholeBlock.zero2]

end Cert.KernelIdeal.Hand

end
-- ==== Proof.KI.Body1B.lean ====
/- The kernel body of pallas_call 1 run as a whole at an inner point of a sweep (0 < k < 4): on whole staging buffers holding the blocks x0 (matrix), x1 (features)
   and x2 (bias row), the scratch at the accumulator `acc` and the result's buffer at anything (handed back untouched), it leaves the
   scratch at acc + x0 · x1 (`k1_pay2 acc x0 x1`). Every load and store goes through the whole rectangle at zero offsets, so a covering store
   leaves its payload and a load of a whole buffer reads its contents. -/
import proofs.«143978_j4672924418728_1_alg».proof.Proof.KI.Body1S
import proofs.«143978_j4672924418728_1_alg».proof.Proof.LibWholeBlock

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run1_B (c : Dev nD) (i : grid1.Coords)
    (arg2 : Memref sig .tc .vmem S2048x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S2048x256 .f32) (harg5 : arg5.IsWhole)
    (arg6 : Memref sig .tc .vmem S2048x256 .f32) (harg6 : arg6.IsWhole) (hc0 : ¬cond1_0 i) (hc1 : ¬cond1_1 i)
    (x0 : Vec F S2048x2048 .bf16) (x1 : Vec F S2048x256 .bf16) (x2 : Vec F S1x256 .f32) (xi3 : Vec F S2048x256 .f32) (acc : Vec F S2048x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare acc
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k1_pay2 acc x0 x1)) -∗ K ⟨⟩))
      ⊢ wp frame (wpE (defs₀ (F := F)) Variants.none c none) E (cc1__adj_matmul_kernel i arg2 harg2 arg3 harg3 arg4 harg4 arg5 harg5 arg6 harg6) K := by
  simp only [cc1__adj_matmul_kernel_eq_skeleton]; unfold cc1__adj_matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  -- the one store covers the scratch: its payload, over the three whole-block loads, is what is left
  refine (WholeBlock.read_writes_unit_zero arg6.view _ WholeBlock.zero2 _ _ []).trans ?_
  rw [WholeBlock.readAt_unit_zero_unread arg6 harg6 WholeBlock.zero2, WholeBlock.readAt_unit_zero_unread arg2 harg2 WholeBlock.zero2, WholeBlock.readAt_unit_zero_unread arg3 harg3 WholeBlock.zero2]

end Cert.KernelIdeal.Hand

end
-- ==== Proof.KI.Body1C.lean ====
/- The kernel body of pallas_call 1 run as a whole at the last point of a sweep (k = 4): on whole staging buffers holding the blocks x0 (matrix), x1 (features)
   and x2 (bias row), the scratch at the accumulator `acc`, it leaves the scratch at acc + x0 · x1 and the result's buffer at
   max(acc + x0 · x1 + x2, 0) (`k1_pay3 (k1_pay2 acc x0 x1) x2`). Every load and store goes through the whole rectangle at zero offsets, so a covering store
   leaves its payload and a load of a whole buffer reads its contents. -/
import proofs.«143978_j4672924418728_1_alg».proof.Proof.KI.Body1S
import proofs.«143978_j4672924418728_1_alg».proof.Proof.LibWholeBlock

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run1_C (c : Dev nD) (i : grid1.Coords)
    (arg2 : Memref sig .tc .vmem S2048x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S2048x256 .f32) (harg5 : arg5.IsWhole)
    (arg6 : Memref sig .tc .vmem S2048x256 .f32) (harg6 : arg6.IsWhole) (hc0 : ¬cond1_0 i) (hc1 : cond1_1 i)
    (x0 : Vec F S2048x2048 .bf16) (x1 : Vec F S2048x256 .bf16) (x2 : Vec F S1x256 .f32) (acc : Vec F S2048x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare acc
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 acc x0 x1) x2) ∗ owns (c : Thread nD τ) arg6 fullShare (k1_pay2 acc x0 x1)) -∗ K ⟨⟩))
      ⊢ wp frame (wpE (defs₀ (F := F)) Variants.none c none) E (cc1__adj_matmul_kernel i arg2 harg2 arg3 harg3 arg4 harg4 arg5 harg5 arg6 harg6) K := by
  simp only [cc1__adj_matmul_kernel_eq_skeleton]; unfold cc1__adj_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    -- the store into the result's buffer covers it; the accumulator it read back is what the store into the scratch left
    refine (WholeBlock.read_writes_unit_zero arg5.view _ WholeBlock.zero2 _ _ []).trans ?_
    sl_unfold_run_names
    rw [View.readCov_unit_zero arg6.view WholeBlock.zero2, WholeBlock.readAt_unit_zero_unread arg4 harg4 WholeBlock.zero2, WholeBlock.readAt_unit_zero_unread arg6 harg6 WholeBlock.zero2, WholeBlock.readAt_unit_zero_unread arg2 harg2 WholeBlock.zero2, WholeBlock.readAt_unit_zero_unread arg3 harg3 WholeBlock.zero2]
  iexists _; isplitr
  swap; · iexact HS
  ipureintro
  sl_unfold_run_names
  refine (WholeBlock.read_writes_unit_zero arg6.view _ WholeBlock.zero2 _ _ []).trans ?_
  rw [WholeBlock.readAt_unit_zero_unread arg6 harg6 WholeBlock.zero2, WholeBlock.readAt_unit_zero_unread arg2 harg2 WholeBlock.zero2, WholeBlock.readAt_unit_zero_unread arg3 harg3 WholeBlock.zero2]

end Cert.KernelIdeal.Hand

end
-- ==== Proof.KI.Body1.lean ====
/- The body of pallas_call 1 at every grid point, against the proof data of Data1: each point falls in one of three cases by
   its position k in its sweep (k = 0, 0 < k < 4, k = 4); in each the whole-body run of that case turns what the point is handed
   — the inputs' blocks, the accumulator the point before left (anything at k = 0), the idle result buffer — into what the proof
   data names after it (`accAt1`, and at k = 4 `outAt1`). Then the obligation in the library's form, and the invariant's two ends. -/
import proofs.«143978_j4672924418728_1_alg».proof.Proof.KI.Data1
import proofs.«143978_j4672924418728_1_alg».proof.Proof.KI.Body1A
import proofs.«143978_j4672924418728_1_alg».proof.Proof.KI.Body1B
import proofs.«143978_j4672924418728_1_alg».proof.Proof.KI.Body1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the launch hands the region, with the scratch as a memref owned at some contents and the other call's scoped
    buffers named apart. -/
theorem PhiA1_eq (c : Dev nD) :
    (Pipeline.ΦA spec1 c : sProp 𝕄)
      = iprop(iprop((∃ d, owns (c : Thread nD τ) scM1 fullShare d) ∗ restS1 c) ∗ (∃ r, prngReg c r)) := by
  unfold Pipeline.ΦA restS1; rw [scopedRest1_eq]; simp only [scM1, owns_whole]
  -- the scoped rest lists the scratch last: the two sides differ by the order of the conjuncts only
  apply Idealize.SL.BI.Entails.antisymm
  · show (_ : sProp 𝕄) ⊢ _
    iintro ⟨⟨R1, R2, R3, R4, R5, R6, R7, R8, HS⟩, Hg⟩
    isplitl [HS R1 R2 R3 R4 R5 R6 R7 R8]
    · isplitl [HS]; · iexact HS
      isplitl [R1]; · iexact R1
      isplitl [R2]; · iexact R2
      isplitl [R3]; · iexact R3
      isplitl [R4]; · iexact R4
      isplitl [R5]; · iexact R5
      isplitl [R6]; · iexact R6
      isplitl [R7]; · iexact R7
      iexact R8
    iexact Hg
  · show (_ : sProp 𝕄) ⊢ _
    iintro ⟨⟨HS, R1, R2, R3, R4, R5, R6, R7, R8⟩, Hg⟩
    isplitl [HS R1 R2 R3 R4 R5 R6 R7 R8]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact HS
    iexact Hg

/-- Each input window's current staging buffer holds its block at every point, fetched there or not: the body leaves
    the block in place, the windows are uncut and never idle. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- What the body is called with at point `t`: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's position in its sweep selects the case:
    at the first point the scratch is handed over at anything (or, after an earlier sweep, at what that left) and comes
    back at this point's block product added to zero; at a later point it is handed over at the accumulator of the point
    before and comes back with this point's product added; at the last point the result window, idle until then and
    handed back untouched, receives the accumulator plus the bias clipped below at zero. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  by_cases h1 : t.val % 5 = 4
  · have h0 : ¬t.val % 5 = 0 := by omega
    have hz : t.val ≠ 0 := by omega
    rw [show (dat1 V c).leavesExact 3 t = owns (c : Thread nD τ) (st1_3 t) fullShare ((dat1 V c).after 3 t) from by
      unfold Dat.leavesExact; rw [liveAt1_3 t ((hcond1_1 t).mpr h1)], after1_3]
    unfold outAt1
    rw [accAt1_next V c t h0, PhiS1_castSucc V c t, PhiS1_pos V c _ _ hz]
    iintro ⟨⟨⟨HS, HR⟩, Hg⟩, Ho, ⟨%d0, H0⟩, ⟨%d1, H1⟩, ⟨%d2, H2⟩, ⟨%d3, H3⟩⟩
    iapply (run1_C c (grid1.coords t) _ _ _ _ _ _ _ _ _ _ (fun h => h0 ((hcond1_0 t).mp h)) ((hcond1_1 t).mpr h1)
      (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Dat.leavesExact_idle (dat1 V c) 3 t (idleAt1_3 t (fun h => h1 ((hcond1_1 t).mp h))) (noFlush1_3 t (fun h => h1 ((hcond1_1 t).mp h)))]
    by_cases h0 : t.val % 5 = 0
    · rw [accAt1_first V c t h0]
      by_cases hz : t.val = 0
      · rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩⟩
        iapply (run1_A c (grid1.coords t) _ _ _ _ _ _ _ _ _ _ ((hcond1_0 t).mpr h0) (fun h => h1 ((hcond1_1 t).mp h))
          (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩⟩
        iapply (run1_A c (grid1.coords t) _ _ _ _ _ _ _ _ _ _ ((hcond1_0 t).mpr h0) (fun h => h1 ((hcond1_1 t).mp h))
          (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accAt1_next V c t h0, PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's value is forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]; · iexists _; iexact HS
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 25 := N_1; omega)

end Cert.KernelIdeal.Hand

end
-- ==== Proof.KI.Run.lean ====
/- The run of @main through its two kernel regions. Between two items of @main a core holds every unscoped buffer whole
   at the contents the items so far leave, its generator register at some state, and owes nothing. A host stretch
   takes the buffers to the contents its operations compute; a kernel region takes its four arrays out of the buffers,
   runs the pipeline over them from the proof data's invariant, and puts them back at what the write-backs leave. At
   the end every unscoped buffer is read off the last contents; the argument arrays, which no item writes, are there
   as launched. -/
import proofs.«143978_j4672924418728_1_alg».proof.Proof.KI.RunVals
import proofs.«143978_j4672924418728_1_alg».proof.Proof.KI.Body0
import proofs.«143978_j4672924418728_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- Both pipelines' proof data, each at the contents its region is entered with. -/
def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) c

abbrev 𝒱₀ : Variants := Variants.none
/-- No core owes another anything: no level is assigned. -/
abbrev L : GSem nD τ sig → Finset Unit := fun _ => ∅
abbrev lv : GSem nD τ sig → Unit → ℕ := fun _ _ => 0

/-- What a core holds beside the buffers between any two items: its generator register at some state, and nothing owed. -/
abbrev R (c : Dev nD) : sProp 𝕄 :=
  iprop((∃ r, prngReg c r) ∗ ∃ W, owes (c : Thread nD τ) (0 : CellTallies nD τ sig Unit) W)

/-- The same beside the buffers before, between and after the two regions. -/
abbrev RE : Fin 3 → Dev nD → sProp 𝕄 := fun _ => R

/-! ## The regions as segments -/

-- the library's rules, stated over the pinned configuration, unify with the printed one only when unification may
-- unfold plain definitions in a metavariable's type
set_option backward.isDefEq.respectTransparency.types false in
/-- Region 0 over the thread state: entered with every unscoped buffer at the contents before it, left with them at the
    contents after it. Its four arrays are split out of the unscoped buffers at the entry and put back at the exit; the
    generator register goes into the region invariant and comes back; nothing is owed; the kernel has no semaphore of
    its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (ent0 m) c)
    unfold Pipeline.ΦA
    iintro ⟨Hp, -, Hr⟩
    isplitl [Hr]; · iexact Hr
    iexact Hp
  hout c := by
    refine BIBase.Entails.trans (hout0 (ent0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's rules, stated over the pinned configuration, unify with the printed one only when unification may
-- unfold plain definitions in a metavariable's type
set_option backward.isDefEq.respectTransparency.types false in
/-- Region 1 over the thread state: entered with every unscoped buffer at the contents before it, left with them at the
    contents after it. Its four arrays are split out of the unscoped buffers at the entry and put back at the exit; the
    generator register goes into the region invariant and comes back; nothing is owed; the kernel has no semaphore of
    its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (ent1 m) c)
    unfold Pipeline.ΦA
    iintro ⟨Hp, -, Hr⟩
    isplitl [Hr]; · iexact Hr
    iexact Hp
  hout c := by
    refine BIBase.Entails.trans (hout1 (ent1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost element is the pipelines' own: the certificate adds nothing to it. -/
theorem launch_elt :
    (ownU (initOf (Pipeline.cells cfgs cellOf_inj) (Pipeline.launchToks cfgs cellOf_inj)) : sProp 𝕄)
      ⊢ |={Set.univ}=> iprop(BI.own ((emb₁ : Emb _ 𝕄) (initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core beside its buffers makes the first rest state: the generator register, nothing owed. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (RE 0) : sProp 𝕄) := by
  refine Pipeline.initEach L lv fun c => ?_
  iintro ⟨⟨-, HO, -, Hp, -⟩, -⟩
  imodintro
  isplitl [Hp]; · iexists _; iexact Hp
  iexists ∅; iexact HO

/-- The last rest state owes nothing. -/
theorem rest_fin (c : Dev nD) :
    RE 2 c ⊢ (iprop(∃ W, owes (c : Thread nD τ) (0 : CellTallies nD τ sig Unit) W) : sProp 𝕄) := by
  iintro ⟨-, HO⟩; iexact HO

/-! ## The run -/

-- the launch theorem's implicit arguments are found by unifying its conclusion with this one, which takes unfolding
-- plain definitions in a metavariable's type
set_option backward.isDefEq.respectTransparency.types false in
/-- Every weakly fair execution of @main from memory `m` with zero counters terminates, and in every final memory each
    unscoped buffer of each core holds the last contents: the launch contents taken through the host stretches and, at
    the two result arrays, what the regions leave. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Gen.V19 m (outs m) c b) := by
  refine Pipeline.θ_run_regions_kit_dev (pcfgs (F := F)) Gen.adm (pdats m) () cellOf_inj emb₁ defs₀ 𝒱₀ L lv m ρ main
    (Gen.segs m (outs m) 𝒱₀ L lv RE () (pdats m) (reg0 m) (reg1 m))
    (fun c Q => by
      rewrite [main_chain c, Pipeline.Seg.run_eq_chain,
        show (Gen.segs m (outs m) 𝒱₀ L lv RE () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_elt)
    (T₀ := fun c => iprop(StableHlo.held (c : Thread nD τ) (Pipeline.ucRefs τ sig) (Gen.V0 m c) ∗ RE 0 c))
    (Tₙ := fun c => StableHlo.held (c : Thread nD τ) (Pipeline.ucRefs τ sig) (Gen.V19 m (outs m) c))
    (hch := fun c => ⟨.rfl, .rfl, .rfl, .rfl, .rfl, .rfl, .rfl, .rfl, .rfl, .rfl, .rfl, .rfl, .rfl, .rfl, .rfl, .rfl, .rfl, .rfl, .rfl,
      sep_mono .rfl (rest_fin c)⟩)
    (hinit := ?_)
    (QY := fun c s => ∀ b ∈ Pipeline.ucRefs τ sig, s.mem ((c : Thread nD τ).1, b) = Gen.V19 m (outs m) c b)
    (hfin := fun c s' => ?_) (hQ := fun _ h => h)
  · -- the launch: the unscoped buffers are held at the launch contents; the rest makes the first rest state
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last contents
    iintro ⟨Hh, HSI⟩
    unfold StableHlo.held
    imodintro
    iapply (pointsTo_read_all (Pipeline.ucRefs τ sig) (fun b => ((c : Thread nD τ).1, b)) (Gen.V19 m (outs m) c) s')
    isplitl [Hh] <;> iassumption

/-- The frame claim at any float model: @main terminates from any memory with zero counters and every argument array
    ends as launched (no host stretch writes one and no region may change one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) launch_elt RE (rest_init ρ) rest_fin
    (reg0 m) (fun _ => .rfl) (fun _ => .rfl) (reg1 m) (fun _ => .rfl) (fun _ => .rfl)

end Cert.KernelIdeal.Hand

end
-- ==== Proof.Ref.Imports.lean ====
/- The reference's run and its read-at-an-index lemmas (the patched copies of the generated modules), brought in for the modules that read the reference's result. -/
import proofs.«143978_j4672924418728_1_alg».proof.Proof.Ref.RunP
import proofs.«143978_j4672924418728_1_alg».proof.Proof.Ref.ReadP
-- ==== Proof.Ref.Frame.lean ====
/-
  The reference program runs to completion from every memory satisfying the precondition and leaves its argument
  arrays unchanged: its run, read back operation by operation, ends with the result buffer at the operations'
  composed term and every argument buffer as it was; the frame claim keeps only the second part.
-/
import proofs.«143978_j4672924418728_1_alg».proof.Defs
import proofs.«143978_j4672924418728_1_alg».proof.Proof.Gen.Pre_finite_inputs
import proofs.«143978_j4672924418728_1_alg».proof.Proof.Ref.Imports

noncomputable section

namespace Cert.Hand.Ref

open Idealize.ShloMosaic Idealize.ShloMosaic.TcCoe Idealize.SL.Sem

/-- The reference's frame: the run with the result's conjunct dropped. -/
theorem frame_ri : Cert.frame_ReferenceIdeal := fun m ρ _ =>
  (θ_run Cert.ReferenceIdeal.defs _ _).mono (fun _ h c => (h c).2) (Cert.ReferenceIdeal.ValueP.run (F := Ideal) m ρ)

end Cert.Hand.Ref

end
-- ==== Proof.LibPlainDot.lean ====
import Idealize.ShloMosaic.PureOps.Ideal.Laws
import Idealize.ShloMosaic.Lib.ValueIdx

/-!
# A plain matrix product read at an entry

For the dimension numbers of an M×K by K×N product with no batch axis, entry (p, q) of the product into a
zero accumulator is the sum over k of left (p, k) times right (k, q), on the extended reals.
-/

noncomputable section

namespace Cert.PlainDot

open Idealize.ShloMosaic Idealize.ShloMosaic.ValueIdx
open scoped BigOperators

theorem contr_rank (M K N : Nat) : (DotDims.plain M K N).contr.rank = 1 := rfl

theorem contr_size (M K N : Nat) :
    (DotDims.plain M K N).contr.size ⟨0, by rw [contr_rank]; exact Nat.one_pos⟩ = K := rfl

/-- The left operand's index at output (p, q) and contraction coordinate k is (p, k). -/
theorem lhsIdx_eq (M K N : Nat) (p : Fin M) (q : Fin N) (k : Fin K) :
    (DotDims.plain M K N).lhsIdx (ix2 p q)
        ((contrEquiv1 (DotDims.plain M K N) K (contr_rank M K N) (contr_size M K N)).symm k) = ix2 p k := by
  have hk := contrEquiv1_symm_val (DotDims.plain M K N) K (contr_rank M K N) (contr_size M K N) k
  funext a
  refine Fin.ext ?_
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl _ _).trans hk

/-- The right operand's index at output (p, q) and contraction coordinate k is (k, q). -/
theorem rhsIdx_eq (M K N : Nat) (p : Fin M) (q : Fin N) (k : Fin K) :
    (DotDims.plain M K N).rhsIdx (ix2 p q)
        ((contrEquiv1 (DotDims.plain M K N) K (contr_rank M K N) (contr_size M K N)).symm k) = ix2 k q := by
  have hk := contrEquiv1_symm_val (DotDims.plain M K N) K (contr_rank M K N) (contr_size M K N) k
  funext a
  refine Fin.ext ?_
  match a with
  | ⟨0, _⟩ =>
    exact ((DotDims.plain M K N).rhsIdx_val_of_single (cr := (0 : Fin 2)) rfl _ _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- A plain product into the zero accumulator, at entry (p, q). -/
theorem matmul_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    matmul (DotDims.plain M K N) prec l r (constant (F := Ideal) ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply,
    ← Equiv.sum_comp (contrEquiv1 (DotDims.plain M K N) K (contr_rank M K N) (contr_size M K N)).symm]
  refine Finset.sum_congr rfl fun k _ => ?_
  rw [lhsIdx_eq, rhsIdx_eq]

end Cert.PlainDot

end
-- ==== Proof.LibReal.lean ====
import Mathlib.Data.EReal.Inv
import Idealize.ShloMosaic.PureOps.Ideal

/-!
# Real-valued extended reals

An extended real is *real* when it is the image of a real number, that is when it is neither
of the two infinities. The sum, difference, product, maximum and finite sums of real extended
reals are real, and so is the quotient of one by a nonzero real; a coercion of a finite sum of
reals is the sum of the coercions. The last sections read a few `f32` bit patterns as the
extended reals they denote, and read back the comparison `|x| < +∞`.
-/

noncomputable section

namespace Cert.GinMath

open Idealize.ShloMosaic
open scoped BigOperators

/-- An extended real is *real* when it is the image of a real number. -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither `⊤` nor `⊥`. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

/-- An extended real strictly between `⊥` and `⊤` is real. -/
theorem isReal_of_lt {x : EReal} (hb : ⊥ < x) (ht : x < ⊤) : IsReal x :=
  isReal_iff.mpr ⟨ne_of_lt ht, ne_of_gt hb⟩

/-- The sum of two real extended reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real extended reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real extended real is real. -/
theorem IsReal.neg {x : EReal} (hx : IsReal x) : IsReal (-x) := by
  obtain ⟨a, rfl⟩ := hx
  exact ⟨-a, (EReal.coe_neg a).symm⟩

/-- The maximum of two real extended reals is real. -/
theorem IsReal.max {x y : EReal} (hx : IsReal x) (hy : IsReal y) : IsReal (max x y) := by
  rcases max_choice x y with h | h <;> rw [h] <;> assumption

/-- A finite sum of real extended reals is real. -/
theorem IsReal.sum {ι : Type*} {s : Finset ι} {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- The quotient of a real extended real by a nonzero real is real. -/
theorem IsReal.div_coe {x : EReal} {y : ℝ} (hy : y ≠ 0) (hx : IsReal x) :
    IsReal (Ideal.div x (y : EReal)) := by
  rw [Ideal.div_coe hy]
  exact hx.mul (IsReal.coe _)

/-- The quotient of two reals, the divisor not zero, as an extended real. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the coercion of a family of reals. -/
theorem exists_real_fun {ι : Type*} {f : ι → EReal} (h : ∀ i, IsReal (f i)) :
    ∃ g : ι → ℝ, ∀ i, f i = (g i : EReal) :=
  ⟨fun i => Classical.choose (h i), fun i => Classical.choose_spec (h i)⟩

/-! ### A few `f32` patterns -/

/-- The pattern of `+0.0` denotes zero. -/
theorem ofBits_zero : Ideal.ofBits .f32 0x00000000#32 = 0 := by
  simp [Ideal.ofBits, Ideal.ieee]

/-- The pattern `0x3F800000` denotes one. -/
theorem ofBits_one : Ideal.ofBits .f32 0x3F800000#32 = ((1 : ℝ) : EReal) := by
  simp [Ideal.ofBits, Ideal.ieee, -EReal.coe_mul]; norm_num

/-- The pattern `0x47C35000` denotes `100000 = (2^23 + 4411392) · 2^(-7)`. -/
theorem ofBits_1e5 : Ideal.ofBits .f32 0x47C35000#32 = ((100000 : ℝ) : EReal) := by
  simp [Ideal.ofBits, Ideal.ieee, -EReal.coe_mul]; norm_num

/-- The pattern `0x3727C5AC` (the `f32` nearest `10⁻⁵`) has an exponent field that is neither
all zeros nor all ones, so it denotes a real number. -/
theorem isReal_ofBits_eps : IsReal (Ideal.ofBits .f32 0x3727C5AC#32) := by
  simp [Ideal.ofBits, Ideal.ieee, -EReal.coe_mul]
  exact ⟨_, rfl⟩

/-- The pattern `0x7F800000` (sign clear, exponent all ones, fraction zero) denotes `⊤`. -/
theorem ofBits_inf : Ideal.ofBits .f32 0x7F800000#32 = ⊤ := by
  simp [Ideal.ofBits, Ideal.ieee]

/-! ### A finiteness test read back -/

/-- A one-bit word made from a Boolean is `1` exactly when the Boolean is true. -/
theorem ofBool_eq_one_iff (b : Bool) : BitVec.ofBool b = 1#1 ↔ b = true := by
  cases b <;> decide

/-- An extended real whose absolute value `max x (-x)` is below `⊤` is real: `x < ⊤` excludes
`⊤`, and `-x < ⊤` excludes `⊥`. -/
theorem isReal_of_abs_lt_top {x : EReal} (h : max x (-x) < ⊤) : IsReal x := by
  rw [max_lt_iff] at h
  refine isReal_iff.mpr ⟨ne_of_lt h.1, ?_⟩
  rintro rfl
  simp at h

/-- The comparison `|x| < +∞` against the pattern of `+∞`, answered `1`, says `x` is real. -/
theorem isReal_of_cmp_abs_lt_inf {x : EReal}
    (h : Ideal.cmp .olt (max x (-x)) (Ideal.ofBits .f32 0x7F800000#32) = 1#1) : IsReal x := by
  rw [ofBits_inf] at h
  have e : Ideal.cmp .olt (max x (-x)) ⊤ = BitVec.ofBool (decide (max x (-x) < ⊤)) := rfl
  rw [e, ofBool_eq_one_iff, decide_eq_true_eq] at h
  exact isReal_of_abs_lt_top h

end Cert.GinMath

end
-- ==== Proof.KI.Pay1.lean ====
/- The three payloads of pallas_call 1's body read at an entry, on the extended reals: the zero block is 0; one
   accumulation step adds the row-by-column sum of the matrix block and the feature block; the final step adds the bias
   row and takes the maximum with 0. -/
import proofs.«143978_j4672924418728_1_alg».proof.Proof.Gen.KernelIdeal.Skeleton
import proofs.«143978_j4672924418728_1_alg».proof.Proof.LibPlainDot
import proofs.«143978_j4672924418728_1_alg».proof.Proof.LibReal
import Idealize.ShloMosaic.Lib.ValueLayout
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx
open scoped BigOperators

/-- The body's matrix product has the plain dimension numbers of a 2048×2048 by 2048×256 product. -/
theorem dot1_plain : dot_S2048x2048_S2048x256_S2048x256_1_0_0_1_n_n = DotDims.plain 2048 2048 256 := rfl

/-- The zero block. -/
theorem pay1_1_apply (j : S2048x256.Idx) : (k1_pay1 (F := Ideal)) j = 0 := by
  unfold k1_pay1
  simp only [shapeCast_self]
  exact Cert.GinMath.ofBits_zero

/-- One accumulation step at entry (p, q): the accumulator plus Σ_l a(p, l) · h(l, q). -/
theorem pay2_1_apply (acc : Vec Ideal S2048x256 .f32) (a : Vec Ideal S2048x2048 .bf16) (h : Vec Ideal S2048x256 .bf16)
    (p : Fin 2048) (q : Fin 256) :
    k1_pay2 acc a h (ix2 p q) = acc (ix2 p q) + ∑ l : Fin 2048, a (ix2 p l) * h (ix2 l q) := by
  unfold k1_pay2
  simp only [shapeCast_self]
  show acc (ix2 p q) + matmul dot_S2048x2048_S2048x256_S2048x256_1_0_0_1_n_n none a h
      (constant (F := Ideal) S2048x256 .f32 0x00000000#32) (ix2 p q) = _
  rw [dot1_plain]
  exact congrArg (fun z => acc (ix2 p q) + z) (Cert.PlainDot.matmul_zero_apply 2048 2048 256 none a h p q)

/-- The final step at entry (p, q): max(acc(p, q) + bias(0, q), 0). -/
theorem pay3_1_apply (acc : Vec Ideal S2048x256 .f32) (b : Vec Ideal S1x256 .f32) (p : Fin 2048) (q : Fin 256) :
    k1_pay3 acc b (ix2 p q) = max (acc (ix2 p q) + b (ix2 0 q)) 0 := by
  unfold k1_pay3
  simp only [shapeCast_self]
  show max (acc (ix2 p q) + broadcastTo S2048x256 b broadcasts_S1x256_S2048x256 (ix2 p q)) (Ideal.ofBits .f32 0x00000000#32) = _
  rw [Cert.GinMath.ofBits_zero, broadcastTo_1b_ab_apply]

end Cert.KernelIdeal.Hand

end
-- ==== Proof.KI.Acc1.lean ====
/- The accumulator of pallas_call 1 at an entry, on the extended reals: after the point at position n it is the running sum
   of the block products Σ_l a(p, l) · h(l, q) over the points of the current sweep, started from 0 at each n ≡ 0 mod 5. -/
import proofs.«143978_j4672924418728_1_alg».proof.Proof.KI.Data1
import proofs.«143978_j4672924418728_1_alg».proof.Proof.KI.Pay1

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The matrix block, the feature block and the bias row of point `t`, as vectors of extended reals. -/
def aBlk1 (c : Dev nD) (t : Fin cfg1.N) : Vec Ideal S2048x2048 .bf16 := iblk1 V c 0 t
def hBlk1 (c : Dev nD) (t : Fin cfg1.N) : Vec Ideal S2048x256 .bf16 := iblk1 V c 1 t
def bBlk1 (c : Dev nD) (t : Fin cfg1.N) : Vec Ideal S1x256 .f32 := iblk1 V c 2 t

/-- The product of the matrix block and the feature block of point `t`, at entry (p, q). -/
def bprod1 (c : Dev nD) (t : Fin cfg1.N) (p : Fin 2048) (q : Fin 256) : EReal :=
  ∑ l : Fin 2048, aBlk1 V c t (ix2 p l) * hBlk1 V c t (ix2 l q)

/-- The running sum at entry (p, q) after position n. -/
def chain1 (c : Dev nD) (p : Fin 2048) (q : Fin 256) : (n : ℕ) → n < cfg1.N → EReal
  | 0, hn => 0 + bprod1 V c ⟨0, hn⟩ p q
  | n + 1, hn => (if (n + 1) % 5 = 0 then 0 else chain1 c p q n (Nat.lt_of_succ_lt hn)) + bprod1 V c ⟨n + 1, hn⟩ p q

/-- The accumulator at an entry is the running sum. -/
theorem accAt1_apply (c : Dev nD) (p : Fin 2048) (q : Fin 256) :
    ∀ (n : ℕ) (hn : n < cfg1.N), accAt1 V c n hn (ix2 p q) = chain1 V c p q n hn
  | 0, hn => by
    show k1_pay2 k1_pay1 (iblk1 V c 0 ⟨0, hn⟩) (iblk1 V c 1 ⟨0, hn⟩) (ix2 p q) = 0 + bprod1 V c ⟨0, hn⟩ p q
    rw [pay2_1_apply, pay1_1_apply]; rfl
  | n + 1, hn => by
    show k1_pay2 (if (n + 1) % 5 = 0 then k1_pay1 else accAt1 V c n (Nat.lt_of_succ_lt hn))
        (iblk1 V c 0 ⟨n + 1, hn⟩) (iblk1 V c 1 ⟨n + 1, hn⟩) (ix2 p q)
      = (if (n + 1) % 5 = 0 then 0 else chain1 V c p q n (Nat.lt_of_succ_lt hn)) + bprod1 V c ⟨n + 1, hn⟩ p q
    rw [pay2_1_apply]
    by_cases h : (n + 1) % 5 = 0
    · rw [if_pos h, if_pos h, pay1_1_apply]; rfl
    · rw [if_neg h, if_neg h, accAt1_apply c p q n]; rfl

/-- At the last point of a sweep (n ≡ 4 mod 5) the running sum is the five block products of the sweep, added in order from 0. -/
theorem chain1_last (c : Dev nD) (p : Fin 2048) (q : Fin 256) (n : ℕ) (hn : n < cfg1.N) (h4 : n % 5 = 4) :
    chain1 V c p q n hn
      = ((((0 + bprod1 V c ⟨n - 4, by omega⟩ p q) + bprod1 V c ⟨n - 3, by omega⟩ p q) + bprod1 V c ⟨n - 2, by omega⟩ p q)
          + bprod1 V c ⟨n - 1, by omega⟩ p q) + bprod1 V c ⟨n, hn⟩ p q := by
  obtain ⟨k, rfl⟩ : ∃ k, n = k + 4 := ⟨n - 4, by omega⟩
  have e4 : ¬ (k + 3 + 1) % 5 = 0 := by omega
  have e3 : ¬ (k + 2 + 1) % 5 = 0 := by omega
  have e2 : ¬ (k + 1 + 1) % 5 = 0 := by omega
  have e1 : ¬ (k + 0 + 1) % 5 = 0 := by omega
  show (if (k + 3 + 1) % 5 = 0 then 0 else chain1 V c p q (k + 3) _) + _ = _
  rw [if_neg e4]
  show ((if (k + 2 + 1) % 5 = 0 then 0 else chain1 V c p q (k + 2) _) + _) + _ = _
  rw [if_neg e3]
  show (((if (k + 1 + 1) % 5 = 0 then 0 else chain1 V c p q (k + 1) _) + _) + _) + _ = _
  rw [if_neg e2]
  show ((((if (k + 0 + 1) % 5 = 0 then 0 else chain1 V c p q (k + 0) _) + _) + _) + _) + _ = _
  rw [if_neg e1]
  have e0 : chain1 V c p q (k + 0) (by omega) = 0 + bprod1 V c ⟨k, by omega⟩ p q := by
    cases k with
    | zero => rfl
    | succ j =>
      show (if (j + 1) % 5 = 0 then 0 else chain1 V c p q j _) + _ = _
      rw [if_pos (by omega)]
  rw [e0]
  rfl

end Cert.KernelIdeal.Hand

end
-- ==== Proof.KI.Pay0.lean ====
/- The three payloads of pallas_call 0's body read at an entry, on the extended reals: the zero block is 0; one
   accumulation step adds the row-by-column sum of the matrix block and the feature block; the final step adds the bias
   row and takes the maximum with 0. -/
import proofs.«143978_j4672924418728_1_alg».proof.Proof.Gen.KernelIdeal.Skeleton
import proofs.«143978_j4672924418728_1_alg».proof.Proof.LibPlainDot
import proofs.«143978_j4672924418728_1_alg».proof.Proof.LibReal
import Idealize.ShloMosaic.Lib.ValueLayout
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx
open scoped BigOperators

/-- The body's matrix product has the plain dimension numbers of a 2048×2048 by 2048×256 product. -/
theorem dot0_plain : dot_S2048x2048_S2048x256_S2048x256_1_0_0_1_n_n = DotDims.plain 2048 2048 256 := rfl

/-- The zero block. -/
theorem pay1_0_apply (j : S2048x256.Idx) : (k0_pay1 (F := Ideal)) j = 0 := by
  unfold k0_pay1
  simp only [shapeCast_self]
  exact Cert.GinMath.ofBits_zero

/-- One accumulation step at entry (p, q): the accumulator plus Σ_l a(p, l) · h(l, q). -/
theorem pay2_0_apply (acc : Vec Ideal S2048x256 .f32) (a : Vec Ideal S2048x2048 .bf16) (h : Vec Ideal S2048x256 .bf16)
    (p : Fin 2048) (q : Fin 256) :
    k0_pay2 acc a h (ix2 p q) = acc (ix2 p q) + ∑ l : Fin 2048, a (ix2 p l) * h (ix2 l q) := by
  unfold k0_pay2
  simp only [shapeCast_self]
  show acc (ix2 p q) + matmul dot_S2048x2048_S2048x256_S2048x256_1_0_0_1_n_n none a h
      (constant (F := Ideal) S2048x256 .f32 0x00000000#32) (ix2 p q) = _
  rw [dot0_plain]
  exact congrArg (fun z => acc (ix2 p q) + z) (Cert.PlainDot.matmul_zero_apply 2048 2048 256 none a h p q)

/-- The final step at entry (p, q): max(acc(p, q) + bias(0, q), 0). -/
theorem pay3_0_apply (acc : Vec Ideal S2048x256 .f32) (b : Vec Ideal S1x256 .f32) (p : Fin 2048) (q : Fin 256) :
    k0_pay3 acc b (ix2 p q) = max (acc (ix2 p q) + b (ix2 0 q)) 0 := by
  unfold k0_pay3
  simp only [shapeCast_self]
  show max (acc (ix2 p q) + broadcastTo S2048x256 b broadcasts_S1x256_S2048x256 (ix2 p q)) (Ideal.ofBits .f32 0x00000000#32) = _
  rw [Cert.GinMath.ofBits_zero, broadcastTo_1b_ab_apply]

end Cert.KernelIdeal.Hand

end
-- ==== Proof.KI.Acc0.lean ====
/- The accumulator of pallas_call 0 at an entry, on the extended reals: after the point at position n it is the running sum
   of the block products Σ_l a(p, l) · h(l, q) over the points of the current sweep, started from 0 at each n ≡ 0 mod 5. -/
import proofs.«143978_j4672924418728_1_alg».proof.Proof.KI.Data0
import proofs.«143978_j4672924418728_1_alg».proof.Proof.KI.Pay0

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The matrix block, the feature block and the bias row of point `t`, as vectors of extended reals. -/
def aBlk0 (c : Dev nD) (t : Fin cfg0.N) : Vec Ideal S2048x2048 .bf16 := iblk0 V c 0 t
def hBlk0 (c : Dev nD) (t : Fin cfg0.N) : Vec Ideal S2048x256 .bf16 := iblk0 V c 1 t
def bBlk0 (c : Dev nD) (t : Fin cfg0.N) : Vec Ideal S1x256 .f32 := iblk0 V c 2 t

/-- The product of the matrix block and the feature block of point `t`, at entry (p, q). -/
def bprod0 (c : Dev nD) (t : Fin cfg0.N) (p : Fin 2048) (q : Fin 256) : EReal :=
  ∑ l : Fin 2048, aBlk0 V c t (ix2 p l) * hBlk0 V c t (ix2 l q)

/-- The running sum at entry (p, q) after position n. -/
def chain0 (c : Dev nD) (p : Fin 2048) (q : Fin 256) : (n : ℕ) → n < cfg0.N → EReal
  | 0, hn => 0 + bprod0 V c ⟨0, hn⟩ p q
  | n + 1, hn => (if (n + 1) % 5 = 0 then 0 else chain0 c p q n (Nat.lt_of_succ_lt hn)) + bprod0 V c ⟨n + 1, hn⟩ p q

/-- The accumulator at an entry is the running sum. -/
theorem accAt0_apply (c : Dev nD) (p : Fin 2048) (q : Fin 256) :
    ∀ (n : ℕ) (hn : n < cfg0.N), accAt0 V c n hn (ix2 p q) = chain0 V c p q n hn
  | 0, hn => by
    show k0_pay2 k0_pay1 (iblk0 V c 0 ⟨0, hn⟩) (iblk0 V c 1 ⟨0, hn⟩) (ix2 p q) = 0 + bprod0 V c ⟨0, hn⟩ p q
    rw [pay2_0_apply, pay1_0_apply]; rfl
  | n + 1, hn => by
    show k0_pay2 (if (n + 1) % 5 = 0 then k0_pay1 else accAt0 V c n (Nat.lt_of_succ_lt hn))
        (iblk0 V c 0 ⟨n + 1, hn⟩) (iblk0 V c 1 ⟨n + 1, hn⟩) (ix2 p q)
      = (if (n + 1) % 5 = 0 then 0 else chain0 V c p q n (Nat.lt_of_succ_lt hn)) + bprod0 V c ⟨n + 1, hn⟩ p q
    rw [pay2_0_apply]
    by_cases h : (n + 1) % 5 = 0
    · rw [if_pos h, if_pos h, pay1_0_apply]; rfl
    · rw [if_neg h, if_neg h, accAt0_apply c p q n]; rfl

/-- At the last point of a sweep (n ≡ 4 mod 5) the running sum is the five block products of the sweep, added in order from 0. -/
theorem chain0_last (c : Dev nD) (p : Fin 2048) (q : Fin 256) (n : ℕ) (hn : n < cfg0.N) (h4 : n % 5 = 4) :
    chain0 V c p q n hn
      = ((((0 + bprod0 V c ⟨n - 4, by omega⟩ p q) + bprod0 V c ⟨n - 3, by omega⟩ p q) + bprod0 V c ⟨n - 2, by omega⟩ p q)
          + bprod0 V c ⟨n - 1, by omega⟩ p q) + bprod0 V c ⟨n, hn⟩ p q := by
  obtain ⟨k, rfl⟩ : ∃ k, n = k + 4 := ⟨n - 4, by omega⟩
  have e4 : ¬ (k + 3 + 1) % 5 = 0 := by omega
  have e3 : ¬ (k + 2 + 1) % 5 = 0 := by omega
  have e2 : ¬ (k + 1 + 1) % 5 = 0 := by omega
  have e1 : ¬ (k + 0 + 1) % 5 = 0 := by omega
  show (if (k + 3 + 1) % 5 = 0 then 0 else chain0 V c p q (k + 3) _) + _ = _
  rw [if_neg e4]
  show ((if (k + 2 + 1) % 5 = 0 then 0 else chain0 V c p q (k + 2) _) + _) + _ = _
  rw [if_neg e3]
  show (((if (k + 1 + 1) % 5 = 0 then 0 else chain0 V c p q (k + 1) _) + _) + _) + _ = _
  rw [if_neg e2]
  show ((((if (k + 0 + 1) % 5 = 0 then 0 else chain0 V c p q (k + 0) _) + _) + _) + _) + _ = _
  rw [if_neg e1]
  have e0 : chain0 V c p q (k + 0) (by omega) = 0 + bprod0 V c ⟨k, by omega⟩ p q := by
    cases k with
    | zero => rfl
    | succ j =>
      show (if (j + 1) % 5 = 0 then 0 else chain0 V c p q j _) + _ = _
      rw [if_pos (by omega)]
  rw [e0]
  rfl

end Cert.KernelIdeal.Hand

end
-- ==== Proof.KI.Blk0.lean ====
/- The blocks of pallas_call 0's windows at a grid point t = 5·i + k, read at an entry as entries of the whole arrays:
   the matrix block is rows 2048·i …, columns 2048·k …; the feature block is rows 2048·k …; the bias row is the whole
   bias; the result block is rows 2048·i …. The index maps are decided once over the 25 points. -/
import proofs.«143978_j4672924418728_1_alg».proof.Proof.KI.Data0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- Where each window's block sits at point t: the matrix at block (t / 5, t % 5), the features at (t % 5, 0), the bias at
    (0, 0), the result at (t / 5, 0). -/
theorem idx0_facts : ∀ t : Fin cfg0.N,
    (win0_0.index t 0 = t.val / 5 ∧ win0_0.index t 1 = t.val % 5)
    ∧ (win0_1.index t 0 = t.val % 5 ∧ win0_1.index t 1 = 0)
    ∧ (win0_2.index t 0 = 0 ∧ win0_2.index t 1 = 0)
    ∧ (win0_3.index t 0 = t.val / 5 ∧ win0_3.index t 1 = 0) :=
  (by decide +kernel : ∀ t : Fin grid0.N, _)

/-- Row `2048·i + p` of a 10240-row array, for a block row `p` of block `i < 5`. -/
def rowOf (i : ℕ) (hi : i < 5) (p : Fin 2048) : Fin 10240 := ⟨2048 * i + p.val, by have := p.isLt; omega⟩

theorem tdiv_lt (t : Fin cfg0.N) : t.val / 5 < 5 := by
  have h : t.val < 25 := lt_of_lt_of_eq t.isLt N_0
  omega
theorem tmod_lt (t : Fin cfg0.N) : t.val % 5 < 5 := Nat.mod_lt _ (by decide)

/-- The matrix block at point t, at (p, l): the matrix at (2048·(t/5) + p, 2048·(t%5) + l). -/
theorem iblk0_0_apply (c : Dev nD) (t : Fin cfg0.N) (p l : Fin 2048) :
    (iblk0 V c 0 t : Vec F S2048x2048 .bf16) (ix2 p l)
      = (V c main_v49 : S10240x10240.Idx → Elt F .bf16) (ix2 (rowOf (t.val / 5) (tdiv_lt t) p) (rowOf (t.val % 5) (tmod_lt t) l)) := by
  have hi := (idx0_facts t).1
  unfold iblk0
  rw [View.read_apply]
  show V c main_v49 _ = V c main_v49 _
  congr 1
  funext a
  apply Fin.ext
  match a with
  | ⟨0, _⟩ => show win0_0.index t 0 * 2048 + 1 * p.val = 2048 * (t.val / 5) + p.val; rw [hi.1]; omega
  | ⟨1, _⟩ => show win0_0.index t 1 * 2048 + 1 * l.val = 2048 * (t.val % 5) + l.val; rw [hi.2]; omega

/-- The feature block at point t, at (l, q): the features at (2048·(t%5) + l, q). -/
theorem iblk0_1_apply (c : Dev nD) (t : Fin cfg0.N) (l : Fin 2048) (q : Fin 256) :
    (iblk0 V c 1 t : Vec F S2048x256 .bf16) (ix2 l q)
      = (V c main_v52 : S10240x256.Idx → Elt F .bf16) (ix2 (rowOf (t.val % 5) (tmod_lt t) l) q) := by
  have hi := (idx0_facts t).2.1
  unfold iblk0
  rw [View.read_apply]
  show V c main_v52 _ = V c main_v52 _
  congr 1
  funext a
  apply Fin.ext
  match a with
  | ⟨0, _⟩ => show win0_1.index t 0 * 2048 + 1 * l.val = 2048 * (t.val % 5) + l.val; rw [hi.1]; omega
  | ⟨1, _⟩ => show win0_1.index t 1 * 256 + 1 * q.val = q.val; rw [hi.2]; omega

/-- The bias block at any point is the bias row. -/
theorem iblk0_2_apply (c : Dev nD) (t : Fin cfg0.N) (z : Fin 1) (q : Fin 256) :
    (iblk0 V c 2 t : Vec F S1x256 .f32) (ix2 z q) = (V c main_v53 : S1x256.Idx → Elt F .f32) (ix2 z q) := by
  have hi := (idx0_facts t).2.2.1
  unfold iblk0
  rw [View.read_apply]
  show V c main_v53 _ = V c main_v53 _
  congr 1
  funext a
  apply Fin.ext
  match a with
  | ⟨0, _⟩ => show win0_2.index t 0 * 1 + 1 * z.val = z.val; rw [hi.1]; omega
  | ⟨1, _⟩ => show win0_2.index t 1 * 256 + 1 * q.val = q.val; rw [hi.2]; omega

end Cert.KernelIdeal.Hand

end
-- ==== Proof.KI.Final0.lean ====
/- What pallas_call 0 leaves in its result array, on the extended reals: entry (r, q) is
   max( (((((0 + S₀) + S₁) + S₂) + S₃) + S₄) + bias(q), 0 ) with S_k = Σ_{l < 2048} A(r, 2048·k + l) · H(2048·k + l, q),
   the five column blocks of row r added in order. Each grid point with k = 4 writes back its row block, and the five
   row blocks cover the array. -/
import proofs.«143978_j4672924418728_1_alg».proof.Proof.KI.Acc0
import proofs.«143978_j4672924418728_1_alg».proof.Proof.KI.Blk0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- S_k at (r, q): the k-th column block of row r of the matrix against the k-th row block of column q of the features. -/
def colBlockSum (A : S10240x10240.Idx → EReal) (H : S10240x256.Idx → EReal) (r : Fin 10240) (q : Fin 256) (k : ℕ) (hk : k < 5) : EReal :=
  ∑ l : Fin 2048, A (ix2 r (rowOf k hk l)) * H (ix2 (rowOf k hk l) q)

/-- The layer's result at (r, q). -/
def layerEntry (A : S10240x10240.Idx → EReal) (H : S10240x256.Idx → EReal) (b : S1x256.Idx → EReal) (r : Fin 10240) (q : Fin 256) : EReal :=
  max ((((((0 + colBlockSum A H r q 0 (by decide)) + colBlockSum A H r q 1 (by decide)) + colBlockSum A H r q 2 (by decide))
      + colBlockSum A H r q 3 (by decide)) + colBlockSum A H r q 4 (by decide)) + b (ix2 0 q)) 0

/-- The layer's result array. -/
def layerOut (A : S10240x10240.Idx → EReal) (H : S10240x256.Idx → EReal) (b : S1x256.Idx → EReal) : S10240x256.Idx → EReal :=
  fun j => layerEntry A H b (j 0) (j 1)

/-- A block product of a point of row block i, column block k, is S_k of the block's row. -/
theorem bprod0_eq (c : Dev nD) (t : Fin cfg0.N) (p : Fin 2048) (q : Fin 256) :
    bprod0 V c t p q
      = colBlockSum (V c main_v49) (V c main_v52) (rowOf (t.val / 5) (tdiv_lt t) p) q (t.val % 5) (tmod_lt t) := by
  unfold bprod0 colBlockSum aBlk0 hBlk0
  refine Finset.sum_congr rfl fun l _ => ?_
  rw [iblk0_0_apply, iblk0_1_apply]

theorem rowOf_congr (i i' : ℕ) (hi : i < 5) (hi' : i' < 5) (p : Fin 2048) (h : i = i') : rowOf i hi p = rowOf i' hi' p := by
  subst h; rfl

theorem colBlockSum_congr (A : S10240x10240.Idx → EReal) (H : S10240x256.Idx → EReal) (r r' : Fin 10240) (q : Fin 256)
    (k k' : ℕ) (hk : k < 5) (hk' : k' < 5) (hr : r = r') (hkk : k = k') :
    colBlockSum A H r q k hk = colBlockSum A H r' q k' hk' := by
  subst hr; subst hkk; rfl

/-- The result block stored at a point with k = 4, at (p, q): the layer's entry at row 2048·(t/5) + p. -/
theorem outAt0_apply (c : Dev nD) (t : Fin cfg0.N) (h4 : t.val % 5 = 4) (p : Fin 2048) (q : Fin 256) :
    outAt0 V c t (ix2 p q)
      = layerEntry (V c main_v49) (V c main_v52) (V c main_v53) (rowOf (t.val / 5) (tdiv_lt t) p) q := by
  have hN : t.val < 25 := lt_of_lt_of_eq t.isLt N_0
  unfold outAt0 layerEntry
  rw [pay3_0_apply, accAt0_apply, chain0_last V c p q t.val t.isLt h4, iblk0_2_apply]
  have b0 := (bprod0_eq V c ⟨t.val - 4, by omega⟩ p q).trans
    (colBlockSum_congr _ _ _ _ q _ 0 _ (by decide) (rowOf_congr _ (t.val / 5) _ (tdiv_lt t) p (by show (t.val - 4) / 5 = t.val / 5; omega)) (by show (t.val - 4) % 5 = 0; omega))
  have b1 := (bprod0_eq V c ⟨t.val - 3, by omega⟩ p q).trans
    (colBlockSum_congr _ _ _ _ q _ 1 _ (by decide) (rowOf_congr _ (t.val / 5) _ (tdiv_lt t) p (by show (t.val - 3) / 5 = t.val / 5; omega)) (by show (t.val - 3) % 5 = 1; omega))
  have b2 := (bprod0_eq V c ⟨t.val - 2, by omega⟩ p q).trans
    (colBlockSum_congr _ _ _ _ q _ 2 _ (by decide) (rowOf_congr _ (t.val / 5) _ (tdiv_lt t) p (by show (t.val - 2) / 5 = t.val / 5; omega)) (by show (t.val - 2) % 5 = 2; omega))
  have b3 := (bprod0_eq V c ⟨t.val - 1, by omega⟩ p q).trans
    (colBlockSum_congr _ _ _ _ q _ 3 _ (by decide) (rowOf_congr _ (t.val / 5) _ (tdiv_lt t) p (by show (t.val - 1) / 5 = t.val / 5; omega)) (by show (t.val - 1) % 5 = 3; omega))
  have b4 := (bprod0_eq V c ⟨t.val, t.isLt⟩ p q).trans
    (colBlockSum_congr _ _ _ _ q _ 4 _ (by decide) rfl (by show t.val % 5 = 4; exact h4))
  rw [b0, b1, b2, b3, b4]

/-- What a point with k = 4 writes back is its row block of the layer's result. -/
theorem flushed0_eq (c : Dev nD) (t : Fin cfg0.N) (hf : (cfg0.win 3).flush t = true) :
    (dat0 V c).flushed 3 t
      = ((cfg0.win 3).blk t).view.read (Elt Ideal) (layerOut (V c main_v49) (V c main_v52) (V c main_v53)) := by
  have h4 : t.val % 5 = 4 := (flush0_3 t).mp hf
  have hi := (idx0_facts t).2.2.2
  show (cfg0.win 3).cut (grid0.coords t) ((dat0 V c).after 3 t) = _
  rw [after0_3]
  funext y
  obtain ⟨p, q, rfl⟩ : ∃ (p : Fin 2048) (q : Fin 256), y = ix2 p q := ⟨y 0, y 1, eq_ix2 y⟩
  rw [View.read_apply]
  show outAt0 V c t (ix2 p q) = layerEntry _ _ _ ((((cfg0.win 3).blk t).view.emb (ix2 p q)) 0) ((((cfg0.win 3).blk t).view.emb (ix2 p q)) 1)
  rw [outAt0_apply V c t h4 p q]
  have e0 : (((cfg0.win 3).blk t).view.emb (ix2 p q)) 0 = rowOf (t.val / 5) (tdiv_lt t) p := by
    apply Fin.ext
    show win0_3.index t 0 * 2048 + 1 * p.val = 2048 * (t.val / 5) + p.val
    rw [hi.1]; omega
  have e1 : (((cfg0.win 3).blk t).view.emb (ix2 p q)) 1 = q := by
    apply Fin.ext
    show win0_3.index t 1 * 256 + 1 * q.val = q.val
    rw [hi.2]; omega
  rw [e0, e1]

/-- An index of the result array lies in point t's block iff each coordinate lies in the block's range. -/
theorem mem_blk0_3 (t : Fin cfg0.N) (i : S10240x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v54).slice (win0_3.rect t)).set ↔ _
  rw [View.set_slice_whole, Rect.mem_set_unit]
  exact Iff.rfl

/-- Every index of the result array lies in the block some point with k = 4 writes back: row r belongs to row block r / 2048. -/
theorem cover0_3 (i : S10240x256.Idx) :
    ∃ t : Fin cfg0.N, (cfg0.win 3).flush t = true ∧ i ∈ ((cfg0.win 3).blk t).view.set := by
  have hi0 : (i 0).val < 10240 := (i 0).isLt
  have hi1 : (i 1).val < 256 := (i 1).isLt
  have hN : cfg0.N = 25 := N_0
  let t : Fin cfg0.N := ⟨5 * ((i 0).val / 2048) + 4, by rw [hN]; omega⟩
  have ht : t.val = 5 * ((i 0).val / 2048) + 4 := rfl
  refine ⟨t, (flush0_3 t).mpr (by rw [ht]; omega), ?_⟩
  rw [mem_blk0_3]
  have hi := (idx0_facts t).2.2.2
  intro a
  match a with
  | ⟨0, _⟩ =>
    show win0_3.index t 0 * 2048 ≤ (i 0).val ∧ (i 0).val < win0_3.index t 0 * 2048 + 2048
    rw [hi.1, ht]; omega
  | ⟨1, _⟩ =>
    show win0_3.index t 1 * 256 ≤ (i 1).val ∧ (i 1).val < win0_3.index t 1 * 256 + 256
    rw [hi.2]; omega

/-- THE RESULT ARRAY after the region: the layer's result, of the three entry arrays. -/
theorem final0 (c : Dev nD) :
    (dat0 V c).arrAt 3 cfg0.N = layerOut (V c main_v49) (V c main_v52) (V c main_v53) :=
  (dat0 V c).arrAt_eq_of_cover 3 _ (fun t hf => flushed0_eq V c t hf) (cover0_3)

end Cert.KernelIdeal.Hand

end
-- ==== Proof.KI.Blk1.lean ====
/- The blocks of pallas_call 1's windows at a grid point t = 5·i + k, read at an entry as entries of the whole arrays:
   the matrix block is rows 2048·i …, columns 2048·k …; the feature block is rows 2048·k …; the bias row is the whole
   bias; the result block is rows 2048·i …. The index maps are decided once over the 25 points. -/
import proofs.«143978_j4672924418728_1_alg».proof.Proof.KI.Data1
import proofs.«143978_j4672924418728_1_alg».proof.Proof.KI.Blk0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- Where each window's block sits at point t: the matrix at block (t / 5, t % 5), the features at (t % 5, 0), the bias at
    (0, 0), the result at (t / 5, 0). -/
theorem idx1_facts : ∀ t : Fin cfg1.N,
    (win1_0.index t 0 = t.val / 5 ∧ win1_0.index t 1 = t.val % 5)
    ∧ (win1_1.index t 0 = t.val % 5 ∧ win1_1.index t 1 = 0)
    ∧ (win1_2.index t 0 = 0 ∧ win1_2.index t 1 = 0)
    ∧ (win1_3.index t 0 = t.val / 5 ∧ win1_3.index t 1 = 0) :=
  (by decide +kernel : ∀ t : Fin grid1.N, _)

theorem tdiv_lt1 (t : Fin cfg1.N) : t.val / 5 < 5 := by
  have h : t.val < 25 := lt_of_lt_of_eq t.isLt N_1
  omega
theorem tmod_lt1 (t : Fin cfg1.N) : t.val % 5 < 5 := Nat.mod_lt _ (by decide)

/-- The matrix block at point t, at (p, l): the matrix at (2048·(t/5) + p, 2048·(t%5) + l). -/
theorem iblk1_0_apply (c : Dev nD) (t : Fin cfg1.N) (p l : Fin 2048) :
    (iblk1 V c 0 t : Vec F S2048x2048 .bf16) (ix2 p l)
      = (V c main_v49 : S10240x10240.Idx → Elt F .bf16) (ix2 (rowOf (t.val / 5) (tdiv_lt1 t) p) (rowOf (t.val % 5) (tmod_lt1 t) l)) := by
  have hi := (idx1_facts t).1
  unfold iblk1
  rw [View.read_apply]
  show V c main_v49 _ = V c main_v49 _
  congr 1
  funext a
  apply Fin.ext
  match a with
  | ⟨0, _⟩ => show win1_0.index t 0 * 2048 + 1 * p.val = 2048 * (t.val / 5) + p.val; rw [hi.1]; omega
  | ⟨1, _⟩ => show win1_0.index t 1 * 2048 + 1 * l.val = 2048 * (t.val % 5) + l.val; rw [hi.2]; omega

/-- The feature block at point t, at (l, q): the features at (2048·(t%5) + l, q). -/
theorem iblk1_1_apply (c : Dev nD) (t : Fin cfg1.N) (l : Fin 2048) (q : Fin 256) :
    (iblk1 V c 1 t : Vec F S2048x256 .bf16) (ix2 l q)
      = (V c main_v58 : S10240x256.Idx → Elt F .bf16) (ix2 (rowOf (t.val % 5) (tmod_lt1 t) l) q) := by
  have hi := (idx1_facts t).2.1
  unfold iblk1
  rw [View.read_apply]
  show V c main_v58 _ = V c main_v58 _
  congr 1
  funext a
  apply Fin.ext
  match a with
  | ⟨0, _⟩ => show win1_1.index t 0 * 2048 + 1 * l.val = 2048 * (t.val % 5) + l.val; rw [hi.1]; omega
  | ⟨1, _⟩ => show win1_1.index t 1 * 256 + 1 * q.val = q.val; rw [hi.2]; omega

/-- The bias block at any point is the bias row. -/
theorem iblk1_2_apply (c : Dev nD) (t : Fin cfg1.N) (z : Fin 1) (q : Fin 256) :
    (iblk1 V c 2 t : Vec F S1x256 .f32) (ix2 z q) = (V c main_v59 : S1x256.Idx → Elt F .f32) (ix2 z q) := by
  have hi := (idx1_facts t).2.2.1
  unfold iblk1
  rw [View.read_apply]
  show V c main_v59 _ = V c main_v59 _
  congr 1
  funext a
  apply Fin.ext
  match a with
  | ⟨0, _⟩ => show win1_2.index t 0 * 1 + 1 * z.val = z.val; rw [hi.1]; omega
  | ⟨1, _⟩ => show win1_2.index t 1 * 256 + 1 * q.val = q.val; rw [hi.2]; omega

end Cert.KernelIdeal.Hand

end
-- ==== Proof.KI.Final1.lean ====
/- What pallas_call 1 leaves in its result array, on the extended reals: entry (r, q) is
   max( (((((0 + S₀) + S₁) + S₂) + S₃) + S₄) + bias(q), 0 ) with S_k = Σ_{l < 2048} A(r, 2048·k + l) · H(2048·k + l, q),
   the five column blocks of row r added in order. Each grid point with k = 4 writes back its row block, and the five
   row blocks cover the array. -/
import proofs.«143978_j4672924418728_1_alg».proof.Proof.KI.Acc1
import proofs.«143978_j4672924418728_1_alg».proof.Proof.KI.Final0
import proofs.«143978_j4672924418728_1_alg».proof.Proof.KI.Blk1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- A block product of a point of row block i, column block k, is S_k of the block's row. -/
theorem bprod1_eq (c : Dev nD) (t : Fin cfg1.N) (p : Fin 2048) (q : Fin 256) :
    bprod1 V c t p q
      = colBlockSum (V c main_v49) (V c main_v58) (rowOf (t.val / 5) (tdiv_lt1 t) p) q (t.val % 5) (tmod_lt1 t) := by
  unfold bprod1 colBlockSum aBlk1 hBlk1
  refine Finset.sum_congr rfl fun l _ => ?_
  rw [iblk1_0_apply, iblk1_1_apply]

/-- The result block stored at a point with k = 4, at (p, q): the layer's entry at row 2048·(t/5) + p. -/
theorem outAt1_apply (c : Dev nD) (t : Fin cfg1.N) (h4 : t.val % 5 = 4) (p : Fin 2048) (q : Fin 256) :
    outAt1 V c t (ix2 p q)
      = layerEntry (V c main_v49) (V c main_v58) (V c main_v59) (rowOf (t.val / 5) (tdiv_lt1 t) p) q := by
  have hN : t.val < 25 := lt_of_lt_of_eq t.isLt N_1
  unfold outAt1 layerEntry
  rw [pay3_1_apply, accAt1_apply, chain1_last V c p q t.val t.isLt h4, iblk1_2_apply]
  have b0 := (bprod1_eq V c ⟨t.val - 4, by omega⟩ p q).trans
    (colBlockSum_congr _ _ _ _ q _ 0 _ (by decide) (rowOf_congr _ (t.val / 5) _ (tdiv_lt1 t) p (by show (t.val - 4) / 5 = t.val / 5; omega)) (by show (t.val - 4) % 5 = 0; omega))
  have b1 := (bprod1_eq V c ⟨t.val - 3, by omega⟩ p q).trans
    (colBlockSum_congr _ _ _ _ q _ 1 _ (by decide) (rowOf_congr _ (t.val / 5) _ (tdiv_lt1 t) p (by show (t.val - 3) / 5 = t.val / 5; omega)) (by show (t.val - 3) % 5 = 1; omega))
  have b2 := (bprod1_eq V c ⟨t.val - 2, by omega⟩ p q).trans
    (colBlockSum_congr _ _ _ _ q _ 2 _ (by decide) (rowOf_congr _ (t.val / 5) _ (tdiv_lt1 t) p (by show (t.val - 2) / 5 = t.val / 5; omega)) (by show (t.val - 2) % 5 = 2; omega))
  have b3 := (bprod1_eq V c ⟨t.val - 1, by omega⟩ p q).trans
    (colBlockSum_congr _ _ _ _ q _ 3 _ (by decide) (rowOf_congr _ (t.val / 5) _ (tdiv_lt1 t) p (by show (t.val - 1) / 5 = t.val / 5; omega)) (by show (t.val - 1) % 5 = 3; omega))
  have b4 := (bprod1_eq V c ⟨t.val, t.isLt⟩ p q).trans
    (colBlockSum_congr _ _ _ _ q _ 4 _ (by decide) rfl (by show t.val % 5 = 4; exact h4))
  rw [b0, b1, b2, b3, b4]

/-- What a point with k = 4 writes back is its row block of the layer's result. -/
theorem flushed1_eq (c : Dev nD) (t : Fin cfg1.N) (hf : (cfg1.win 3).flush t = true) :
    (dat1 V c).flushed 3 t
      = ((cfg1.win 3).blk t).view.read (Elt Ideal) (layerOut (V c main_v49) (V c main_v58) (V c main_v59)) := by
  have h4 : t.val % 5 = 4 := (flush1_3 t).mp hf
  have hi := (idx1_facts t).2.2.2
  show (cfg1.win 3).cut (grid1.coords t) ((dat1 V c).after 3 t) = _
  rw [after1_3]
  funext y
  obtain ⟨p, q, rfl⟩ : ∃ (p : Fin 2048) (q : Fin 256), y = ix2 p q := ⟨y 0, y 1, eq_ix2 y⟩
  rw [View.read_apply]
  show outAt1 V c t (ix2 p q) = layerEntry _ _ _ ((((cfg1.win 3).blk t).view.emb (ix2 p q)) 0) ((((cfg1.win 3).blk t).view.emb (ix2 p q)) 1)
  rw [outAt1_apply V c t h4 p q]
  have e0 : (((cfg1.win 3).blk t).view.emb (ix2 p q)) 0 = rowOf (t.val / 5) (tdiv_lt1 t) p := by
    apply Fin.ext
    show win1_3.index t 0 * 2048 + 1 * p.val = 2048 * (t.val / 5) + p.val
    rw [hi.1]; omega
  have e1 : (((cfg1.win 3).blk t).view.emb (ix2 p q)) 1 = q := by
    apply Fin.ext
    show win1_3.index t 1 * 256 + 1 * q.val = q.val
    rw [hi.2]; omega
  rw [e0, e1]

/-- An index of the result array lies in point t's block iff each coordinate lies in the block's range. -/
theorem mem_blk1_3 (t : Fin cfg1.N) (i : S10240x256.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_v60).slice (win1_3.rect t)).set ↔ _
  rw [View.set_slice_whole, Rect.mem_set_unit]
  exact Iff.rfl

/-- Every index of the result array lies in the block some point with k = 4 writes back: row r belongs to row block r / 2048. -/
theorem cover1_3 (i : S10240x256.Idx) :
    ∃ t : Fin cfg1.N, (cfg1.win 3).flush t = true ∧ i ∈ ((cfg1.win 3).blk t).view.set := by
  have hi0 : (i 0).val < 10240 := (i 0).isLt
  have hi1 : (i 1).val < 256 := (i 1).isLt
  have hN : cfg1.N = 25 := N_1
  let t : Fin cfg1.N := ⟨5 * ((i 0).val / 2048) + 4, by rw [hN]; omega⟩
  have ht : t.val = 5 * ((i 0).val / 2048) + 4 := rfl
  refine ⟨t, (flush1_3 t).mpr (by rw [ht]; omega), ?_⟩
  rw [mem_blk1_3]
  have hi := (idx1_facts t).2.2.2
  intro a
  match a with
  | ⟨0, _⟩ =>
    show win1_3.index t 0 * 2048 ≤ (i 0).val ∧ (i 0).val < win1_3.index t 0 * 2048 + 2048
    rw [hi.1, ht]; omega
  | ⟨1, _⟩ =>
    show win1_3.index t 1 * 256 ≤ (i 1).val ∧ (i 1).val < win1_3.index t 1 * 256 + 256
    rw [hi.2]; omega

/-- THE RESULT ARRAY after the region: the layer's result, of the three entry arrays. -/
theorem final1 (c : Dev nD) :
    (dat1 V c).arrAt 3 cfg1.N = layerOut (V c main_v49) (V c main_v58) (V c main_v59) :=
  (dat1 V c).arrAt_eq_of_cover 3 _ (fun t hf => flushed1_eq V c t hf) (cover1_3)

end Cert.KernelIdeal.Hand

end
-- ==== Proof.Math.DenseEdges.lean ====
import Mathlib
import proofs.«143978_j4672924418728_1_alg».proof.Proof.LibReal

/-!
# A dense matrix of edge weights against a vector

Summing, over the columns `s`, the entry `Σ_e [hit e ∧ src e = s] a e` of a dense row times `x s` gives the
sum over the edges that hit the row of `a e * x (src e)`. Distributivity is needed, so all entries are real.
Two reindexings of a sum over `Fin n'` follow: dropping a tail on which one factor is zero, and splitting
`Fin (m * b)` into `m` blocks of `b`.
-/

noncomputable section

namespace Cert.Hand.Math

open Cert.GinMath
open scoped BigOperators

/-- The coercion of a guarded real is the guarded coercion. -/
theorem coe_ite_zero (c : Prop) [Decidable c] (r : ℝ) :
    ((if c then r else 0 : ℝ) : EReal) = if c then (r : EReal) else 0 := by
  split_ifs <;> simp

/-- The real identity behind the dense form: exchange the two sums and collapse the sum over columns. -/
theorem dense_edges_real {E N : Type*} [Fintype E] [Fintype N] [DecidableEq N]
    (a : E → ℝ) (x : N → ℝ) (src : E → N) (hit : E → Prop) [DecidablePred hit] :
    ∑ s : N, (∑ e, if hit e ∧ src e = s then a e else 0) * x s
      = ∑ e, if hit e then a e * x (src e) else 0 := by
  simp only [Finset.sum_mul]
  rw [Finset.sum_comm]
  refine Finset.sum_congr rfl (fun e _ => ?_)
  by_cases h : hit e
  · simp [h, ite_mul]
  · simp [h]

/-- A dense row of edge weights against a vector, over the extended reals with every entry real:
`Σ_s (Σ_e [hit e ∧ src e = s] a e) * x s = Σ_e [hit e] a e * x (src e)`. -/
theorem dense_edges {E N : Type*} [Fintype E] [Fintype N] [DecidableEq N]
    (a : E → EReal) (x : N → EReal) (ha : ∀ e, IsReal (a e)) (hx : ∀ s, IsReal (x s))
    (src : E → N) (hit : E → Prop) [DecidablePred hit] :
    ∑ s : N, (∑ e, if hit e ∧ src e = s then a e else 0) * x s
      = ∑ e, if hit e then a e * x (src e) else 0 := by
  obtain ⟨a', ha'⟩ := exists_real_fun ha
  obtain ⟨x', hx'⟩ := exists_real_fun hx
  have hL : ∀ s : N, (∑ e, if hit e ∧ src e = s then a e else 0) * x s
      = (((∑ e, if hit e ∧ src e = s then a' e else 0) * x' s : ℝ) : EReal) := by
    intro s
    rw [EReal.coe_mul, coe_sum, hx' s]
    congr 1
    refine Finset.sum_congr rfl (fun e _ => ?_)
    rw [coe_ite_zero, ha' e]
  have hR : ∀ e : E, (if hit e then a e * x (src e) else 0)
      = ((if hit e then a' e * x' (src e) else 0 : ℝ) : EReal) := by
    intro e
    rw [coe_ite_zero, EReal.coe_mul, ha' e, hx' (src e)]
  rw [Finset.sum_congr rfl (fun s _ => hL s), Finset.sum_congr rfl (fun e _ => hR e),
    ← coe_sum, ← coe_sum, dense_edges_real]

/-- The dense entry `Σ_e [hit e ∧ src e = s] a e` is real when the weights are. -/
theorem isReal_dense_entry {E : Type*} [Fintype E] (a : E → EReal) (ha : ∀ e, IsReal (a e))
    (p : E → Prop) [DecidablePred p] : IsReal (∑ e, if p e then a e else 0) :=
  IsReal.sum (fun e _ => by split_ifs; exacts [ha e, isReal_zero])

/-- The edge form `Σ_e [hit e] a e * x (src e)` is real when the weights and the vector are. -/
theorem isReal_edge_sum {E N : Type*} [Fintype E] (a : E → EReal) (x : N → EReal)
    (ha : ∀ e, IsReal (a e)) (hx : ∀ s, IsReal (x s)) (src : E → N)
    (hit : E → Prop) [DecidablePred hit] : IsReal (∑ e, if hit e then a e * x (src e) else 0) :=
  IsReal.sum (fun e _ => by split_ifs; exacts [(ha e).mul (hx _), isReal_zero])

/-- A sum over `Fin n'` of products whose second factor is `x` below `n` and zero from `n` on is the sum
over `Fin n`. -/
theorem sum_pad_zero {n n' : ℕ} (h : n ≤ n') (A : Fin n' → EReal) (x : Fin n → EReal) :
    ∑ s : Fin n', A s * (if hs : s.val < n then x ⟨s.val, hs⟩ else 0)
      = ∑ s : Fin n, A (Fin.castLE h s) * x s := by
  obtain ⟨m, rfl⟩ := Nat.exists_eq_add_of_le h
  rw [Fin.sum_univ_add]
  have h2 : ∑ i : Fin m, A (Fin.natAdd n i)
      * (if hs : (Fin.natAdd n i).val < n then x ⟨(Fin.natAdd n i).val, hs⟩ else 0) = 0 := by
    refine Finset.sum_eq_zero (fun i _ => ?_)
    rw [dif_neg (by simp), mul_zero]
  rw [h2, add_zero]
  refine Finset.sum_congr rfl (fun s _ => ?_)
  have hs : (Fin.castAdd m s).val < n := s.isLt
  rw [dif_pos hs]
  rfl

/-- A sum over `Fin (m * b)` as `m` blocks of `b`: the index of entry `j` of block `k` is `j + b * k`. -/
theorem sum_blocks {M : Type*} [AddCommMonoid M] (m b : ℕ) (f : Fin (m * b) → M) :
    ∑ s : Fin (m * b), f s = ∑ k : Fin m, ∑ j : Fin b, f (finProdFinEquiv (k, j)) := by
  rw [← Fintype.sum_prod_type' (f := fun k j => f (finProdFinEquiv (k, j)))]
  exact (Fintype.sum_equiv finProdFinEquiv _ _ (fun _ => rfl)).symm

/-- The value of the block index: entry `j` of block `k` sits at `j + b * k`. -/
theorem blockIdx_val (m b : ℕ) (k : Fin m) (j : Fin b) :
    (finProdFinEquiv (k, j) : Fin (m * b)).val = j.val + b * k.val := rfl

end Cert.Hand.Math

end
-- ==== Proof.Math.PointScatter.lean ====
import Idealize.ShloMosaic.PureOps.Ideal
import Idealize.ShloMosaic.Lib.ValueIdx

/-!
# A scatter-add of single entries by a two-column index

An array of E index rows, laid out [E, 2], names for each e one entry (row, column) of an operand [N, M];
a vector of E updates is added entry by entry. Both index components are read signed and not clamped: an update
whose row or column falls outside the operand lands nowhere. The scatter-add leaves at entry (p, q) the operand's
entry plus the sum of the updates e whose index row is (p, q).
-/

noncomputable section

namespace Cert.Hand.Math

open Idealize.ShloMosaic Idealize.ShloMosaic.ValueIdx
open scoped BigOperators

/-- Dimension numbers of a scatter of single entries: operand [N, M], scatter indices [E, 2], updates [E]. -/
abbrev pointScatterDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- Update e of a scatter of entries lands on entry (p, q) exactly when the e-th index row, read signed,
    is (p, q). -/
theorem pointScatter_resultIdx {N M E w : Nat}
    (wf : ScatterDims.WF ⟨2, ![N, M]⟩ ⟨2, ![E, 2]⟩ ⟨1, ![E]⟩ [] [0, 1] [0, 1] 1)
    (idx : IVec ⟨2, ![E, 2]⟩ w) (e : Fin E) (p : Fin N) (q : Fin M) :
    (pointScatterDims N M E wf).resultIdx? (ix1 e) idx = some (ix2 p q)
      ↔ (idx (ix2 e (0 : Fin 2))).toInt = (p.val : ℤ) ∧ (idx (ix2 e (1 : Fin 2))).toInt = (q.val : ℤ) := by
  have hw0 : (pointScatterDims N M E wf).window (ix1 e) 0 = 0 := by
    unfold ScatterDims.window
    rw [dif_neg]
    intro h
    have h' := (List.mem_filter.mp h).2
    simp at h'
  have hw1 : (pointScatterDims N M E wf).window (ix1 e) 1 = 0 := by
    unfold ScatterDims.window
    rw [dif_neg]
    intro h
    have h' := (List.mem_filter.mp h).2
    simp at h'
  have hst0 : (pointScatterDims N M E wf).start (ix1 e) idx 0 = (idx (ix2 e (0 : Fin 2))).toInt := by
    unfold ScatterDims.start
    rw [dif_pos (show (0 : Fin 2) ∈ (pointScatterDims N M E wf).scatterDimsToOperandDims from
      List.mem_cons_self)]
    have hsi : (pointScatterDims N M E wf).siIdx (ix1 e)
        ⟨List.idxOf (0 : Fin 2) (pointScatterDims N M E wf).scatterDimsToOperandDims,
          List.idxOf_lt_length_iff.2 List.mem_cons_self⟩ = ix2 e (0 : Fin 2) := by
      funext b; refine Fin.ext ?_
      match b with
      | ⟨0, _⟩ => rfl
      | ⟨1, _⟩ => rfl
    rw [hsi]
  have hm1 : (1 : Fin 2) ∈ (pointScatterDims N M E wf).scatterDimsToOperandDims :=
    List.mem_cons_of_mem _ List.mem_cons_self
  have hst1 : (pointScatterDims N M E wf).start (ix1 e) idx 1 = (idx (ix2 e (1 : Fin 2))).toInt := by
    unfold ScatterDims.start
    rw [dif_pos hm1]
    have hsi : (pointScatterDims N M E wf).siIdx (ix1 e)
        ⟨List.idxOf (1 : Fin 2) (pointScatterDims N M E wf).scatterDimsToOperandDims,
          List.idxOf_lt_length_iff.2 hm1⟩ = ix2 e (1 : Fin 2) := by
      funext b; refine Fin.ext ?_
      match b with
      | ⟨0, _⟩ => rfl
      | ⟨1, _⟩ => rfl
    rw [hsi]
  have hsum0 : (pointScatterDims N M E wf).start (ix1 e) idx 0
      + (((pointScatterDims N M E wf).window (ix1 e) 0 : ℕ) : ℤ) = (idx (ix2 e (0 : Fin 2))).toInt := by
    rw [hst0, hw0]; simp
  have hsum1 : (pointScatterDims N M E wf).start (ix1 e) idx 1
      + (((pointScatterDims N M E wf).window (ix1 e) 1 : ℕ) : ℤ) = (idx (ix2 e (1 : Fin 2))).toInt := by
    rw [hst1, hw1]; simp
  unfold ScatterDims.resultIdx?
  split
  · rename_i h
    rw [Option.some.injEq]
    constructor
    · intro hf
      have h0 : ((pointScatterDims N M E wf).start (ix1 e) idx 0
          + (((pointScatterDims N M E wf).window (ix1 e) 0 : ℕ) : ℤ)).toNat = p.val :=
        congrArg (fun f => (f 0).val) hf
      have h1 : ((pointScatterDims N M E wf).start (ix1 e) idx 1
          + (((pointScatterDims N M E wf).window (ix1 e) 1 : ℕ) : ℤ)).toNat = q.val :=
        congrArg (fun f => (f 1).val) hf
      have hh0 := (h 0).1
      have hh1 := (h 1).1
      rw [hsum0] at h0 hh0
      rw [hsum1] at h1 hh1
      exact ⟨by omega, by omega⟩
    · rintro ⟨hp, hq⟩
      funext a; refine Fin.ext ?_
      match a with
      | ⟨0, _⟩ =>
        show ((pointScatterDims N M E wf).start (ix1 e) idx 0
          + (((pointScatterDims N M E wf).window (ix1 e) 0 : ℕ) : ℤ)).toNat = p.val
        rw [hsum0, hp]; simp
      | ⟨1, _⟩ =>
        show ((pointScatterDims N M E wf).start (ix1 e) idx 1
          + (((pointScatterDims N M E wf).window (ix1 e) 1 : ℕ) : ℤ)).toNat = q.val
        rw [hsum1, hq]; simp
  · rename_i h
    constructor
    · intro hf; exact absurd hf (by simp)
    · rintro ⟨hp, hq⟩
      exfalso; apply h
      intro a
      match a with
      | ⟨0, _⟩ =>
        show 0 ≤ (pointScatterDims N M E wf).start (ix1 e) idx 0
              + (((pointScatterDims N M E wf).window (ix1 e) 0 : ℕ) : ℤ)
          ∧ (pointScatterDims N M E wf).start (ix1 e) idx 0
              + (((pointScatterDims N M E wf).window (ix1 e) 0 : ℕ) : ℤ) < (N : ℤ)
        rw [hsum0, hp]
        have := p.isLt
        omega
      | ⟨1, _⟩ =>
        show 0 ≤ (pointScatterDims N M E wf).start (ix1 e) idx 1
              + (((pointScatterDims N M E wf).window (ix1 e) 1 : ℕ) : ℤ)
          ∧ (pointScatterDims N M E wf).start (ix1 e) idx 1
              + (((pointScatterDims N M E wf).window (ix1 e) 1 : ℕ) : ℤ) < (M : ℤ)
        rw [hsum1, hq]
        have := q.isLt
        omega

/-- A scatter-add of entries at (p, q): the operand there plus the updates of the edges e whose index row,
    read signed, is (p, q). -/
theorem pointScatterAdd_apply {N M E w : Nat}
    (wf : ScatterDims.WF ⟨2, ![N, M]⟩ ⟨2, ![E, 2]⟩ ⟨1, ![E]⟩ [] [0, 1] [0, 1] 1)
    (z : (⟨2, ![N, M]⟩ : Shape).Idx → EReal) (idx : IVec ⟨2, ![E, 2]⟩ w)
    (u : (⟨1, ![E]⟩ : Shape).Idx → EReal) (p : Fin N) (q : Fin M) :
    Host.scatterAdd (F := Ideal) (φ := .f32) (pointScatterDims N M E wf) z idx u (ix2 p q)
      = z (ix2 p q)
        + ∑ e ∈ Finset.univ.filter (fun e : Fin E => (idx (ix2 e (0 : Fin 2))).toInt = (p.val : ℤ)
            ∧ (idx (ix2 e (1 : Fin 2))).toInt = (q.val : ℤ)), u (ix1 e) := by
  show Ideal.hostScatterAdd (pointScatterDims N M E wf) z idx u (ix2 p q) = _
  unfold Ideal.hostScatterAdd
  congr 1
  refine Finset.sum_nbij' (fun j => j 0) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _,
      (pointScatter_resultIdx wf idx e p q).mp (Finset.mem_filter.mp hj).2⟩
  · intro e he
    exact Finset.mem_filter.mpr ⟨Finset.mem_univ _,
      (pointScatter_resultIdx wf idx e p q).mpr (Finset.mem_filter.mp he).2⟩
  · intro j _
    exact (eq_ix1 j).symm
  · intro e _
    rfl
  · intro j _
    exact congrArg u (eq_ix1 j)

/-- The same with the sum written over all edges, the ones that miss (p, q) contributing zero. -/
theorem pointScatterAdd_apply_ite {N M E w : Nat}
    (wf : ScatterDims.WF ⟨2, ![N, M]⟩ ⟨2, ![E, 2]⟩ ⟨1, ![E]⟩ [] [0, 1] [0, 1] 1)
    (z : (⟨2, ![N, M]⟩ : Shape).Idx → EReal) (idx : IVec ⟨2, ![E, 2]⟩ w)
    (u : (⟨1, ![E]⟩ : Shape).Idx → EReal) (p : Fin N) (q : Fin M) :
    Host.scatterAdd (F := Ideal) (φ := .f32) (pointScatterDims N M E wf) z idx u (ix2 p q)
      = z (ix2 p q)
        + ∑ e : Fin E, if (idx (ix2 e (0 : Fin 2))).toInt = (p.val : ℤ)
            ∧ (idx (ix2 e (1 : Fin 2))).toInt = (q.val : ℤ) then u (ix1 e) else 0 := by
  rw [pointScatterAdd_apply, Finset.sum_filter]

end Cert.Hand.Math

end
-- ==== Proof.Math.Layer.lean ====
import proofs.«143978_j4672924418728_1_alg».proof.Proof.Math.DenseEdges
import proofs.«143978_j4672924418728_1_alg».proof.Proof.Math.PointScatter

/-!
# One layer: the dense matrix against the padded features is the sum over edges

With 330000 edges (src e → dst e, weight norm e) over 10000 nodes, the dense matrix A[10240, 10240] has entry
A(d, s) = 0 + Σ_e [(dst e, src e) = (d, s)] norm e, and the feature matrix h[10000, 256] is padded with zero rows
to 10240 rows. Row d of A against column f of the padded features is Σ_e [dst e = d] norm e * h (src e) f: the rows
from 10000 on contribute zero, and on the first 10000 the two sums exchange, all numbers being real. The sum over
the 10240 columns also splits as 5 blocks of 2048.
-/

noncomputable section

namespace Cert.Hand.Math

open Cert.GinMath Idealize.ShloMosaic Idealize.ShloMosaic.ValueIdx
open scoped BigOperators

/-- A sum over 10240 indices as 5 blocks of 2048: entry j of block k sits at 2048 * k + j. -/
theorem sum_10240_blocks {M : Type*} [AddCommMonoid M] (g : Fin 10240 → M) :
    ∑ s : Fin 10240, g s
      = ∑ k : Fin 5, ∑ j : Fin 2048, g ⟨2048 * k.val + j.val, by have := k.isLt; have := j.isLt; omega⟩ := by
  refine (sum_blocks 5 2048 g).trans ?_
  refine Finset.sum_congr rfl (fun k _ => Finset.sum_congr rfl (fun j _ => ?_))
  refine congrArg g (Fin.ext ?_)
  show j.val + 2048 * k.val = 2048 * k.val + j.val
  omega

/-- Dropping the zero rows: a sum over 10240 indices against features padded with zero from 10000 on. -/
theorem sum_10240_pad (A : Fin 10240 → EReal) (x : Fin 10000 → EReal) :
    ∑ s : Fin 10240, A s * (if hs : s.val < 10000 then x ⟨s.val, hs⟩ else 0)
      = ∑ s : Fin 10000, A ⟨s.val, by have := s.isLt; omega⟩ * x s :=
  sum_pad_zero (n := 10000) (n' := 10240) (by norm_num) A x

/-- The layer law: row d of the dense matrix against column f of the zero-padded features is the sum, over the
    edges into d, of the weight times the source's feature. -/
theorem layer_law (norm : Fin 330000 → EReal) (h : Fin 10000 → Fin 256 → EReal)
    (src dst : Fin 330000 → Fin 10000)
    (hn : ∀ e, IsReal (norm e)) (hh : ∀ s f, IsReal (h s f)) (d : Fin 10240) (f : Fin 256) :
    ∑ s : Fin 10240,
        (0 + ∑ e : Fin 330000, if (dst e).val = d.val ∧ (src e).val = s.val then norm e else 0)
          * (if hs : s.val < 10000 then h ⟨s.val, hs⟩ f else 0)
      = ∑ e : Fin 330000, if (dst e).val = d.val then norm e * h (src e) f else 0 := by
  refine (sum_pad_zero (n := 10000) (n' := 10240) (by norm_num)
    (fun s : Fin 10240 =>
      0 + ∑ e : Fin 330000, if (dst e).val = d.val ∧ (src e).val = s.val then norm e else 0)
    (fun s => h s f)).trans ?_
  rw [← dense_edges norm (fun s => h s f) hn (fun s => hh s f) src (fun e => (dst e).val = d.val)]
  refine Finset.sum_congr rfl (fun s _ => ?_)
  show (0 + ∑ e : Fin 330000, if (dst e).val = d.val ∧ (src e).val = s.val then norm e else 0) * h s f = _
  rw [zero_add]
  refine congrArg (· * h s f) ?_
  refine Finset.sum_congr rfl (fun e _ => ?_)
  exact if_congr (Iff.and Iff.rfl Fin.val_inj) rfl rfl

/-- The layer law with the two factors given pointwise: any A and H whose entries are the dense entry and the
    zero-padded feature. -/
theorem layer_law_of (norm : Fin 330000 → EReal) (h : Fin 10000 → Fin 256 → EReal)
    (src dst : Fin 330000 → Fin 10000)
    (hn : ∀ e, IsReal (norm e)) (hh : ∀ s f, IsReal (h s f)) (d : Fin 10240) (f : Fin 256)
    (A H : Fin 10240 → EReal)
    (hA : ∀ s : Fin 10240,
      A s = 0 + ∑ e : Fin 330000, if (dst e).val = d.val ∧ (src e).val = s.val then norm e else 0)
    (hH : ∀ s : Fin 10240, H s = if hs : s.val < 10000 then h ⟨s.val, hs⟩ f else 0) :
    ∑ s : Fin 10240, A s * H s
      = ∑ e : Fin 330000, if (dst e).val = d.val then norm e * h (src e) f else 0 := by
  rw [← layer_law norm h src dst hn hh d f]
  exact Finset.sum_congr rfl (fun s _ => by rw [hA s, hH s])

/-- The value of a layer's row is real. -/
theorem isReal_layer (norm : Fin 330000 → EReal) (h : Fin 10000 → Fin 256 → EReal)
    (src dst : Fin 330000 → Fin 10000)
    (hn : ∀ e, IsReal (norm e)) (hh : ∀ s f, IsReal (h s f)) (d : Fin 10240) (f : Fin 256) :
    IsReal (∑ e : Fin 330000, if (dst e).val = d.val then norm e * h (src e) f else 0) :=
  isReal_edge_sum norm (fun s => h s f) hn (fun s => hh s f) src (fun e => (dst e).val = d.val)

/-- A dense entry is real. -/
theorem isReal_dense (norm : Fin 330000 → EReal) (src dst : Fin 330000 → Fin 10000)
    (hn : ∀ e, IsReal (norm e)) (d s : Fin 10240) :
    IsReal (0 + ∑ e : Fin 330000, if (dst e).val = d.val ∧ (src e).val = s.val then norm e else 0) :=
  isReal_zero.add (isReal_dense_entry norm hn _)

/-- The dense matrix built by the scatter-add into zeros, at (d, s): the index rows are (dst e, src e) read
    signed. -/
theorem scatter_dense {w : Nat}
    (wf : ScatterDims.WF ⟨2, ![10240, 10240]⟩ ⟨2, ![330000, 2]⟩ ⟨1, ![330000]⟩ [] [0, 1] [0, 1] 1)
    (z : (⟨2, ![10240, 10240]⟩ : Shape).Idx → EReal) (hz : ∀ j, z j = 0)
    (idx : IVec ⟨2, ![330000, 2]⟩ w) (u : (⟨1, ![330000]⟩ : Shape).Idx → EReal)
    (src dst : Fin 330000 → Fin 10000)
    (hdst : ∀ e : Fin 330000, (idx (ix2 e (0 : Fin 2))).toInt = ((dst e).val : ℤ))
    (hsrc : ∀ e : Fin 330000, (idx (ix2 e (1 : Fin 2))).toInt = ((src e).val : ℤ))
    (d s : Fin 10240) :
    Host.scatterAdd (F := Ideal) (φ := .f32) (pointScatterDims 10240 10240 330000 wf) z idx u (ix2 d s)
      = 0 + ∑ e : Fin 330000, if (dst e).val = d.val ∧ (src e).val = s.val then u (ix1 e) else 0 := by
  rw [pointScatterAdd_apply_ite, hz]
  refine congrArg (0 + ·) ?_
  refine Finset.sum_congr rfl (fun e _ => ?_)
  refine if_congr ?_ rfl rfl
  rw [hdst e, hsrc e, Nat.cast_inj, Nat.cast_inj]

/-- The layer law read off the scatter-add: row d of the scattered matrix against column f of the zero-padded
    features. -/
theorem layer_scatter {w : Nat}
    (wf : ScatterDims.WF ⟨2, ![10240, 10240]⟩ ⟨2, ![330000, 2]⟩ ⟨1, ![330000]⟩ [] [0, 1] [0, 1] 1)
    (z : (⟨2, ![10240, 10240]⟩ : Shape).Idx → EReal) (hz : ∀ j, z j = 0)
    (idx : IVec ⟨2, ![330000, 2]⟩ w) (u : (⟨1, ![330000]⟩ : Shape).Idx → EReal)
    (src dst : Fin 330000 → Fin 10000)
    (hdst : ∀ e : Fin 330000, (idx (ix2 e (0 : Fin 2))).toInt = ((dst e).val : ℤ))
    (hsrc : ∀ e : Fin 330000, (idx (ix2 e (1 : Fin 2))).toInt = ((src e).val : ℤ))
    (hu : ∀ e : Fin 330000, IsReal (u (ix1 e)))
    (h : Fin 10000 → Fin 256 → EReal) (hh : ∀ s f, IsReal (h s f)) (d : Fin 10240) (f : Fin 256) :
    ∑ s : Fin 10240,
        Host.scatterAdd (F := Ideal) (φ := .f32) (pointScatterDims 10240 10240 330000 wf) z idx u (ix2 d s)
          * (if hs : s.val < 10000 then h ⟨s.val, hs⟩ f else 0)
      = ∑ e : Fin 330000, if (dst e).val = d.val then u (ix1 e) * h (src e) f else 0 :=
  layer_law_of (fun e => u (ix1 e)) h src dst hu hh d f _ _
    (fun s => scatter_dense wf z hz idx u src dst hdst hsrc d s) (fun _ => rfl)

end Cert.Hand.Math

end
-- ==== Proof.Math.LayerEntry.lean ====
/- One layer's entry two ways. The kernel's: max( (((((0 + S₀) + S₁) + S₂) + S₃) + S₄) + bias, 0 ) with S_k the sum over the k-th block of
   2048 columns of A(r, ·) · H(·, q). The reference's: max( (0 + Σ over the edges into d of h(source) · weight) + bias, 0 ). They agree when
   A is the dense matrix of the weights at (target, source), H the features padded with zero rows, and all weights and
   features are real: the five blocks are the whole sum over 10240 columns, the padding rows contribute zero, and the
   two sums exchange by distributivity over the reals. -/
import proofs.«143978_j4672924418728_1_alg».proof.Proof.Math.Layer
import Idealize.ShloMosaic.Lib.ValueIdx

noncomputable section

namespace Cert.Hand.Math

open Cert.GinMath Idealize.ShloMosaic Idealize.ShloMosaic.ValueIdx
open scoped BigOperators

/-- Column `2048·k + l` of a 10240-column array. -/
def colOf (k : ℕ) (hk : k < 5) (l : Fin 2048) : Fin 10240 := ⟨2048 * k + l.val, by have := l.isLt; omega⟩

/-- S_k at (r, q). -/
def blockSum (A : (⟨2, ![10240, 10240]⟩ : Shape).Idx → EReal) (H : (⟨2, ![10240, 256]⟩ : Shape).Idx → EReal)
    (r : Fin 10240) (q : Fin 256) (k : ℕ) (hk : k < 5) : EReal :=
  ∑ l : Fin 2048, A (ix2 r (colOf k hk l)) * H (ix2 (colOf k hk l) q)

/-- The five blocks, added in order from 0, are the sum over all 10240 columns. -/
theorem blocks_eq_sum (A : (⟨2, ![10240, 10240]⟩ : Shape).Idx → EReal) (H : (⟨2, ![10240, 256]⟩ : Shape).Idx → EReal)
    (r : Fin 10240) (q : Fin 256) :
    ((((0 + blockSum A H r q 0 (by decide)) + blockSum A H r q 1 (by decide)) + blockSum A H r q 2 (by decide))
        + blockSum A H r q 3 (by decide)) + blockSum A H r q 4 (by decide)
      = ∑ s : Fin 10240, A (ix2 r s) * H (ix2 s q) := by
  rw [sum_10240_blocks (fun s : Fin 10240 => A (ix2 r s) * H (ix2 s q)), Fin.sum_univ_five, zero_add]
  rfl

/-- THE LAYER'S ENTRY. With `src`, `dst` the edges' end nodes, `u` their real weights, `h` the real features, `A` the
    dense matrix of the weights, `H` the features padded with zero rows: the kernel's ordered block sum at row d,
    column f, is the sum over the edges into d of the weight times the source's feature. -/
theorem blocks_eq_edges (A : (⟨2, ![10240, 10240]⟩ : Shape).Idx → EReal) (H : (⟨2, ![10240, 256]⟩ : Shape).Idx → EReal)
    (u : Fin 330000 → EReal) (h : Fin 10000 → Fin 256 → EReal) (src dst : Fin 330000 → Fin 10000)
    (hu : ∀ e, IsReal (u e)) (hh : ∀ s f, IsReal (h s f))
    (hA : ∀ d s : Fin 10240, A (ix2 d s) = 0 + ∑ e : Fin 330000, if (dst e).val = d.val ∧ (src e).val = s.val then u e else 0)
    (hH : ∀ (s : Fin 10240) (f : Fin 256), H (ix2 s f) = if hs : s.val < 10000 then h ⟨s.val, hs⟩ f else 0)
    (d : Fin 10240) (f : Fin 256) :
    ((((0 + blockSum A H d f 0 (by decide)) + blockSum A H d f 1 (by decide)) + blockSum A H d f 2 (by decide))
        + blockSum A H d f 3 (by decide)) + blockSum A H d f 4 (by decide)
      = ∑ e : Fin 330000, if (dst e).val = d.val then u e * h (src e) f else 0 := by
  rw [blocks_eq_sum]
  exact layer_law_of u h src dst hu hh d f (fun s => A (ix2 d s)) (fun s => H (ix2 s f)) (fun s => hA d s) (fun s => hH s f)

/-- The same sum over the edges into d as a filtered sum with the factors in the reference's order. -/
theorem edges_filter (u : Fin 330000 → EReal) (h : Fin 10000 → Fin 256 → EReal) (src dst : Fin 330000 → Fin 10000)
    (d : Fin 10240) (f : Fin 256) (S : Finset (Fin 330000)) (hS : ∀ e, e ∈ S ↔ (dst e).val = d.val) :
    (∑ e : Fin 330000, if (dst e).val = d.val then u e * h (src e) f else 0) = ∑ e ∈ S, h (src e) f * u e := by
  have hS' : S = Finset.univ.filter (fun e => (dst e).val = d.val) := by
    ext e; simp only [Finset.mem_filter, Finset.mem_univ, true_and]; exact hS e
  rw [hS', Finset.sum_filter]
  exact Finset.sum_congr rfl fun e _ => by split_ifs <;> [exact mul_comm _ _; rfl]

end Cert.Hand.Math

end
-- ==== Proof.LibRowIndex.lean ====
import Idealize.ShloMosaic.PureOps.Ideal
import Idealize.ShloMosaic.Lib.ValueIdx

/-!
# Rows picked by an index column: a gather of rows, a gather of entries, a scatter of rows

An array of E start indices, laid out as a column [E, 1], picks for each e one row of an operand with N rows.
A gather reads the start index as a signed integer and clamps it into [0, N − 1]; a scatter reads it signed and
does not clamp: an update whose row falls outside [0, N) lands nowhere. The three facts below read the two
gathers at an index and say which updates of the scatter land on a given entry.
-/

noncomputable section

namespace Cert.RowIndex

open Idealize.ShloMosaic Idealize.ShloMosaic.ValueIdx

/-- The row a start index selects in a gather: read signed, clamped into [0, N − 1]. -/
def clampRow {w : Nat} (N : Nat) (hN : 0 < N) (b : BitVec w) : Fin N := ⟨min b.toInt.toNat (N - 1), by omega⟩

/-- Dimension numbers of a gather of whole rows: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of a gather of single entries of a vector: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a scatter of whole rows: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A gather of rows at (e, c): the operand at the clamped row of the e-th start index, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    have h1 : (1 : Fin 2) ∉ (rowGatherDims N E C wf).startIndexMap := by
      intro h; exact absurd (congrArg Fin.val (List.mem_singleton.mp h)) Nat.one_ne_zero
    unfold GatherDims.start
    rw [dif_neg h1]
    simp only [Nat.add_zero, Nat.zero_add]
    rfl

/-- A gather of entries at e: the operand at the clamped e-th start index. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Update (e, c) of a scatter of rows lands on entry (p, q) exactly when the e-th scatter index, read signed,
    is p, and the columns agree. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (p : Fin N) (q : Fin C) :
    (rowScatterDims N E C wf).resultIdx? (ix2 e c) idx = some (ix2 p q)
      ↔ (idx (ix2 e (0 : Fin 1))).toInt = (p.val : ℤ) ∧ c = q := by
  have hw0 : (rowScatterDims N E C wf).window (ix2 e c) 0 = 0 := by
    unfold ScatterDims.window
    rw [dif_neg]
    intro h
    have h' := (List.mem_filter.mp h).2
    simp at h'
  have hst0 : (rowScatterDims N E C wf).start (ix2 e c) idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hst1 : (rowScatterDims N E C wf).start (ix2 e c) idx 1 = 0 := by
    unfold ScatterDims.start
    rw [dif_neg]
    intro h
    exact absurd (congrArg Fin.val (List.mem_singleton.mp h)) Nat.one_ne_zero
  have hw1 : (rowScatterDims N E C wf).window (ix2 e c) 1 = c.val := by
    unfold ScatterDims.window
    rw [dif_pos]
    · rfl
    · refine List.mem_filter.mpr ⟨List.mem_finRange _, ?_⟩
      apply decide_eq_true
      intro h
      exact absurd (congrArg Fin.val (List.mem_singleton.mp h)) Nat.one_ne_zero
  have hsum0 : (rowScatterDims N E C wf).start (ix2 e c) idx 0
      + (((rowScatterDims N E C wf).window (ix2 e c) 0 : ℕ) : ℤ) = (idx (ix2 e (0 : Fin 1))).toInt := by
    rw [hst0, hw0]; simp
  have hsum1 : (rowScatterDims N E C wf).start (ix2 e c) idx 1
      + (((rowScatterDims N E C wf).window (ix2 e c) 1 : ℕ) : ℤ) = (c.val : ℤ) := by
    rw [hst1, hw1]; simp
  unfold ScatterDims.resultIdx?
  split
  · rename_i h
    rw [Option.some.injEq]
    constructor
    · intro hf
      have h0 : ((rowScatterDims N E C wf).start (ix2 e c) idx 0
          + (((rowScatterDims N E C wf).window (ix2 e c) 0 : ℕ) : ℤ)).toNat = p.val :=
        congrArg (fun f => (f 0).val) hf
      have h1 : ((rowScatterDims N E C wf).start (ix2 e c) idx 1
          + (((rowScatterDims N E C wf).window (ix2 e c) 1 : ℕ) : ℤ)).toNat = q.val :=
        congrArg (fun f => (f 1).val) hf
      have hh := (h 0).1
      rw [hsum0] at h0 hh
      rw [hsum1] at h1
      exact ⟨by omega, Fin.ext (by omega)⟩
    · rintro ⟨hp, rfl⟩
      funext a; refine Fin.ext ?_
      match a with
      | ⟨0, _⟩ =>
        show ((rowScatterDims N E C wf).start (ix2 e c) idx 0
          + (((rowScatterDims N E C wf).window (ix2 e c) 0 : ℕ) : ℤ)).toNat = p.val
        rw [hsum0, hp]; simp
      | ⟨1, _⟩ =>
        show ((rowScatterDims N E C wf).start (ix2 e c) idx 1
          + (((rowScatterDims N E C wf).window (ix2 e c) 1 : ℕ) : ℤ)).toNat = c.val
        rw [hsum1]; simp
  · rename_i h
    constructor
    · intro hf; exact absurd hf (by simp)
    · rintro ⟨hp, rfl⟩
      exfalso; apply h
      intro a
      match a with
      | ⟨0, _⟩ =>
        show 0 ≤ (rowScatterDims N E C wf).start (ix2 e c) idx 0
              + (((rowScatterDims N E C wf).window (ix2 e c) 0 : ℕ) : ℤ)
          ∧ (rowScatterDims N E C wf).start (ix2 e c) idx 0
              + (((rowScatterDims N E C wf).window (ix2 e c) 0 : ℕ) : ℤ) < (N : ℤ)
        rw [hsum0, hp]
        have := p.isLt
        omega
      | ⟨1, _⟩ =>
        show 0 ≤ (rowScatterDims N E C wf).start (ix2 e c) idx 1
              + (((rowScatterDims N E C wf).window (ix2 e c) 1 : ℕ) : ℤ)
          ∧ (rowScatterDims N E C wf).start (ix2 e c) idx 1
              + (((rowScatterDims N E C wf).window (ix2 e c) 1 : ℕ) : ℤ) < (C : ℤ)
        rw [hsum1]
        have := c.isLt
        omega

end Cert.RowIndex

end
-- ==== Proof.Ref.Spec.lean ====
/-
  The graph convolution as mathematics over the argument arrays.

  The edge list is the 320000 given edges followed by one self-loop per node; an edge's endpoints are read as
  signed 32-bit words. A node's degree counts the edges that end at it, its weight is 1/√(max(degree, 1)) when the
  degree is positive and 0 otherwise, and an edge's coefficient is the product of its two endpoints' weights.
  These are written here as the host's own chain of array operations, so that any program running the same chain
  computes them by definition. A convolution layer then takes node features H to
      max((0 + Σ_{e : target(e) = d} H(source(e), f) · coefficient(e)) + b(f), 0)
  at node d and feature f.
-/
import Idealize.ShloMosaic.PureOps.Ideal
import Idealize.ShloMosaic.Lib.ValueIdx
import proofs.«143978_j4672924418728_1_alg».proof.Proof.LibRowIndex

noncomputable section

namespace Cert.Hand.Ref

open Idealize.ShloMosaic Idealize.ShloMosaic.ValueIdx Cert.RowIndex
open scoped BigOperators

/-- The shapes of the chain: the edge-index array, an edge vector, an edge column, a node vector, a scalar. -/
abbrev SEI : Shape := ⟨2, ![2, 320000]⟩
abbrev SRow : Shape := ⟨2, ![1, 320000]⟩
abbrev SGiven : Shape := ⟨1, ![320000]⟩
abbrev SE : Shape := ⟨1, ![330000]⟩
abbrev SEc : Shape := ⟨2, ![330000, 1]⟩
abbrev SN : Shape := ⟨1, ![10000]⟩
abbrev S0 : Shape := ⟨0, ![]⟩

/-- Dimension numbers of a scatter of single entries into a vector: operand [N], scatter indices [E, 1],
    updates [E]. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The side conditions of the chain's layout operations; each program that runs the chain states and proves
    them for itself. -/
structure ChainFacts : Prop where
  slices0 : SEI.Slices ![0, 0] SRow
  slices1 : SEI.Slices ![1, 0] SRow
  cast : SRow.ShapeCasts SGiven
  cat : Shape.Concatenates [SGiven, SN] SE 0
  bE : S0.BroadcastsInDim SE (![] : Fin 0 → Fin SE.rank)
  bN : S0.BroadcastsInDim SN (![] : Fin 0 → Fin SN.rank)
  bcol : SE.BroadcastsInDim SEc (![0] : Fin 1 → Fin SEc.rank)
  scat : ScatterDims.WF SN SEc SE [] [0] [0] 1
  gath : GatherDims.WF SN SEc SE [] [0] [] [0] [] 1 ![1]

/-- The side conditions hold: each is a finite check on the literal shapes. -/
theorem chain : ChainFacts :=
  ⟨by decide, by decide, by decide, by decide, by decide, by decide, by decide, by decide, by decide⟩

variable (C : ChainFacts)

/-- The edges' source words: row 0 of the edge-index array, then the node numbers (the self-loops). -/
def srcV (ei : IVec SEI 32) : IVec SE 32 :=
  concatenate SE 0 [⟨SGiven, shapeCast _ (extractStridedSlice SRow ![0, 0] ei C.slices0) C.cast⟩,
    ⟨SN, iotaInDim SN 32 0⟩] C.cat

/-- The edges' target words: row 1 of the edge-index array, then the node numbers. -/
def dstV (ei : IVec SEI 32) : IVec SE 32 :=
  concatenate SE 0 [⟨SGiven, shapeCast _ (extractStridedSlice SRow ![1, 0] ei C.slices1) C.cast⟩,
    ⟨SN, iotaInDim SN 32 0⟩] C.cat

/-- An index vector as indexing reads it: a negative word has the node count added. -/
def wrapV (v : IVec SE 32) : IVec SE 32 :=
  select (cmpi .slt v (broadcastInDim SE ![] C.bE (constantI S0 32 0#32)))
    (addi v (broadcastInDim SE ![] C.bE (constantI S0 32 10000#32))) v

/-- A vector over the edges as a column. -/
def colV {α : Type} (v : SE.Idx → α) : SEc.Idx → α := broadcastInDim SEc ![0] C.bcol v

/-- Degrees: a scatter-add of ones at the edges' targets into zeros. -/
def degV (ei : IVec SEI 32) : FVec Ideal SN .f32 :=
  Host.scatterAdd (F := Ideal) (vecScatterDims 10000 330000 C.scat)
    (broadcastInDim SN ![] C.bN (constant (F := Ideal) S0 .f32 0x00000000#32))
    (colV C (dstV C ei))
    (broadcastInDim SE ![] C.bE (constant (F := Ideal) S0 .f32 0x3F800000#32))

/-- Node weights: 1/√(max(degree, 1)) where the degree is positive, 0 elsewhere. -/
def dinvV (ei : IVec SEI 32) : FVec Ideal SN .f32 :=
  select (cmpf .ogt (degV C ei) (broadcastInDim SN ![] C.bN (constant (F := Ideal) S0 .f32 0x00000000#32)))
    (Host.divf (broadcastInDim SN ![] C.bN (constant (F := Ideal) S0 .f32 0x3F800000#32))
      (Host.sqrt (maximumf (degV C ei) (broadcastInDim SN ![] C.bN (constant (F := Ideal) S0 .f32 0x3F800000#32)))))
    (broadcastInDim SN ![] C.bN (id (constant (F := Ideal) S0 .f32 0x00000000#32)))

/-- Edge coefficients: the weight at the source times the weight at the target. -/
def normV (ei : IVec SEI 32) : FVec Ideal SE .f32 :=
  mulf (Host.gather (vecGatherDims 10000 330000 C.gath) (dinvV C ei) (colV C (wrapV C (srcV C ei))))
    (Host.gather (vecGatherDims 10000 330000 C.gath) (dinvV C ei) (colV C (wrapV C (dstV C ei))))

/-- The node a word names when read as a row number: signed, clamped into [0, 9999]. -/
def nodeOf (b : BitVec 32) : Fin 10000 := clampRow 10000 (by decide) b

/-- The edges that end at node `d`. -/
def edgesInto (ei : IVec SEI 32) (d : Fin 10000) : Finset (Fin 330000) :=
  Finset.univ.filter fun e => (dstV C ei (ix1 e)).toInt = (d.val : ℤ)

/-- One convolution layer at node `d`, feature `f`, from projected node features `H` and bias `b`: the
    coefficient-weighted sum of the sources' features over the edges into `d`, plus the bias, clipped at 0. -/
def gcnRow {c : Nat} (ei : IVec SEI 32) (H : Fin 10000 → Fin c → EReal) (b : Fin c → EReal)
    (d : Fin 10000) (f : Fin c) : EReal :=
  max ((0 + ∑ e ∈ edgesInto C ei d, H (nodeOf (srcV C ei (ix1 e))) f * normV C ei (ix1 e)) + b f) 0

/-- The first layer's projected features x·W₁ at (p, f): a contraction over the one input feature. -/
def xw1 (x : FVec Ideal ⟨2, ![10000, 1]⟩ .f32) (W : FVec Ideal ⟨2, ![1, 256]⟩ .f32) (p : Fin 10000) (f : Fin 256) :
    EReal :=
  ∑ k : Fin 1, x (ix2 p k) * W (ix2 k f)

/-- The first layer at node `d`, feature `f`. -/
def layer1 (x : FVec Ideal ⟨2, ![10000, 1]⟩ .f32) (ei : IVec SEI 32) (W : FVec Ideal ⟨2, ![1, 256]⟩ .f32)
    (b : FVec Ideal ⟨1, ![256]⟩ .f32) (d : Fin 10000) (f : Fin 256) : EReal :=
  gcnRow C ei (xw1 x W) (fun f => b (ix1 f)) d f

end Cert.Hand.Ref

end
-- ==== Proof.KI.LayerEq.lean ====
/- A layer of the kernel program is the reference's layer. The kernel's result at row d < 10000, feature f, is
   max( (((((0 + S₀) + S₁) + S₂) + S₃) + S₄) + bias f, 0 ) over the dense matrix A of the edge weights and the zero-padded projected
   features H; the reference's is max( (0 + Σ over the edges into d of h(source) f · weight) + bias f, 0 ). With real weights
   and features and every edge's end nodes in range they are equal. -/
import proofs.«143978_j4672924418728_1_alg».proof.Proof.KI.Final0
import proofs.«143978_j4672924418728_1_alg».proof.Proof.Math.LayerEntry
import proofs.«143978_j4672924418728_1_alg».proof.Proof.Ref.Spec

noncomputable section

namespace Cert.KernelIdeal.Hand

open Cert.GinMath Cert.Hand.Math Cert.Hand.Ref
open Idealize.ShloMosaic Idealize.ShloMosaic.ValueIdx
open scoped BigOperators

/-- The kernel's layer entry is the ordered block sum of Math/LayerEntry, plus the bias, clipped at 0. -/
theorem layerEntry_blocks (A : S10240x10240.Idx → EReal) (H : S10240x256.Idx → EReal) (b : S1x256.Idx → EReal)
    (r : Fin 10240) (q : Fin 256) :
    layerEntry A H b r q
      = max ((((((0 + blockSum A H r q 0 (by decide)) + blockSum A H r q 1 (by decide)) + blockSum A H r q 2 (by decide))
          + blockSum A H r q 3 (by decide)) + blockSum A H r q 4 (by decide)) + b (ix2 0 q)) 0 := rfl

variable (C : ChainFacts)

/-- THE LAYER. `A` the dense matrix of the weights `normV` at (target, source); `H` the projected features `h` padded
    with zero rows; `b` the bias row. At a row d < 10000 the kernel's entry is the reference's `gcnRow`. -/
theorem layerEntry_eq_gcnRow (ei : IVec SEI 32)
    (A : S10240x10240.Idx → EReal) (H : S10240x256.Idx → EReal) (b : S1x256.Idx → EReal)
    (h : Fin 10000 → Fin 256 → EReal) (bias : Fin 256 → EReal)
    (hdst : ∀ e : Fin 330000, (dstV C ei (ix1 e)).toInt = ((nodeOf (dstV C ei (ix1 e))).val : ℤ))
    (hsrc : ∀ e : Fin 330000, (srcV C ei (ix1 e)).toInt = ((nodeOf (srcV C ei (ix1 e))).val : ℤ))
    (hn : ∀ e : Fin 330000, IsReal (normV C ei (ix1 e))) (hh : ∀ s f, IsReal (h s f))
    (hA : ∀ d s : Fin 10240, A (ix2 d s)
      = 0 + ∑ e : Fin 330000, if (dstV C ei (ix1 e)).toInt = (d.val : ℤ) ∧ (srcV C ei (ix1 e)).toInt = (s.val : ℤ)
          then normV C ei (ix1 e) else 0)
    (hH : ∀ (s : Fin 10240) (f : Fin 256), H (ix2 s f) = if hs : s.val < 10000 then h ⟨s.val, hs⟩ f else 0)
    (hb : ∀ f : Fin 256, b (ix2 0 f) = bias f)
    (d : Fin 10000) (f : Fin 256) :
    layerEntry A H b ⟨d.val, by have := d.isLt; omega⟩ f = gcnRow C ei h bias d f := by
  rw [layerEntry_blocks, hb]
  unfold gcnRow
  have key := blocks_eq_edges A H (fun e => normV C ei (ix1 e)) h
    (fun e => nodeOf (srcV C ei (ix1 e))) (fun e => nodeOf (dstV C ei (ix1 e))) hn hh
    (fun d' s' => by
      rw [hA d' s']
      refine congrArg (0 + ·) (Finset.sum_congr rfl fun e _ => if_congr ?_ rfl rfl)
      rw [hdst e, hsrc e, Nat.cast_inj, Nat.cast_inj])
    hH ⟨d.val, by have := d.isLt; omega⟩ f
  rw [key, edges_filter (fun e => normV C ei (ix1 e)) h (fun e => nodeOf (srcV C ei (ix1 e)))
    (fun e => nodeOf (dstV C ei (ix1 e))) ⟨d.val, by have := d.isLt; omega⟩ f (edgesInto C ei d)
    (fun e => by
      unfold edgesInto
      simp only [Finset.mem_filter, Finset.mem_univ, true_and]
      rw [hdst e, Nat.cast_inj]), zero_add]

/-- The layer's row is real when the bias is. -/
theorem isReal_gcnRow (ei : IVec SEI 32) (h : Fin 10000 → Fin 256 → EReal) (bias : Fin 256 → EReal)
    (hn : ∀ e : Fin 330000, IsReal (normV C ei (ix1 e))) (hh : ∀ s f, IsReal (h s f)) (hbias : ∀ f, IsReal (bias f))
    (d : Fin 10000) (f : Fin 256) : IsReal (gcnRow C ei h bias d f) := by
  unfold gcnRow
  refine IsReal.max (IsReal.add (IsReal.add isReal_zero (IsReal.sum fun e _ => (hh _ f).mul (hn e))) (hbias f)) isReal_zero

end Cert.KernelIdeal.Hand

end
-- ==== Proof.LibTypedRef.lean ====
/-
  Typed references: carrying contents to the buffer's type and back is the identity.

  A host function called from @main is printed over TYPED references (a reference together with the fact that its
  buffer's type is the value's type); each of its operations carries its result to the buffer's type (`toBuf`) and
  each operand back (`ofBuf`), both transports along that fact. Read back, a line of such operations therefore leaves
  `x.ofBuf (x.toBuf v)` around every intermediate value. The pair is the identity for ANY typed reference, seen by
  taking the reference apart (the fact becomes `rfl` and both transports vanish) — no buffer type is ever computed.
  Rewriting with it collapses the pairs bottom-up, where comparing the two sides by unfolding has to open one transport
  inside the other at every level (a function of fifteen operations was out of reach that way).
-/
import Idealize.ShloMosaic.Lib.StableHlo

namespace Cert.LibTypedRef

open Idealize.ShloMosaic Idealize.ShloMosaic.StableHlo

/-- Contents carried to a typed reference's buffer type and back are unchanged. General: any signature, any value
    type, any element family. Use: `simp only [Cert.LibTypedRef.ofBuf_toBuf]` after reading a line of host operations
    that contains a called function's operations, before closing the equation. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTypedRef
-- ==== Proof.KI.HostRead.lean ====
import proofs.«143978_j4672924418728_1_alg».proof.Proof.Gen.KernelIdeal.Regions
import proofs.«143978_j4672924418728_1_alg».proof.Proof.LibTypedRef
import Idealize.ShloMosaic.Lib.StableHlo.Run
import Idealize.ShloMosaic.PureOps.Ideal

/-!
# The host operations before the first kernel region, read stretch by stretch

Each stretch of host operations is read over an arbitrary valuation of the buffers before it: what a buffer the
stretch writes holds afterwards, as the operations' functions applied to what the buffers it reads held before.
The chain computes, from the edge-index array: the two endpoint vectors (a row of the array followed by the node
numbers), the degrees (a scatter-add of ones at the targets), the node weights (1/√max(degree, 1) where the
degree is positive), the edge coefficients (the product of the two endpoints' weights), the dense matrix of
coefficients (a scatter-add at the (target, source) entries), and the first layer's projected features padded
with zero rows.
-/

set_option maxRecDepth 16384

noncomputable section

namespace Cert.KernelIdeal.Hand

open Cert.KernelIdeal Cert.KernelIdeal.Gen
open Idealize.ShloMosaic Idealize.ShloMosaic.TcCoe Idealize.ShloMosaic.StableHlo

/-! ## The chain's terms -/

/-- Row 0 of the edge-index array followed by the node numbers: the edges' sources. -/
def endK0 (ei : IVec S2x320000 32) : IVec S330000 32 :=
  concatenate S330000 0 [⟨S320000, shapeCast S320000 (extractStridedSlice S1x320000 ![0, 0] ei Facts₀.slices_S2x320000_S1x320000_0_0) Facts₀.shapeCasts_S1x320000_S320000⟩,
    ⟨S10000, iotaInDim S10000 32 0⟩] Facts₀.concatenates_S320000_S10000_S330000_d0

/-- Row 1 of the edge-index array followed by the node numbers: the edges' targets. -/
def endK1 (ei : IVec S2x320000 32) : IVec S330000 32 :=
  concatenate S330000 0 [⟨S320000, shapeCast S320000 (extractStridedSlice S1x320000 ![1, 0] ei Facts₀.slices_S2x320000_S1x320000_1_0) Facts₀.shapeCasts_S1x320000_S320000⟩,
    ⟨S10000, iotaInDim S10000 32 0⟩] Facts₀.concatenates_S320000_S10000_S330000_d0

/-- A vector over the edges as a column. -/
def colK {α : Type} (v : S330000.Idx → α) : S330000x1.Idx → α :=
  broadcastInDim S330000x1 ![0] Facts₀.bcast_S330000_S330000x1_0 v

/-- An index vector as indexing into an axis of `n` reads it: a negative word has `n` added. -/
def wrapK (n : BitVec 32) (v : IVec S330000 32) : IVec S330000 32 :=
  select (cmpi .slt v (broadcastInDim S330000 ![] Facts₀.bcast_S_S330000 (constantI S_ 32 0#32)))
    (addi v (broadcastInDim S330000 ![] Facts₀.bcast_S_S330000 (constantI S_ 32 n))) v

/-- Degrees: a scatter-add of ones at the targets into zeros. -/
def degK (ei : IVec S2x320000 32) : FVec Ideal S10000 .f32 :=
  Host.scatterAdd (F := Ideal) scatter_S10000_S330000x1_S330000_n_0_0_1
    (broadcastInDim S10000 ![] Facts₀.bcast_S_S10000 (constant (F := Ideal) S_ .f32 0x00000000#32))
    (colK (endK1 ei))
    (broadcastInDim S330000 ![] Facts₀.bcast_S_S330000 (constant (F := Ideal) S_ .f32 0x3F800000#32))

/-- Where the degree is positive. -/
def posK (ei : IVec S2x320000 32) : IVec S10000 1 :=
  cmpf .ogt (degK ei) (broadcastInDim S10000 ![] Facts₀.bcast_S_S10000 (constant (F := Ideal) S_ .f32 0x00000000#32))

/-- 1/√max(degree, 1). -/
def rsqK (ei : IVec S2x320000 32) : FVec Ideal S10000 .f32 :=
  Host.divf (broadcastInDim S10000 ![] Facts₀.bcast_S_S10000 (constant (F := Ideal) S_ .f32 0x3F800000#32))
    (Host.sqrt (maximumf (degK ei) (broadcastInDim S10000 ![] Facts₀.bcast_S_S10000 (constant (F := Ideal) S_ .f32 0x3F800000#32))))

/-- Node weights from the three buffers the selection reads. -/
def dinvOf (p : IVec S10000 1) (r : FVec Ideal S10000 .f32) (z : FVec Ideal S_ .f32) : FVec Ideal S10000 .f32 :=
  select p r (broadcastInDim S10000 ![] Facts₀.bcast_S_S10000 (id z))

/-- Edge coefficients from the node weights and the two endpoint vectors. -/
def normOf (d : FVec Ideal S10000 .f32) (s t : IVec S330000 32) : FVec Ideal S330000 .f32 :=
  mulf (Host.gather gather_S10000_S330000x1_S330000_n_0_n_n_0_1_1 d (colK (wrapK 10000#32 s)))
    (Host.gather gather_S10000_S330000x1_S330000_n_0_n_n_0_1_1 d (colK (wrapK 10000#32 t)))

/-- The dense matrix from the coefficients and the two endpoint vectors (sources `s`, targets `t`): a scatter-add
    into zeros at the entries (target, source), then the conversion to the matrix unit's format. -/
def adjOf (u : FVec Ideal S330000 .f32) (s t : IVec S330000 32) : FVec Ideal S10240x10240 .bf16 :=
  truncf .bf16 (Host.scatterAdd (F := Ideal) scatter_S10240x10240_S330000x2_S330000_n_01_01_1
    (broadcastInDim S10240x10240 ![] Facts₀.bcast_S_S10240x10240 (constant (F := Ideal) S_ .f32 0x00000000#32))
    (concatenate S330000x2 1 [⟨S330000x1, colK (wrapK 10240#32 t)⟩, ⟨S330000x1, colK (wrapK 10240#32 s)⟩]
      Facts₀.concatenates_S330000x1_S330000x1_S330000x2_d1)
    u) Facts₀.bitsLt_bf16_f32

/-! ## Stretch 0 -/

theorem s0_v3 (W : Valuation τ sig (Elt Ideal)) :
    StableHlo.after (hostOps0 (F := Ideal)) W (Proc.devRef .tc main_v3) = endK0 (W (Proc.devRef .tc main_arg1)) := by
  after_results
  rfl

theorem s0_v6 (W : Valuation τ sig (Elt Ideal)) :
    StableHlo.after (hostOps0 (F := Ideal)) W (Proc.devRef .tc main_v6) = endK1 (W (Proc.devRef .tc main_arg1)) := by
  after_results
  rfl

theorem s0_v12 (W : Valuation τ sig (Elt Ideal)) :
    StableHlo.after (hostOps0 (F := Ideal)) W (Proc.devRef .tc main_v12) = posK (W (Proc.devRef .tc main_arg1)) := by
  after_results
  rfl

theorem s0_v17 (W : Valuation τ sig (Elt Ideal)) :
    StableHlo.after (hostOps0 (F := Ideal)) W (Proc.devRef .tc main_v17) = rsqK (W (Proc.devRef .tc main_arg1)) := by
  after_results
  rfl

theorem s0_cst4 (W : Valuation τ sig (Elt Ideal)) :
    StableHlo.after (hostOps0 (F := Ideal)) W (Proc.devRef .tc main_cst_4) = constant (F := Ideal) S_ .f32 0x00000000#32 := by
  after_results

/-! ## Stretch 1: the selection -/

theorem s1_v18 (W : Valuation τ sig (Elt Ideal)) :
    StableHlo.after (hostOps0_1 (F := Ideal)) W (Proc.devRef .tc main_v18)
      = dinvOf (W (Proc.devRef .tc main_v12)) (W (Proc.devRef .tc main_v17)) (W (Proc.devRef .tc main_cst_4)) := by
  after_results
  rfl

/-! ## Stretch 2: coefficients, dense matrix, projected features -/

theorem s2_v33 (W : Valuation τ sig (Elt Ideal)) :
    StableHlo.after (hostOps0_2 (F := Ideal)) W (Proc.devRef .tc main_v33)
      = normOf (W (Proc.devRef .tc main_v18)) (W (Proc.devRef .tc main_v3)) (W (Proc.devRef .tc main_v6)) := by
  after_results_simp
  rfl

theorem s2_v49 (W : Valuation τ sig (Elt Ideal)) :
    StableHlo.after (hostOps0_2 (F := Ideal)) W (Proc.devRef .tc main_v49)
      = adjOf (normOf (W (Proc.devRef .tc main_v18)) (W (Proc.devRef .tc main_v3)) (W (Proc.devRef .tc main_v6)))
          (W (Proc.devRef .tc main_v3)) (W (Proc.devRef .tc main_v6)) := by
  after_results_simp
  rfl

theorem s2_v50 (W : Valuation τ sig (Elt Ideal)) :
    StableHlo.after (hostOps0_2 (F := Ideal)) W (Proc.devRef .tc main_v50)
      = Host.dotGeneral (F := Ideal) (φ₁ := .f32) (φ₂ := .f32) dot_S10000x1_S1x256_S10000x256_1_0_0_1_n_n none
          (W (Proc.devRef .tc main_arg0)) (W (Proc.devRef .tc main_arg3)) := by
  after_results_simp <;> rfl

theorem s2_c13 (W : Valuation τ sig (Elt Ideal)) :
    StableHlo.after (hostOps0_2 (F := Ideal)) W (Proc.devRef .tc main_c_13) = constantI S_ 32 0#32 := by
  after_results_simp

/-! ## Stretch 3: the padding -/

theorem s3_v51 (W : Valuation τ sig (Elt Ideal)) :
    StableHlo.after (hostOps0_3 (F := Ideal)) W (Proc.devRef .tc main_v51)
      = pad S10240x256 ![0, 0] ![240, 0] ![0, 0] (W (Proc.devRef .tc main_v50))
          (sitofp (F := Ideal) .f32 (W (Proc.devRef .tc main_c_13)))
          Facts₀.pads_S10000x256_S10240x256_02400_000 Facts₀.h_S_ := by
  after_results
  rfl

/-! ## Stretch 4: the conversion and the bias as a row -/

theorem s4_v52 (W : Valuation τ sig (Elt Ideal)) :
    StableHlo.after (hostOps0_4 (F := Ideal)) W (Proc.devRef .tc main_v52)
      = (truncf .bf16 (W (Proc.devRef .tc main_v51) : FVec Ideal S10240x256 .f32) Facts₀.bitsLt_bf16_f32 : FVec Ideal S10240x256 .bf16) := by
  after_results <;> rfl

theorem s4_v53 (W : Valuation τ sig (Elt Ideal)) :
    StableHlo.after (hostOps0_4 (F := Ideal)) W (Proc.devRef .tc main_v53)
      = shapeCast S1x256 (W (Proc.devRef .tc main_arg4)) Facts₀.shapeCasts_S256_S1x256 := by
  after_results
  rfl

/-! ## The chain over the launch contents

The five stretches composed: what the buffers the first kernel region reads (and the endpoint and coefficient
vectors) hold when the region is entered, over the argument arrays at launch. A buffer a stretch does not write is
carried through it unchanged. -/

/-- Node weights over the edge-index array. -/
def dinvK (ei : IVec S2x320000 32) : FVec Ideal S10000 .f32 :=
  dinvOf (posK ei) (rsqK ei) (constant (F := Ideal) S_ .f32 0x00000000#32)

/-- Edge coefficients over the edge-index array. -/
def normK (ei : IVec S2x320000 32) : FVec Ideal S330000 .f32 := normOf (dinvK ei) (endK0 ei) (endK1 ei)

/-- The dense matrix over the edge-index array. -/
def adjK (ei : IVec S2x320000 32) : FVec Ideal S10240x10240 .bf16 := adjOf (normK ei) (endK0 ei) (endK1 ei)

/-- The first layer's projected features: the product, padded with 240 zero rows, converted. -/
def xwK (x : FVec Ideal S10000x1 .f32) (w : FVec Ideal S1x256 .f32) : FVec Ideal S10240x256 .bf16 :=
  truncf .bf16 (pad S10240x256 ![0, 0] ![240, 0] ![0, 0]
    (Host.dotGeneral (F := Ideal) (φ₁ := .f32) (φ₂ := .f32) dot_S10000x1_S1x256_S10000x256_1_0_0_1_n_n none x w)
    (sitofp (F := Ideal) .f32 (constantI S_ 32 0#32))
    Facts₀.pads_S10000x256_S10240x256_02400_000 Facts₀.h_S_) Facts₀.bitsLt_bf16_f32

section Chain

variable (m : (ℓ : Loc nD τ sig) → Buf (Elt Ideal) ℓ) (c : Dev nD)

theorem V1_v3 : Gen.V1 m c (Proc.devRef .tc main_v3) = endK0 (m ((c : Thread nD τ).loc main_arg1)) := s0_v3 (Gen.V0 m c)
theorem V1_v6 : Gen.V1 m c (Proc.devRef .tc main_v6) = endK1 (m ((c : Thread nD τ).loc main_arg1)) := s0_v6 (Gen.V0 m c)
theorem V1_v12 : Gen.V1 m c (Proc.devRef .tc main_v12) = posK (m ((c : Thread nD τ).loc main_arg1)) := s0_v12 (Gen.V0 m c)
theorem V1_v17 : Gen.V1 m c (Proc.devRef .tc main_v17) = rsqK (m ((c : Thread nD τ).loc main_arg1)) := s0_v17 (Gen.V0 m c)
theorem V1_cst4 : Gen.V1 m c (Proc.devRef .tc main_cst_4) = constant (F := Ideal) S_ .f32 0x00000000#32 := s0_cst4 (Gen.V0 m c)

theorem V2_v18 : Gen.V2 m c (Proc.devRef .tc main_v18) = dinvK (m ((c : Thread nD τ).loc main_arg1)) := by
  have h := s1_v18 (Gen.V1 m c)
  rw [V1_v12 m c, V1_v17 m c, V1_cst4 m c] at h
  exact h

theorem V2_v3 : Gen.V2 m c (Proc.devRef .tc main_v3) = endK0 (m ((c : Thread nD τ).loc main_arg1)) :=
  (Gen.V2_of m c main_v3 (by decide)).trans (V1_v3 m c)
theorem V2_v6 : Gen.V2 m c (Proc.devRef .tc main_v6) = endK1 (m ((c : Thread nD τ).loc main_arg1)) :=
  (Gen.V2_of m c main_v6 (by decide)).trans (V1_v6 m c)
theorem V2_arg0 : Gen.V2 m c (Proc.devRef .tc main_arg0) = m ((c : Thread nD τ).loc main_arg0) :=
  (Gen.V2_of m c main_arg0 (by decide)).trans (Gen.V1_of m c main_arg0 (by decide))
theorem V2_arg3 : Gen.V2 m c (Proc.devRef .tc main_arg3) = m ((c : Thread nD τ).loc main_arg3) :=
  (Gen.V2_of m c main_arg3 (by decide)).trans (Gen.V1_of m c main_arg3 (by decide))

theorem V3_v33 : Gen.V3 m c (Proc.devRef .tc main_v33) = normK (m ((c : Thread nD τ).loc main_arg1)) := by
  have h := s2_v33 (Gen.V2 m c)
  rw [V2_v18 m c, V2_v3 m c, V2_v6 m c] at h
  exact h

theorem V3_v49 : Gen.V3 m c (Proc.devRef .tc main_v49) = adjK (m ((c : Thread nD τ).loc main_arg1)) := by
  have h := s2_v49 (Gen.V2 m c)
  rw [V2_v18 m c, V2_v3 m c, V2_v6 m c] at h
  exact h

theorem V3_v50 : Gen.V3 m c (Proc.devRef .tc main_v50)
    = Host.dotGeneral (F := Ideal) (φ₁ := .f32) (φ₂ := .f32) dot_S10000x1_S1x256_S10000x256_1_0_0_1_n_n none
        (m ((c : Thread nD τ).loc main_arg0)) (m ((c : Thread nD τ).loc main_arg3)) := by
  have h := s2_v50 (Gen.V2 m c)
  rw [V2_arg0 m c, V2_arg3 m c] at h
  exact h

theorem V3_c13 : Gen.V3 m c (Proc.devRef .tc main_c_13) = constantI S_ 32 0#32 := s2_c13 (Gen.V2 m c)

theorem V4_v51 : Gen.V4 m c (Proc.devRef .tc main_v51)
    = pad S10240x256 ![0, 0] ![240, 0] ![0, 0]
        (Host.dotGeneral (F := Ideal) (φ₁ := .f32) (φ₂ := .f32) dot_S10000x1_S1x256_S10000x256_1_0_0_1_n_n none
          (m ((c : Thread nD τ).loc main_arg0)) (m ((c : Thread nD τ).loc main_arg3)))
        (sitofp (F := Ideal) .f32 (constantI S_ 32 0#32))
        Facts₀.pads_S10000x256_S10240x256_02400_000 Facts₀.h_S_ := by
  have h := s3_v51 (Gen.V3 m c)
  rw [V3_v50 m c, V3_c13 m c] at h
  exact h

/-- The second operand of the first region: the projected features, padded and converted. -/
theorem V5_v52 : Gen.V5 m c (Proc.devRef .tc main_v52)
    = xwK (m ((c : Thread nD τ).loc main_arg0)) (m ((c : Thread nD τ).loc main_arg3)) := by
  have h := s4_v52 (Gen.V4 m c)
  rw [V4_v51 m c] at h
  exact h

/-- The third operand of the first region: the first bias as a row. -/
theorem V5_v53 : Gen.V5 m c (Proc.devRef .tc main_v53)
    = shapeCast S1x256 (m ((c : Thread nD τ).loc main_arg4)) Facts₀.shapeCasts_S256_S1x256 := by
  have h := s4_v53 (Gen.V4 m c)
  rw [show Gen.V4 m c (Proc.devRef .tc main_arg4) = m ((c : Thread nD τ).loc main_arg4) from
    (Gen.V4_of m c main_arg4 (by decide)).trans <| (Gen.V3_of m c main_arg4 (by decide)).trans <|
      (Gen.V2_of m c main_arg4 (by decide)).trans (Gen.V1_of m c main_arg4 (by decide))] at h
  exact h

/-- The first operand of both regions: the dense matrix. -/
theorem V5_v49 : Gen.V5 m c (Proc.devRef .tc main_v49) = adjK (m ((c : Thread nD τ).loc main_arg1)) :=
  (Gen.V5_of m c main_v49 (by decide)).trans <| (Gen.V4_of m c main_v49 (by decide)).trans (V3_v49 m c)

theorem V5_v33 : Gen.V5 m c (Proc.devRef .tc main_v33) = normK (m ((c : Thread nD τ).loc main_arg1)) :=
  (Gen.V5_of m c main_v33 (by decide)).trans <| (Gen.V4_of m c main_v33 (by decide)).trans (V3_v33 m c)

theorem V5_v3 : Gen.V5 m c (Proc.devRef .tc main_v3) = endK0 (m ((c : Thread nD τ).loc main_arg1)) :=
  (Gen.V5_of m c main_v3 (by decide)).trans <| (Gen.V4_of m c main_v3 (by decide)).trans <|
    (Gen.V3_of m c main_v3 (by decide)).trans (V2_v3 m c)

theorem V5_v6 : Gen.V5 m c (Proc.devRef .tc main_v6) = endK1 (m ((c : Thread nD τ).loc main_arg1)) :=
  (Gen.V5_of m c main_v6 (by decide)).trans <| (Gen.V4_of m c main_v6 (by decide)).trans <|
    (Gen.V3_of m c main_v6 (by decide)).trans (V2_v6 m c)

end Chain

end Cert.KernelIdeal.Hand

end
-- ==== Proof.KI.HostEntry.lean ====
import proofs.«143978_j4672924418728_1_alg».proof.Proof.KI.HostRead
import proofs.«143978_j4672924418728_1_alg».proof.Proof.Math.PointScatter
import proofs.«143978_j4672924418728_1_alg».proof.Proof.LibReal
import Idealize.ShloMosaic.Lib.KernelVsHost
import Idealize.ShloMosaic.Lib.Pipeline.Value
import Idealize.ShloMosaic.Lib.ValueIdx
import Idealize.ShloMosaic.PureOps.Ideal.Laws

/-!
# The first region's operands read at an entry

The dense matrix at (d, q) is zero plus the sum of the coefficients of the edges whose target word is d and whose
source word is q (for endpoint words that are not negative, which indexing's wrap leaves alone); the padded
projected features at (p, f) are the product x·W₁ below row 10000 and zero from there on; the bias row at (0, q)
is the bias at q.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.GinMath Cert.Hand.Math
open scoped BigOperators

/-! ## The dense matrix at an entry -/

/-- Indexing's wrap leaves a word that is not negative alone, whatever the axis length. -/
theorem wrapK_apply_of_nonneg (n : BitVec 32) (v : IVec S330000 32) (i : S330000.Idx) (h : 0 ≤ (v i).toInt) :
    wrapK n v i = v i := by
  show Scalar.select (IntOp.cmpi .slt (v i) 0#32) (IntOp.addi (v i) n) (v i) = v i
  unfold Scalar.select
  rw [if_neg]
  intro hc
  have hlt := IntOp.cmpi_slt.1 hc
  have hz : (0#32 : BitVec 32).toInt = 0 := by decide
  rw [hz] at hlt
  omega

/-- A column over the edges at row e is the vector at e. -/
theorem colK_apply {α : Type} (v : S330000.Idx → α) (e : Fin 330000) : colK v (ix2 e (0 : Fin 1)) = v (ix1 e) :=
  broadcastInDim_apply _ Facts₀.bcast_S330000_S330000x1_0 v (ix2 e (0 : Fin 1)) (ix1 e) (fun a => by
    match a with
    | ⟨0, _⟩ => show e.val = if (330000 : Nat) = 1 then 0 else e.val; rw [if_neg (by decide)])

/-- Two columns side by side, read in the first column. -/
theorem cols_apply0 {α : Type} (a b : S330000x1.Idx → α) (e : Fin 330000) :
    concatenate S330000x2 1 [⟨S330000x1, a⟩, ⟨S330000x1, b⟩] Facts₀.concatenates_S330000x1_S330000x1_S330000x2_d1
      (ix2 e (0 : Fin 2)) = a (ix2 e (0 : Fin 1)) :=
  concatenate_pair_apply_left 1 a b Facts₀.concatenates_S330000x1_S330000x1_S330000x2_d1 (ix2 e (0 : Fin 2)) rfl
    (ix2 e (0 : Fin 1)) (fun k => by
      match k with
      | ⟨0, _⟩ => rfl
      | ⟨1, _⟩ => rfl)

/-- Two columns side by side, read in the second column. -/
theorem cols_apply1 {α : Type} (a b : S330000x1.Idx → α) (e : Fin 330000) :
    concatenate S330000x2 1 [⟨S330000x1, a⟩, ⟨S330000x1, b⟩] Facts₀.concatenates_S330000x1_S330000x1_S330000x2_d1
      (ix2 e (1 : Fin 2)) = b (ix2 e (0 : Fin 1)) :=
  concatenate_pair_apply_right 1 a b Facts₀.concatenates_S330000x1_S330000x1_S330000x2_d1 (ix2 e (1 : Fin 2)) rfl rfl
    (ix2 e (0 : Fin 1)) (fun k hk => by
      match k with
      | ⟨0, _⟩ => rfl
      | ⟨1, _⟩ => exact absurd rfl hk) rfl

/-- The dense matrix at (d, q), for endpoint words that are not negative: zero plus the coefficients of the edges
    whose target word is d and whose source word is q. -/
theorem adjOf_apply (u : FVec Ideal S330000 .f32) (s t : IVec S330000 32)
    (hs : ∀ e : Fin 330000, 0 ≤ (s (ix1 e)).toInt) (ht : ∀ e : Fin 330000, 0 ≤ (t (ix1 e)).toInt)
    (d q : Fin 10240) :
    adjOf u s t (ix2 d q)
      = 0 + ∑ e : Fin 330000, if (t (ix1 e)).toInt = (d.val : ℤ) ∧ (s (ix1 e)).toInt = (q.val : ℤ)
          then u (ix1 e) else 0 := by
  show Host.scatterAdd (F := Ideal) (φ := .f32)
      (pointScatterDims 10240 10240 330000 Facts₀.scatter_S10240x10240_S330000x2_S330000_n_01_01_1_wf)
      (broadcastInDim S10240x10240 ![] Facts₀.bcast_S_S10240x10240 (constant (F := Ideal) S_ .f32 0x00000000#32))
      (concatenate S330000x2 1 [⟨S330000x1, colK (wrapK 10240#32 t)⟩, ⟨S330000x1, colK (wrapK 10240#32 s)⟩]
        Facts₀.concatenates_S330000x1_S330000x1_S330000x2_d1) u (ix2 d q) = _
  rw [pointScatterAdd_apply_ite]
  have hz : broadcastInDim S10240x10240 ![] Facts₀.bcast_S_S10240x10240
      (constant (F := Ideal) S_ .f32 0x00000000#32) (ix2 d q) = 0 := by
    show Ideal.ofBits .f32 0x00000000#32 = 0
    exact ofBits_zero
  rw [hz]
  refine congrArg (0 + ·) ?_
  refine Finset.sum_congr rfl (fun e _ => ?_)
  rw [cols_apply0, cols_apply1, colK_apply, colK_apply, wrapK_apply_of_nonneg _ t _ (ht e),
    wrapK_apply_of_nonneg _ s _ (hs e)]

/-! ## The projected features and the bias at an entry -/

theorem dotK_lhs0 (i : S10000x256.Idx) (k : dot_S10000x1_S1x256_S10000x256_1_0_0_1_n_n.contr.Idx) :
    (dot_S10000x1_S1x256_S10000x256_1_0_0_1_n_n.lhsIdx i k 0).val = (i 0).val := by
  unfold DotDims.lhsIdx
  rw [dif_neg (show ¬(0 : Fin S10000x1.rank) ∈ dot_S10000x1_S1x256_S10000x256_1_0_0_1_n_n.lhsBatch by decide),
    dif_pos (show (0 : Fin S10000x1.rank) ∈ dot_S10000x1_S1x256_S10000x256_1_0_0_1_n_n.lhsNonContracting by decide)]
  rfl

theorem dotK_rhs1 (i : S10000x256.Idx) (k : dot_S10000x1_S1x256_S10000x256_1_0_0_1_n_n.contr.Idx) :
    (dot_S10000x1_S1x256_S10000x256_1_0_0_1_n_n.rhsIdx i k 1).val = (i 1).val := by
  unfold DotDims.rhsIdx
  rw [dif_neg (show ¬(1 : Fin S1x256.rank) ∈ dot_S10000x1_S1x256_S10000x256_1_0_0_1_n_n.rhsBatch by decide),
    dif_pos (show (1 : Fin S1x256.rank) ∈ dot_S10000x1_S1x256_S10000x256_1_0_0_1_n_n.rhsNonContracting by decide)]
  rfl

/-- The product x·W₁ at (p, f): the contraction over the one input feature. -/
theorem dotK_apply (x : FVec Ideal S10000x1 .f32) (w : FVec Ideal S1x256 .f32) (p : Fin 10000) (f : Fin 256) :
    Host.dotGeneral (F := Ideal) (φ₁ := .f32) (φ₂ := .f32) dot_S10000x1_S1x256_S10000x256_1_0_0_1_n_n none x w (ix2 p f)
      = ∑ k : Fin 1, x (ix2 p k) * w (ix2 k f) := by
  simp only [Host.dotGeneral]
  rw [Ideal.dotGeneral_apply,
    ← Equiv.sum_comp (ValueIdx.contrEquiv1 dot_S10000x1_S1x256_S10000x256_1_0_0_1_n_n 1 rfl rfl).symm]
  refine Finset.sum_congr rfl fun k _ => ?_
  have hk := ValueIdx.contrEquiv1_symm_val dot_S10000x1_S1x256_S10000x256_1_0_0_1_n_n 1 rfl rfl k
  have el : dot_S10000x1_S1x256_S10000x256_1_0_0_1_n_n.lhsIdx (ix2 p f)
      ((ValueIdx.contrEquiv1 dot_S10000x1_S1x256_S10000x256_1_0_0_1_n_n 1 rfl rfl).symm k) = ix2 p k :=
    funext fun a => Fin.ext (by
      match a with
      | ⟨0, _⟩ => exact dotK_lhs0 _ _
      | ⟨1, _⟩ => exact (dot_S10000x1_S1x256_S10000x256_1_0_0_1_n_n.lhsIdx_val_of_single rfl _ _).trans hk)
  have er : dot_S10000x1_S1x256_S10000x256_1_0_0_1_n_n.rhsIdx (ix2 p f)
      ((ValueIdx.contrEquiv1 dot_S10000x1_S1x256_S10000x256_1_0_0_1_n_n 1 rfl rfl).symm k) = ix2 k f :=
    funext fun a => Fin.ext (by
      match a with
      | ⟨0, _⟩ => exact (dot_S10000x1_S1x256_S10000x256_1_0_0_1_n_n.rhsIdx_val_of_single rfl _ _).trans hk
      | ⟨1, _⟩ => exact dotK_rhs1 _ _)
  rw [el, er]

/-- The padded projected features at (p, f): the product below row 10000, zero from there on. -/
theorem xwK_apply (x : FVec Ideal S10000x1 .f32) (w : FVec Ideal S1x256 .f32) (p : Fin 10240) (f : Fin 256) :
    xwK x w (ix2 p f) = if h : p.val < 10000 then ∑ k : Fin 1, x (ix2 (⟨p.val, h⟩ : Fin 10000) k) * w (ix2 k f) else 0 := by
  show pad S10240x256 ![0, 0] ![240, 0] ![0, 0]
      (Host.dotGeneral (F := Ideal) (φ₁ := .f32) (φ₂ := .f32) dot_S10000x1_S1x256_S10000x256_1_0_0_1_n_n none x w)
      (sitofp (F := Ideal) .f32 (constantI S_ 32 0#32))
      Facts₀.pads_S10000x256_S10240x256_02400_000 Facts₀.h_S_ (ix2 p f) = _
  by_cases h : p.val < 10000
  · rw [dif_pos h]
    refine (pad_apply_of_inside _ _ _ _ _ Facts₀.pads_S10000x256_S10240x256_02400_000 Facts₀.h_S_ (ix2 p f)
      (ix2 (⟨p.val, h⟩ : Fin 10000) f) (fun a => ?_)).trans (dotK_apply x w _ f)
    match a with
    | ⟨0, _⟩ => show p.val = 0 + p.val * (0 + 1); omega
    | ⟨1, _⟩ => show f.val = 0 + f.val * (0 + 1); omega
  · rw [dif_neg h]
    refine (pad_apply_of_not_inside _ _ _ _ _ Facts₀.pads_S10000x256_S10240x256_02400_000 Facts₀.h_S_ (ix2 p f)
      (0 : Fin 2) ?_).trans ?_
    · show ¬((0 : ℕ) ≤ p.val ∧ (p.val - 0) % (0 + 1) = 0 ∧ (p.val - 0) / (0 + 1) < 10000)
      omega
    · have hz : (0#32 : BitVec 32).toInt = 0 := by decide
      show (((0#32 : BitVec 32).toInt : ℝ) : EReal) = 0
      rw [hz]
      simp

/-- The bias as a row, at (0, q). -/
theorem biasRow_apply (b : FVec Ideal S256 .f32) (q : Fin 256) :
    shapeCast S1x256 b Facts₀.shapeCasts_S256_S1x256 (ix2 (0 : Fin 1) q) = b (ix1 q) := by
  refine shapeCast_apply _ Facts₀.shapeCasts_S256_S1x256 (ix2 (0 : Fin 1) q) (ix1 q) ?_
  rw [Shape.rowMajor_val_two, Shape.rowMajor_val_one]
  show q.val = 0 * 256 + q.val
  omega

end Cert.KernelIdeal.Hand

end
-- ==== Proof.Ref.SpecFacts.lean ====
/-
  Facts about the graph convolution's chain.

  An edge's endpoint word is the edge-index array's entry for the given edges and the node number for the
  self-loops; so when every entry of the edge-index array lies in [0, 10000), every endpoint word does. For
  such a word indexing's wrap of negative values changes nothing and the clamp into [0, 9999] is the word's own
  value. A degree is zero plus a finite sum of ones, hence a real number; the maximum of a real and 1 is a real
  at least 1, whose square root is a nonzero real, and 1 over it is real; so every node weight, and every edge
  coefficient (a product of two of them), is real.
-/
import Idealize.ShloMosaic.Lib.Pipeline.Value
import Idealize.ShloMosaic.Lib.Affine
import proofs.«143978_j4672924418728_1_alg».proof.Proof.LibReal
import proofs.«143978_j4672924418728_1_alg».proof.Proof.Ref.Spec

noncomputable section

namespace Cert.Hand.Ref

open Idealize.ShloMosaic Idealize.ShloMosaic.ValueIdx Cert.GinMath Cert.RowIndex
open scoped BigOperators

variable (C : ChainFacts)

/-! ## The endpoint words at an edge -/

/-- A join of a vector over the given edges and a vector over the nodes, read at edge `e`. -/
theorem cat_apply {α : Type} (x₁ : SGiven.Idx → α) (x₂ : SN.Idx → α) (e : Fin 330000) :
    concatenate SE 0 [⟨SGiven, x₁⟩, ⟨SN, x₂⟩] C.cat (ix1 e)
      = if h : e.val < 320000 then x₁ (ix1 ⟨e.val, h⟩)
        else x₂ (ix1 ⟨e.val - 320000, by have := e.isLt; omega⟩) := by
  split
  · next h =>
    exact concatenate_pair_apply_left 0 x₁ x₂ C.cat (ix1 e) rfl (ix1 ⟨e.val, h⟩) (fun b => by
      match b with
      | ⟨0, _⟩ => rfl)
  · next h =>
    refine concatenate_pair_apply_right 0 x₁ x₂ C.cat (ix1 e) rfl rfl
      (ix1 ⟨e.val - 320000, by have := e.isLt; omega⟩) (fun b hb => ?_) ?_
    · exact absurd (Fin.ext (by have h1 : b.val < 1 := b.isLt; show b.val = 0; omega)) hb
    · show (e.val - 320000) + 320000 = e.val
      omega

/-- Row 0 of the edge-index array as a vector, read at a given edge. -/
theorem row0_apply (ei : IVec SEI 32) (e' : Fin 320000) :
    shapeCast SGiven (extractStridedSlice SRow ![0, 0] ei C.slices0) C.cast (ix1 e') = ei (ix2 (0 : Fin 2) e') := by
  refine (shapeCast_apply _ C.cast (ix1 e') (ix2 (0 : Fin 1) e') ?_).trans ?_
  · rw [Shape.rowMajor_val_two, Shape.rowMajor_val_one]
    show 0 * 320000 + e'.val = e'.val
    omega
  · exact extractStridedSlice_apply ![0, 0] ei C.slices0 (ix2 (0 : Fin 1) e') (ix2 (0 : Fin 2) e') (fun a => by
      match a with
      | ⟨0, _⟩ => rfl
      | ⟨1, _⟩ => show e'.val = 0 + e'.val; omega)

/-- Row 1 of the edge-index array as a vector, read at a given edge. -/
theorem row1_apply (ei : IVec SEI 32) (e' : Fin 320000) :
    shapeCast SGiven (extractStridedSlice SRow ![1, 0] ei C.slices1) C.cast (ix1 e') = ei (ix2 (1 : Fin 2) e') := by
  refine (shapeCast_apply _ C.cast (ix1 e') (ix2 (0 : Fin 1) e') ?_).trans ?_
  · rw [Shape.rowMajor_val_two, Shape.rowMajor_val_one]
    show 0 * 320000 + e'.val = e'.val
    omega
  · exact extractStridedSlice_apply ![1, 0] ei C.slices1 (ix2 (0 : Fin 1) e') (ix2 (1 : Fin 2) e') (fun a => by
      match a with
      | ⟨0, _⟩ => rfl
      | ⟨1, _⟩ => show e'.val = 0 + e'.val; omega)

/-- Endpoint `r` (0 the source, 1 the target) of edge `e`: the edge-index array's entry for a given edge, the
    node number `e − 320000` for a self-loop. -/
def endW (ei : IVec SEI 32) (r : Fin 2) (e : Fin 330000) : BitVec 32 :=
  if h : e.val < 320000 then ei (ix2 r ⟨e.val, h⟩) else BitVec.ofNat 32 (e.val - 320000)

theorem srcV_apply (ei : IVec SEI 32) (e : Fin 330000) : srcV C ei (ix1 e) = endW ei 0 e := by
  unfold srcV endW
  rw [cat_apply C]
  split
  · exact row0_apply C ei _
  · rfl

theorem dstV_apply (ei : IVec SEI 32) (e : Fin 330000) : dstV C ei (ix1 e) = endW ei 1 e := by
  unfold dstV endW
  rw [cat_apply C]
  split
  · exact row1_apply C ei _
  · rfl

/-! ## Endpoints in range -/

/-- A number below 10000 as a 32-bit word reads back, signed, as itself. -/
theorem toInt_ofNat_small (n : Nat) (h : n < 10000) : (BitVec.ofNat 32 n).toInt = (n : ℤ) := by
  have t : (BitVec.ofNat 32 n).toNat = n := by
    rw [BitVec.toNat_ofNat]
    exact Nat.mod_eq_of_lt (by omega)
  have e := BitVec.toInt_eq_toNat_cond (BitVec.ofNat 32 n)
  rw [t] at e
  rw [e, if_pos (by omega)]

theorem endW_range (ei : IVec SEI 32) (hidx : ∀ j, 0 ≤ (ei j).toInt ∧ (ei j).toInt < 10000) (r : Fin 2)
    (e : Fin 330000) : 0 ≤ (endW ei r e).toInt ∧ (endW ei r e).toInt < 10000 := by
  unfold endW
  split
  · exact hidx _
  · rw [toInt_ofNat_small _ (by have := e.isLt; omega)]
    have := e.isLt
    omega

theorem srcV_range (ei : IVec SEI 32) (hidx : ∀ j, 0 ≤ (ei j).toInt ∧ (ei j).toInt < 10000) (e : Fin 330000) :
    0 ≤ (srcV C ei (ix1 e)).toInt ∧ (srcV C ei (ix1 e)).toInt < 10000 := by
  rw [srcV_apply]; exact endW_range ei hidx 0 e

theorem dstV_range (ei : IVec SEI 32) (hidx : ∀ j, 0 ≤ (ei j).toInt ∧ (ei j).toInt < 10000) (e : Fin 330000) :
    0 ≤ (dstV C ei (ix1 e)).toInt ∧ (dstV C ei (ix1 e)).toInt < 10000 := by
  rw [dstV_apply]; exact endW_range ei hidx 1 e

/-- A word in [0, 10000) names the node of its own value. -/
theorem nodeOf_val (w : BitVec 32) (h0 : 0 ≤ w.toInt) (h1 : w.toInt < 10000) : ((nodeOf w).val : ℤ) = w.toInt := by
  show ((min w.toInt.toNat (10000 - 1) : ℕ) : ℤ) = w.toInt
  omega

/-- Indexing's wrap leaves a non-negative word alone. -/
theorem wrapV_apply_of_nonneg (v : IVec SE 32) (i : SE.Idx) (h : 0 ≤ (v i).toInt) : wrapV C v i = v i := by
  show Scalar.select (IntOp.cmpi .slt (v i) 0#32) (IntOp.addi (v i) 10000#32) (v i) = v i
  unfold Scalar.select
  rw [if_neg]
  intro hc
  have hlt := IntOp.cmpi_slt.1 hc
  have hz : (0#32 : BitVec 32).toInt = 0 := by decide
  rw [hz] at hlt
  omega

/-- A column over the edges at row `e` is the vector at `e`. -/
theorem colV_apply {α : Type} (v : SE.Idx → α) (e : Fin 330000) : colV C v (ix2 e (0 : Fin 1)) = v (ix1 e) :=
  broadcastInDim_apply _ C.bcol v (ix2 e (0 : Fin 1)) (ix1 e) (fun a => by
    match a with
    | ⟨0, _⟩ => show e.val = if (330000 : Nat) = 1 then 0 else e.val; rw [if_neg (by decide)])

/-- The row a gather picks for an in-range, wrapped index column: the node the word names. -/
theorem clampRow_col_wrap (v : IVec SE 32) (e : Fin 330000) (h : 0 ≤ (v (ix1 e)).toInt) :
    clampRow 10000 (by decide) (colV C (wrapV C v) (ix2 e (0 : Fin 1))) = nodeOf (v (ix1 e)) := by
  rw [colV_apply, wrapV_apply_of_nonneg C v _ h]
  rfl

/-! ## Every coefficient is real -/

theorem degV_real (ei : IVec SEI 32) (p : SN.Idx) : IsReal (degV C ei p) := by
  show IsReal (Ideal.hostScatterAdd (vecScatterDims 10000 330000 C.scat) _ _ _ p)
  unfold Ideal.hostScatterAdd
  refine IsReal.add ?_ (IsReal.sum fun j _ => ?_)
  · show IsReal (Ideal.ofBits .f32 0x00000000#32)
    rw [ofBits_zero]; exact isReal_zero
  · show IsReal (Ideal.ofBits .f32 0x3F800000#32)
    rw [ofBits_one]; exact IsReal.coe 1

/-- A choice between two real numbers is real. -/
theorem select_real {c : BitVec 1} {a b : EReal} (ha : IsReal a) (hb : IsReal b) : IsReal (Scalar.select c a b) := by
  unfold Scalar.select
  split <;> assumption

theorem dinvV_real (ei : IVec SEI 32) (p : SN.Idx) : IsReal (dinvV C ei p) := by
  obtain ⟨r, hr⟩ := degV_real C ei p
  unfold dinvV
  refine select_real ?_ ?_
  · simp only [Host.divf, Host.sqrt, maximumf, broadcastInDim, constant, Ideal.hostDivf_def,
      Ideal.hostUnary_sqrt_def, Ideal.maximumf_def, Ideal.ofBits_def]
    rw [hr, ofBits_one]
    have hm : max (r : EReal) ((1 : ℝ) : EReal) = ((max r 1 : ℝ) : EReal) :=
      (EReal.coe_strictMono.monotone.map_max).symm
    have h1 : (1 : ℝ) ≤ max r 1 := le_max_right r 1
    rw [hm, Ideal.sqrt_coe, if_neg (by linarith)]
    exact IsReal.div_coe (Real.sqrt_ne_zero'.2 (by linarith)) (IsReal.coe 1)
  · simp only [broadcastInDim, constant, id, Ideal.ofBits_def]
    rw [ofBits_zero]
    exact isReal_zero

theorem normV_real (ei : IVec SEI 32) (e : Fin 330000) : IsReal (normV C ei (ix1 e)) := by
  unfold normV
  refine IsReal.mul ?_ ?_
  · rw [vecGather_apply (by decide) C.gath]; exact dinvV_real C ei _
  · rw [vecGather_apply (by decide) C.gath]; exact dinvV_real C ei _

end Cert.Hand.Ref

end
-- ==== Proof.KI.HostSpec.lean ====
import proofs.«143978_j4672924418728_1_alg».proof.Proof.KI.HostRead
import proofs.«143978_j4672924418728_1_alg».proof.Proof.KI.HostEntry
import proofs.«143978_j4672924418728_1_alg».proof.Proof.Ref.Spec
import proofs.«143978_j4672924418728_1_alg».proof.Proof.Ref.SpecFacts
import proofs.«143978_j4672924418728_1_alg».proof.Proof.Math.PointScatter
import proofs.«143978_j4672924418728_1_alg».proof.Proof.LibReal
import Idealize.ShloMosaic.Lib.KernelVsHost
import Idealize.ShloMosaic.Lib.Pipeline.Value
import Idealize.ShloMosaic.Lib.ValueIdx
import Idealize.ShloMosaic.PureOps.Ideal.Laws

/-!
# The first region's operands against the graph convolution's chain

The host operations before the first kernel region compute the chain of the specification: the endpoint vectors,
the edge coefficients, and from them the dense matrix whose entry (d, s) is zero plus the sum of the coefficients
of the edges from s to d (for endpoint words that are not negative, which indexing's wrap leaves alone); beside
it the first layer's projected features, zero from row 10000 on, and the first bias as a row.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.GinMath Cert.Hand.Math
open scoped BigOperators

variable (C : Cert.Hand.Ref.ChainFacts)

/-! ## The chain's terms are the specification's -/

theorem endK0_eq (ei : IVec S2x320000 32) : endK0 ei = Cert.Hand.Ref.srcV C ei := rfl
theorem endK1_eq (ei : IVec S2x320000 32) : endK1 ei = Cert.Hand.Ref.dstV C ei := rfl
theorem degK_eq (ei : IVec S2x320000 32) : degK ei = Cert.Hand.Ref.degV C ei := rfl
theorem dinvK_eq (ei : IVec S2x320000 32) : dinvK ei = Cert.Hand.Ref.dinvV C ei := rfl
theorem normK_eq (ei : IVec S2x320000 32) : normK ei = Cert.Hand.Ref.normV C ei := rfl

/-- The dense matrix over the edge-index array, in the specification's terms. -/
def adjV (ei : IVec S2x320000 32) : FVec Ideal S10240x10240 .bf16 :=
  adjOf (Cert.Hand.Ref.normV C ei) (Cert.Hand.Ref.srcV C ei) (Cert.Hand.Ref.dstV C ei)

theorem adjK_eq (ei : IVec S2x320000 32) : adjK ei = adjV C ei := rfl

section Entry

variable (m : (ℓ : Loc nD τ sig) → Buf (Elt Ideal) ℓ) (c : Dev nD)

theorem V5_src : Gen.V5 m c (Proc.devRef .tc main_v3) = Cert.Hand.Ref.srcV C (m ((c : Thread nD τ).loc main_arg1)) :=
  (V5_v3 m c).trans (endK0_eq C _)

theorem V5_dst : Gen.V5 m c (Proc.devRef .tc main_v6) = Cert.Hand.Ref.dstV C (m ((c : Thread nD τ).loc main_arg1)) :=
  (V5_v6 m c).trans (endK1_eq C _)

theorem V5_norm : Gen.V5 m c (Proc.devRef .tc main_v33) = Cert.Hand.Ref.normV C (m ((c : Thread nD τ).loc main_arg1)) :=
  (V5_v33 m c).trans (normK_eq C _)

theorem V5_adj : Gen.V5 m c (Proc.devRef .tc main_v49) = adjV C (m ((c : Thread nD τ).loc main_arg1)) :=
  (V5_v49 m c).trans (adjK_eq C _)

end Entry

/-- The dense matrix of the specification's chain at (d, q), when every entry of the edge-index array lies in
    [0, 10000). -/
theorem adjV_apply (ei : IVec S2x320000 32) (hidx : ∀ j, 0 ≤ (ei j).toInt ∧ (ei j).toInt < 10000)
    (d q : Fin 10240) :
    adjV C ei (ix2 d q)
      = 0 + ∑ e : Fin 330000, if (Cert.Hand.Ref.dstV C ei (ix1 e)).toInt = (d.val : ℤ)
            ∧ (Cert.Hand.Ref.srcV C ei (ix1 e)).toInt = (q.val : ℤ)
          then Cert.Hand.Ref.normV C ei (ix1 e) else 0 :=
  adjOf_apply _ _ _ (fun e => (Cert.Hand.Ref.srcV_range C ei hidx e).1)
    (fun e => (Cert.Hand.Ref.dstV_range C ei hidx e).1) d q

section Entry2

variable (m : (ℓ : Loc nD τ sig) → Buf (Elt Ideal) ℓ) (c : Dev nD)

/-- The first region's second operand at (p, f). -/
theorem V5_h (p : Fin 10240) (f : Fin 256) :
    Gen.V5 m c (Proc.devRef .tc main_v52) (ix2 p f)
      = if h : p.val < 10000 then
          Cert.Hand.Ref.xw1 (m ((c : Thread nD τ).loc main_arg0)) (m ((c : Thread nD τ).loc main_arg3)) ⟨p.val, h⟩ f
        else 0 := by
  rw [V5_v52 m c]
  exact xwK_apply _ _ p f

/-- The first region's third operand at (0, q). -/
theorem V5_b (q : Fin 256) :
    Gen.V5 m c (Proc.devRef .tc main_v53) (ix2 (0 : Fin 1) q) = m ((c : Thread nD τ).loc main_arg4) (ix1 q) := by
  rw [V5_v53 m c]
  exact biasRow_apply _ q

/-- The first region's first operand at (d, q), when every entry of the edge-index array lies in [0, 10000). -/
theorem V5_adj_apply (hidx : ∀ j, 0 ≤ (m ((c : Thread nD τ).loc main_arg1) j).toInt
      ∧ (m ((c : Thread nD τ).loc main_arg1) j).toInt < 10000) (d q : Fin 10240) :
    Gen.V5 m c (Proc.devRef .tc main_v49) (ix2 d q)
      = 0 + ∑ e : Fin 330000,
          if (Cert.Hand.Ref.dstV C (m ((c : Thread nD τ).loc main_arg1)) (ix1 e)).toInt = (d.val : ℤ)
            ∧ (Cert.Hand.Ref.srcV C (m ((c : Thread nD τ).loc main_arg1)) (ix1 e)).toInt = (q.val : ℤ)
          then Cert.Hand.Ref.normV C (m ((c : Thread nD τ).loc main_arg1)) (ix1 e) else 0 := by
  rw [V5_adj C m c]
  exact adjV_apply C _ hidx d q

end Entry2

end Cert.KernelIdeal.Hand

end
-- ==== Proof.KI.Mid.lean ====
/- The host operations between the two kernel regions, read off the buffer contents. The first region's result (10240 rows,
   of which the last 240 are padding) is cut back to its 10000 rows and multiplied by the second layer's weights; the
   product is padded with zero rows to 10240 rows again and rounded to the matmul's operand type; the second layer's bias
   is laid out as a row. The adjacency matrix is carried unchanged from the first region's entry to the second's. Each
   stretch of operations is read once over any contents before it; the contents between the regions then follow by
   carrying every buffer a stretch does not write. -/
import proofs.«143978_j4672924418728_1_alg».proof.Proof.Gen.KernelIdeal.Regions
import proofs.«143978_j4672924418728_1_alg».proof.Proof.LibTypedRef
import proofs.«143978_j4672924418728_1_alg».proof.Proof.LibPlainDot
import Idealize.ShloMosaic.Lib.StableHlo.Run
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

section Stretch

variable (W : Valuation τ sig (Elt F))

/-- The first stretch after the first region: the result's 10000 rows times the weights. -/
theorem ops1_v56 : StableHlo.after hostOps1 W (Proc.devRef .tc main_v56)
    = Host.dotGeneral dot_S10000x256_S256x256_S10000x256_1_0_0_1_n_n none
        (extractStridedSlice S10000x256 ![0, 0] (W (Proc.devRef .tc main_v54)) slices_S10240x256_S10000x256_0_0)
        (W (Proc.devRef .tc main_arg5)) := by
  after_results <;> rfl

theorem ops1_c14 : StableHlo.after hostOps1 W (Proc.devRef .tc main_c_14) = constantI S_ 32 0#32 := by
  after_results <;> rfl

/-- The padding: 240 rows of the converted constant below the product. -/
theorem ops1_1_v57 : StableHlo.after hostOps1_1 W (Proc.devRef .tc main_v57)
    = pad S10240x256 ![0, 0] ![240, 0] ![0, 0] (W (Proc.devRef .tc main_v56)) (sitofp .f32 (W (Proc.devRef .tc main_c_14)))
        pads_S10000x256_S10240x256_02400_000 h_S_ := by
  after_results
  simp only [Cert.LibTypedRef.ofBuf_toBuf]
  rfl

/-- The rounding to the matmul's operand type, and the bias as a row. -/
theorem ops1_2_v58 : StableHlo.after hostOps1_2 W (Proc.devRef .tc main_v58)
    = truncf .bf16 (W (Proc.devRef .tc main_v57)) bitsLt_bf16_f32 := by
  after_results <;> rfl

theorem ops1_2_v59 : StableHlo.after hostOps1_2 W (Proc.devRef .tc main_v59)
    = shapeCast S1x256 (W (Proc.devRef .tc main_arg6)) shapeCasts_S256_S1x256 := by
  after_results <;> rfl

end Stretch

/-- The feature operand of a layer's matmul, from the previous layer's result `x` (10240 rows, 240 of them padding) and the
    layer's weights `w`: the 10000 rows of `x` times `w`, padded with 240 rows of the converted integer zero, rounded to the
    matmul's operand type. -/
abbrev featOf (x : (⟨S10240x256, .f32⟩ : BufTy).Contents (Elt F)) (w : (⟨S256x256, .f32⟩ : BufTy).Contents (Elt F)) :
    (⟨S10240x256, .bf16⟩ : BufTy).Contents (Elt F) :=
  truncf .bf16 (pad S10240x256 ![0, 0] ![240, 0] ![0, 0]
      (Host.dotGeneral dot_S10000x256_S256x256_S10000x256_1_0_0_1_n_n none
        (extractStridedSlice S10000x256 ![0, 0] x slices_S10240x256_S10000x256_0_0) w)
      (sitofp .f32 (constantI S_ 32 0#32)) pads_S10000x256_S10240x256_02400_000 h_S_) bitsLt_bf16_f32

/-! ## The contents when the second region is entered -/

variable (m : (ℓ : Loc nD τ sig) → Buf (Elt F) ℓ) (o : Gen.Outs (F := F))

/-- An argument array is as launched when the first region is entered: no host stretch before it writes one. -/
theorem V5_arg5 (c : Dev nD) : Gen.V5 m c (Proc.devRef .tc main_arg5) = m ((c : Thread nD τ).loc main_arg5) :=
  (Gen.V5_of m c main_arg5 (by decide)).trans <| (Gen.V4_of m c main_arg5 (by decide)).trans <|
    (Gen.V3_of m c main_arg5 (by decide)).trans <| (Gen.V2_of m c main_arg5 (by decide)).trans <|
    (Gen.V1_of m c main_arg5 (by decide)).trans rfl

theorem V5_arg6 (c : Dev nD) : Gen.V5 m c (Proc.devRef .tc main_arg6) = m ((c : Thread nD τ).loc main_arg6) :=
  (Gen.V5_of m c main_arg6 (by decide)).trans <| (Gen.V4_of m c main_arg6 (by decide)).trans <|
    (Gen.V3_of m c main_arg6 (by decide)).trans <| (Gen.V2_of m c main_arg6 (by decide)).trans <|
    (Gen.V1_of m c main_arg6 (by decide)).trans rfl

/-- After the first region its result array holds what the region leaves there. -/
theorem V6_v54 (c : Dev nD) : Gen.V6 m o c (Proc.devRef .tc main_v54) = o 6 main_v54 c := by
  show Function.update (Gen.V5 m c) (Proc.devRef .tc main_v54) (o 6 main_v54 c) (Proc.devRef .tc main_v54) = _
  rw [Function.update_self]

/-- The adjacency matrix enters the second region as it entered the first: nothing between writes it. -/
theorem V9_v49 (c : Dev nD) : Gen.V9 m o c (Proc.devRef .tc main_v49) = Gen.V5 m c (Proc.devRef .tc main_v49) :=
  (Gen.V9_of m o c main_v49 (by decide)).trans <| (Gen.V8_of m o c main_v49 (by decide)).trans <|
    (Gen.V7_of m o c main_v49 (by decide)).trans (Gen.V6_of m o c main_v49 (by decide))

/-- The second region's feature operand: the first region's 10000 result rows times the second layer's weights, padded
    with zero rows to 10240 rows and rounded to the matmul's operand type. -/
theorem V9_v58 (c : Dev nD) : Gen.V9 m o c (Proc.devRef .tc main_v58)
    = truncf .bf16 (pad S10240x256 ![0, 0] ![240, 0] ![0, 0]
        (Host.dotGeneral dot_S10000x256_S256x256_S10000x256_1_0_0_1_n_n none
          (extractStridedSlice S10000x256 ![0, 0] (o 6 main_v54 c) slices_S10240x256_S10000x256_0_0)
          (m ((c : Thread nD τ).loc main_arg5)))
        (sitofp .f32 (constantI S_ 32 0#32)) pads_S10000x256_S10240x256_02400_000 h_S_) bitsLt_bf16_f32 := by
  have h56 : Gen.V8 m o c (Proc.devRef .tc main_v56)
      = Host.dotGeneral dot_S10000x256_S256x256_S10000x256_1_0_0_1_n_n none
          (extractStridedSlice S10000x256 ![0, 0] (o 6 main_v54 c) slices_S10240x256_S10000x256_0_0)
          (m ((c : Thread nD τ).loc main_arg5)) := by
    rw [Gen.V8_of m o c main_v56 (by decide)]
    show StableHlo.after hostOps1 (Gen.V6 m o c) (Proc.devRef .tc main_v56) = _
    rw [ops1_v56, V6_v54, Gen.V6_of m o c main_arg5 (by decide), V5_arg5]
  have h14 : Gen.V8 m o c (Proc.devRef .tc main_c_14) = constantI S_ 32 0#32 := by
    rw [Gen.V8_of m o c main_c_14 (by decide)]
    show StableHlo.after hostOps1 (Gen.V6 m o c) (Proc.devRef .tc main_c_14) = _
    rw [ops1_c14]
  show StableHlo.after hostOps1_2 (Gen.V8 m o c) (Proc.devRef .tc main_v58) = _
  rw [ops1_2_v58]
  show truncf .bf16 (StableHlo.after hostOps1_1 (Gen.V7 m o c) (Proc.devRef .tc main_v57)) bitsLt_bf16_f32 = _
  rw [ops1_1_v57]
  -- the two operands of the padding are the contents before it, which the first stretch computed
  have h56' : Gen.V7 m o c (Proc.devRef .tc main_v56) = _ := (Gen.V8_of m o c main_v56 (by decide)).symm.trans h56
  have h14' : Gen.V7 m o c (Proc.devRef .tc main_c_14) = _ := (Gen.V8_of m o c main_c_14 (by decide)).symm.trans h14
  rw [h56', h14']

/-- The second region's bias operand: the second layer's bias as a row. -/
theorem V9_v59 (c : Dev nD) : Gen.V9 m o c (Proc.devRef .tc main_v59)
    = shapeCast S1x256 (m ((c : Thread nD τ).loc main_arg6)) shapeCasts_S256_S1x256 := by
  show StableHlo.after hostOps1_2 (Gen.V8 m o c) (Proc.devRef .tc main_v59) = _
  rw [ops1_2_v59, Gen.V8_of m o c main_arg6 (by decide), Gen.V7_of m o c main_arg6 (by decide),
    Gen.V6_of m o c main_arg6 (by decide), V5_arg6]

/-! ## The same at the extended reals, entry by entry -/

section AtIdeal

open Idealize.ShloMosaic.ValueIdx
open scoped BigOperators

/-- The host's product of an M×K matrix by a K×N matrix at entry (p, q): the sum over k of left (p, k) times right (k, q). -/
theorem hostDot_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply,
    ← Equiv.sum_comp (contrEquiv1 (DotDims.plain M K N) K (Cert.PlainDot.contr_rank M K N) (Cert.PlainDot.contr_size M K N)).symm]
  refine Finset.sum_congr rfl fun k _ => ?_
  rw [Cert.PlainDot.lhsIdx_eq, Cert.PlainDot.rhsIdx_eq]

/-- The printed dimension numbers of the 10000×256 by 256×256 product are the plain ones. -/
theorem dot_eq_plain : dot_S10000x256_S256x256_S10000x256_1_0_0_1_n_n = DotDims.plain 10000 256 256 := rfl

/-- The feature operand at row s, column f: on a row of the 10000, the product's entry — the sum over k of the result
    at (s, k) times the weights at (k, f); on the 240 rows below, zero. -/
theorem featOf_apply (x : FVec Ideal S10240x256 .f32) (w : FVec Ideal S256x256 .f32) (s : Fin 10240) (f : Fin 256) :
    (featOf (F := Ideal) x w : FVec Ideal S10240x256 .bf16) (ix2 s f)
      = if s.val < 10000 then ∑ k : Fin 256, x (ix2 s k) * w (ix2 k f) else 0 := by
  show (pad S10240x256 ![0, 0] ![240, 0] ![0, 0]
      (Host.dotGeneral dot_S10000x256_S256x256_S10000x256_1_0_0_1_n_n none
        (extractStridedSlice S10000x256 ![0, 0] x slices_S10240x256_S10000x256_0_0) w)
      (sitofp (F := Ideal) .f32 (constantI S_ 32 0#32)) pads_S10000x256_S10240x256_02400_000 h_S_ : FVec Ideal S10240x256 .f32) (ix2 s f) = _
  by_cases hs : s.val < 10000
  · rw [if_pos hs, pad_apply_of_inside _ _ _ _ _ _ _ (ix2 s f) (ix2 (⟨s.val, hs⟩ : Fin 10000) f) (fun a => by
        match a with
        | ⟨0, _⟩ => show s.val = 0 + s.val * (0 + 1); omega
        | ⟨1, _⟩ => show f.val = 0 + f.val * (0 + 1); omega)]
    rw [dot_eq_plain, hostDot_apply]
    refine Finset.sum_congr rfl fun k _ => ?_
    rw [extractStridedSlice_apply _ _ _ (ix2 (⟨s.val, hs⟩ : Fin 10000) k) (ix2 s k) (fun a => by
        match a with
        | ⟨0, _⟩ => show s.val = 0 + s.val; omega
        | ⟨1, _⟩ => show k.val = 0 + k.val; omega)]
  · rw [if_neg hs, pad_apply_of_not_inside _ _ _ _ _ _ _ (ix2 s f) (0 : Fin 2) (fun h => hs (by
        have h3 : (s.val - 0) / (0 + 1) < 10000 := h.2.2
        omega))]
    exact sitofp_zero

variable (mI : (ℓ : Loc nD τ sig) → Buf (Elt Ideal) ℓ) (oI : Gen.Outs (F := Ideal))

/-- The second region's feature operand, entry by entry, over the first region's result and the second layer's weights. -/
theorem V9_v58_apply (c : Dev nD) (s : Fin 10240) (f : Fin 256) :
    (Gen.V9 mI oI c (Proc.devRef .tc main_v58) : FVec Ideal S10240x256 .bf16) (ix2 s f)
      = if s.val < 10000 then
          ∑ k : Fin 256, (show FVec Ideal S10240x256 .f32 from oI 6 main_v54 c) (ix2 s k)
            * (show FVec Ideal S256x256 .f32 from mI ((c : Thread nD τ).loc main_arg5)) (ix2 k f)
        else 0 := by
  rw [V9_v58]
  exact featOf_apply (oI 6 main_v54 c) (mI ((c : Thread nD τ).loc main_arg5)) s f

/-- The second region's bias operand: the one row holds the second layer's bias. -/
theorem V9_v59_apply (c : Dev nD) (f : Fin 256) :
    (Gen.V9 mI oI c (Proc.devRef .tc main_v59) : FVec Ideal S1x256 .f32) (ix2 0 f)
      = (mI ((c : Thread nD τ).loc main_arg6) : FVec Ideal S256 .f32) (ix1 f) := by
  rw [V9_v59]
  exact shapeCast_apply _ _ (ix2 0 f) (ix1 f) (by
    rw [Shape.rowMajor_val_one, Shape.rowMajor_val_two]
    show f.val = 0 * 256 + f.val
    omega)

end AtIdeal

end Cert.KernelIdeal.Hand

end
-- ==== Proof.KI.Tail.lean ====
/- The host operations after the second kernel region, as one function of the region's result. The result (10240 rows, 240 of
   them padding) is cut back to its 10000 rows; the rows are summed per graph and divided by the graphs' node counts (at
   least one); four dense layers with a clip below at zero between them and a last dense layer of one column follow, and
   the column is laid out as a vector. Each stretch of operations is read once over any contents before it; the last
   contents of the output buffer then follow by carrying every buffer a stretch does not write. -/
import proofs.«143978_j4672924418728_1_alg».proof.Proof.Gen.KernelIdeal.Regions
import proofs.«143978_j4672924418728_1_alg».proof.Proof.LibTypedRef
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

/-! ## The stages as functions -/

/-- The mean of the node rows `L` per graph (`batch` names each row's graph; a graph's count is at least one), then the
    first dense layer. -/
def tailPool (L : (⟨S10000x256, .f32⟩ : BufTy).Contents (Elt F)) (batch : (⟨S10000, .i32⟩ : BufTy).Contents (Elt F))
    (w : (⟨S256x128, .f32⟩ : BufTy).Contents (Elt F)) (b : (⟨S128, .f32⟩ : BufTy).Contents (Elt F)) : (⟨S64x128, .f32⟩ : BufTy).Contents (Elt F) :=
  addf
    (Host.dotGeneral dot_S64x256_S256x128_S64x128_1_0_0_1_n_n none
      (Host.divf
        (Host.scatterAdd scatter_S64x256_S10000x1_S10000x256_1_0_0_1
          (broadcastInDim S64x256 ![] bcast_S_S64x256 (constant (F := F) S_ .f32 0x00000000#32))
          (broadcastInDim S10000x1 ![0] bcast_S10000_S10000x1_0 batch) L)
        (broadcastInDim S64x256 ![0, 1] bcast_S64x1_S64x256_0_1
          (broadcastInDim S64x1 ![0] bcast_S64_S64x1_0
            (maximumf
              (Host.scatterAdd scatter_S64_S10000x1_S10000_n_0_0_1
                (broadcastInDim S64 ![] bcast_S_S64 (constant (F := F) S_ .f32 0x00000000#32))
                (broadcastInDim S10000x1 ![0] bcast_S10000_S10000x1_0 batch)
                (broadcastInDim S10000 ![] bcast_S_S10000 (constant (F := F) S_ .f32 0x3F800000#32)))
              (broadcastInDim S64 ![] bcast_S_S64 (constant (F := F) S_ .f32 0x3F800000#32))))))
      w)
    (broadcastInDim S64x128 ![0, 1] bcast_S1x128_S64x128_0_1 (broadcastInDim S1x128 ![1] bcast_S128_S1x128_1 b))

/-- The clip below at zero, at the three widths. -/
def clip128 (x : (⟨S64x128, .f32⟩ : BufTy).Contents (Elt F)) : (⟨S64x128, .f32⟩ : BufTy).Contents (Elt F) :=
  maximumf x (broadcastInDim S64x128 ![] bcast_S_S64x128 (constant (F := F) S_ .f32 0x00000000#32))
def clip64 (x : (⟨S64x64, .f32⟩ : BufTy).Contents (Elt F)) : (⟨S64x64, .f32⟩ : BufTy).Contents (Elt F) :=
  maximumf x (broadcastInDim S64x64 ![] bcast_S_S64x64 (constant (F := F) S_ .f32 0x00000000#32))
def clip32 (x : (⟨S64x32, .f32⟩ : BufTy).Contents (Elt F)) : (⟨S64x32, .f32⟩ : BufTy).Contents (Elt F) :=
  maximumf x (broadcastInDim S64x32 ![] bcast_S_S64x32 (constant (F := F) S_ .f32 0x00000000#32))

/-- The dense layers: the product with the weights plus the bias row on every row. -/
def dense128 (x : (⟨S64x128, .f32⟩ : BufTy).Contents (Elt F)) (w : (⟨S128x128, .f32⟩ : BufTy).Contents (Elt F)) (b : (⟨S128, .f32⟩ : BufTy).Contents (Elt F)) : (⟨S64x128, .f32⟩ : BufTy).Contents (Elt F) :=
  addf (Host.dotGeneral dot_S64x128_S128x128_S64x128_1_0_0_1_n_n none x w)
    (broadcastInDim S64x128 ![0, 1] bcast_S1x128_S64x128_0_1 (broadcastInDim S1x128 ![1] bcast_S128_S1x128_1 b))
def dense64 (x : (⟨S64x128, .f32⟩ : BufTy).Contents (Elt F)) (w : (⟨S128x64, .f32⟩ : BufTy).Contents (Elt F)) (b : (⟨S64, .f32⟩ : BufTy).Contents (Elt F)) : (⟨S64x64, .f32⟩ : BufTy).Contents (Elt F) :=
  addf (Host.dotGeneral dot_S64x128_S128x64_S64x64_1_0_0_1_n_n none x w)
    (broadcastInDim S64x64 ![0, 1] bcast_S1x64_S64x64_0_1 (broadcastInDim S1x64 ![1] bcast_S64_S1x64_1 b))
def dense32 (x : (⟨S64x64, .f32⟩ : BufTy).Contents (Elt F)) (w : (⟨S64x32, .f32⟩ : BufTy).Contents (Elt F)) (b : (⟨S32, .f32⟩ : BufTy).Contents (Elt F)) : (⟨S64x32, .f32⟩ : BufTy).Contents (Elt F) :=
  addf (Host.dotGeneral dot_S64x64_S64x32_S64x32_1_0_0_1_n_n none x w)
    (broadcastInDim S64x32 ![0, 1] bcast_S1x32_S64x32_0_1 (broadcastInDim S1x32 ![1] bcast_S32_S1x32_1 b))
/-- The last layer, one column, laid out as a vector. -/
def dense1 (x : (⟨S64x32, .f32⟩ : BufTy).Contents (Elt F)) (w : (⟨S32x1, .f32⟩ : BufTy).Contents (Elt F)) (b : (⟨S1, .f32⟩ : BufTy).Contents (Elt F)) : (⟨S64, .f32⟩ : BufTy).Contents (Elt F) :=
  shapeCast S64
    (addf (Host.dotGeneral dot_S64x32_S32x1_S64x1_1_0_0_1_n_n none x w)
      (broadcastInDim S64x1 ![0, 1] bcast_S1x1_S64x1_0_1 (broadcastInDim S1x1 ![1] bcast_S1_S1x1_1 b)))
    shapeCasts_S64x1_S64

/-- Everything after the second region, from its result's 10000 rows `L`, the graph of each row and the ten weight and bias
    arrays. -/
def tailFn (L : (⟨S10000x256, .f32⟩ : BufTy).Contents (Elt F)) (batch : (⟨S10000, .i32⟩ : BufTy).Contents (Elt F))
    (w1 : (⟨S256x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F))
    (w3 : (⟨S128x64, .f32⟩ : BufTy).Contents (Elt F)) (b3 : (⟨S64, .f32⟩ : BufTy).Contents (Elt F)) (w4 : (⟨S64x32, .f32⟩ : BufTy).Contents (Elt F)) (b4 : (⟨S32, .f32⟩ : BufTy).Contents (Elt F))
    (w5 : (⟨S32x1, .f32⟩ : BufTy).Contents (Elt F)) (b5 : (⟨S1, .f32⟩ : BufTy).Contents (Elt F)) : (⟨S64, .f32⟩ : BufTy).Contents (Elt F) :=
  dense1 (clip32 (dense32 (clip64 (dense64 (clip128 (dense128 (clip128 (tailPool L batch w1 b1)) w2 b2)) w3 b3)) w4 b4)) w5 b5

/-! ## Each stretch over any contents before it -/

section Stretch

variable (W : Valuation τ sig (Elt F))

theorem ops2_v77 : StableHlo.after hostOps2 W (Proc.devRef .tc main_v77)
    = tailPool (extractStridedSlice S10000x256 ![0, 0] (W (Proc.devRef .tc main_v60)) slices_S10240x256_S10000x256_0_0)
        (W (Proc.devRef .tc main_arg2)) (W (Proc.devRef .tc main_arg7)) (W (Proc.devRef .tc main_arg8)) := by
  after_results_simp
  rfl

theorem ops2_1_v78 : StableHlo.after hostOps2_1 W (Proc.devRef .tc main_v78) = clip128 (W (Proc.devRef .tc main_v77)) := by
  after_results
  simp only [Cert.LibTypedRef.ofBuf_toBuf]
  rfl

theorem ops2_2_v82 : StableHlo.after hostOps2_2 W (Proc.devRef .tc main_v82)
    = dense128 (W (Proc.devRef .tc main_v78)) (W (Proc.devRef .tc main_arg9)) (W (Proc.devRef .tc main_arg10)) := by
  after_results <;> rfl

theorem ops2_3_v83 : StableHlo.after hostOps2_3 W (Proc.devRef .tc main_v83) = clip128 (W (Proc.devRef .tc main_v82)) := by
  after_results
  simp only [Cert.LibTypedRef.ofBuf_toBuf]
  rfl

theorem ops2_4_v87 : StableHlo.after hostOps2_4 W (Proc.devRef .tc main_v87)
    = dense64 (W (Proc.devRef .tc main_v83)) (W (Proc.devRef .tc main_arg11)) (W (Proc.devRef .tc main_arg12)) := by
  after_results <;> rfl

theorem ops2_5_v88 : StableHlo.after hostOps2_5 W (Proc.devRef .tc main_v88) = clip64 (W (Proc.devRef .tc main_v87)) := by
  after_results
  simp only [Cert.LibTypedRef.ofBuf_toBuf]
  rfl

theorem ops2_6_v92 : StableHlo.after hostOps2_6 W (Proc.devRef .tc main_v92)
    = dense32 (W (Proc.devRef .tc main_v88)) (W (Proc.devRef .tc main_arg13)) (W (Proc.devRef .tc main_arg14)) := by
  after_results <;> rfl

theorem ops2_7_v93 : StableHlo.after hostOps2_7 W (Proc.devRef .tc main_v93) = clip32 (W (Proc.devRef .tc main_v92)) := by
  after_results
  simp only [Cert.LibTypedRef.ofBuf_toBuf]
  rfl

theorem ops2_8_v98 : StableHlo.after hostOps2_8 W (Proc.devRef .tc main_v98)
    = dense1 (W (Proc.devRef .tc main_v93)) (W (Proc.devRef .tc main_arg15)) (W (Proc.devRef .tc main_arg16)) := by
  after_results <;> rfl

end Stretch

/-! ## The output buffer's last contents -/

variable (m : (ℓ : Loc nD τ sig) → Buf (Elt F) ℓ) (o : Gen.Outs (F := F))

theorem V10_arg2 (c : Dev nD) : Gen.V10 m o c (Proc.devRef .tc main_arg2) = m ((c : Thread nD τ).loc main_arg2) :=
  (Gen.V10_of m o c main_arg2 (by decide)).trans <|
    (Gen.V9_of m o c main_arg2 (by decide)).trans <|
    (Gen.V8_of m o c main_arg2 (by decide)).trans <|
    (Gen.V7_of m o c main_arg2 (by decide)).trans <|
    (Gen.V6_of m o c main_arg2 (by decide)).trans <|
    (Gen.V5_of m c main_arg2 (by decide)).trans <|
    (Gen.V4_of m c main_arg2 (by decide)).trans <|
    (Gen.V3_of m c main_arg2 (by decide)).trans <|
    (Gen.V2_of m c main_arg2 (by decide)).trans <|
    (Gen.V1_of m c main_arg2 (by decide)).trans <| rfl

theorem V10_arg7 (c : Dev nD) : Gen.V10 m o c (Proc.devRef .tc main_arg7) = m ((c : Thread nD τ).loc main_arg7) :=
  (Gen.V10_of m o c main_arg7 (by decide)).trans <|
    (Gen.V9_of m o c main_arg7 (by decide)).trans <|
    (Gen.V8_of m o c main_arg7 (by decide)).trans <|
    (Gen.V7_of m o c main_arg7 (by decide)).trans <|
    (Gen.V6_of m o c main_arg7 (by decide)).trans <|
    (Gen.V5_of m c main_arg7 (by decide)).trans <|
    (Gen.V4_of m c main_arg7 (by decide)).trans <|
    (Gen.V3_of m c main_arg7 (by decide)).trans <|
    (Gen.V2_of m c main_arg7 (by decide)).trans <|
    (Gen.V1_of m c main_arg7 (by decide)).trans <| rfl

theorem V10_arg8 (c : Dev nD) : Gen.V10 m o c (Proc.devRef .tc main_arg8) = m ((c : Thread nD τ).loc main_arg8) :=
  (Gen.V10_of m o c main_arg8 (by decide)).trans <|
    (Gen.V9_of m o c main_arg8 (by decide)).trans <|
    (Gen.V8_of m o c main_arg8 (by decide)).trans <|
    (Gen.V7_of m o c main_arg8 (by decide)).trans <|
    (Gen.V6_of m o c main_arg8 (by decide)).trans <|
    (Gen.V5_of m c main_arg8 (by decide)).trans <|
    (Gen.V4_of m c main_arg8 (by decide)).trans <|
    (Gen.V3_of m c main_arg8 (by decide)).trans <|
    (Gen.V2_of m c main_arg8 (by decide)).trans <|
    (Gen.V1_of m c main_arg8 (by decide)).trans <| rfl

theorem V12_arg9 (c : Dev nD) : Gen.V12 m o c (Proc.devRef .tc main_arg9) = m ((c : Thread nD τ).loc main_arg9) :=
  (Gen.V12_of m o c main_arg9 (by decide)).trans <|
    (Gen.V11_of m o c main_arg9 (by decide)).trans <|
    (Gen.V10_of m o c main_arg9 (by decide)).trans <|
    (Gen.V9_of m o c main_arg9 (by decide)).trans <|
    (Gen.V8_of m o c main_arg9 (by decide)).trans <|
    (Gen.V7_of m o c main_arg9 (by decide)).trans <|
    (Gen.V6_of m o c main_arg9 (by decide)).trans <|
    (Gen.V5_of m c main_arg9 (by decide)).trans <|
    (Gen.V4_of m c main_arg9 (by decide)).trans <|
    (Gen.V3_of m c main_arg9 (by decide)).trans <|
    (Gen.V2_of m c main_arg9 (by decide)).trans <|
    (Gen.V1_of m c main_arg9 (by decide)).trans <| rfl

theorem V12_arg10 (c : Dev nD) : Gen.V12 m o c (Proc.devRef .tc main_arg10) = m ((c : Thread nD τ).loc main_arg10) :=
  (Gen.V12_of m o c main_arg10 (by decide)).trans <|
    (Gen.V11_of m o c main_arg10 (by decide)).trans <|
    (Gen.V10_of m o c main_arg10 (by decide)).trans <|
    (Gen.V9_of m o c main_arg10 (by decide)).trans <|
    (Gen.V8_of m o c main_arg10 (by decide)).trans <|
    (Gen.V7_of m o c main_arg10 (by decide)).trans <|
    (Gen.V6_of m o c main_arg10 (by decide)).trans <|
    (Gen.V5_of m c main_arg10 (by decide)).trans <|
    (Gen.V4_of m c main_arg10 (by decide)).trans <|
    (Gen.V3_of m c main_arg10 (by decide)).trans <|
    (Gen.V2_of m c main_arg10 (by decide)).trans <|
    (Gen.V1_of m c main_arg10 (by decide)).trans <| rfl

theorem V14_arg11 (c : Dev nD) : Gen.V14 m o c (Proc.devRef .tc main_arg11) = m ((c : Thread nD τ).loc main_arg11) :=
  (Gen.V14_of m o c main_arg11 (by decide)).trans <|
    (Gen.V13_of m o c main_arg11 (by decide)).trans <|
    (Gen.V12_of m o c main_arg11 (by decide)).trans <|
    (Gen.V11_of m o c main_arg11 (by decide)).trans <|
    (Gen.V10_of m o c main_arg11 (by decide)).trans <|
    (Gen.V9_of m o c main_arg11 (by decide)).trans <|
    (Gen.V8_of m o c main_arg11 (by decide)).trans <|
    (Gen.V7_of m o c main_arg11 (by decide)).trans <|
    (Gen.V6_of m o c main_arg11 (by decide)).trans <|
    (Gen.V5_of m c main_arg11 (by decide)).trans <|
    (Gen.V4_of m c main_arg11 (by decide)).trans <|
    (Gen.V3_of m c main_arg11 (by decide)).trans <|
    (Gen.V2_of m c main_arg11 (by decide)).trans <|
    (Gen.V1_of m c main_arg11 (by decide)).trans <| rfl

theorem V14_arg12 (c : Dev nD) : Gen.V14 m o c (Proc.devRef .tc main_arg12) = m ((c : Thread nD τ).loc main_arg12) :=
  (Gen.V14_of m o c main_arg12 (by decide)).trans <|
    (Gen.V13_of m o c main_arg12 (by decide)).trans <|
    (Gen.V12_of m o c main_arg12 (by decide)).trans <|
    (Gen.V11_of m o c main_arg12 (by decide)).trans <|
    (Gen.V10_of m o c main_arg12 (by decide)).trans <|
    (Gen.V9_of m o c main_arg12 (by decide)).trans <|
    (Gen.V8_of m o c main_arg12 (by decide)).trans <|
    (Gen.V7_of m o c main_arg12 (by decide)).trans <|
    (Gen.V6_of m o c main_arg12 (by decide)).trans <|
    (Gen.V5_of m c main_arg12 (by decide)).trans <|
    (Gen.V4_of m c main_arg12 (by decide)).trans <|
    (Gen.V3_of m c main_arg12 (by decide)).trans <|
    (Gen.V2_of m c main_arg12 (by decide)).trans <|
    (Gen.V1_of m c main_arg12 (by decide)).trans <| rfl

theorem V16_arg13 (c : Dev nD) : Gen.V16 m o c (Proc.devRef .tc main_arg13) = m ((c : Thread nD τ).loc main_arg13) :=
  (Gen.V16_of m o c main_arg13 (by decide)).trans <|
    (Gen.V15_of m o c main_arg13 (by decide)).trans <|
    (Gen.V14_of m o c main_arg13 (by decide)).trans <|
    (Gen.V13_of m o c main_arg13 (by decide)).trans <|
    (Gen.V12_of m o c main_arg13 (by decide)).trans <|
    (Gen.V11_of m o c main_arg13 (by decide)).trans <|
    (Gen.V10_of m o c main_arg13 (by decide)).trans <|
    (Gen.V9_of m o c main_arg13 (by decide)).trans <|
    (Gen.V8_of m o c main_arg13 (by decide)).trans <|
    (Gen.V7_of m o c main_arg13 (by decide)).trans <|
    (Gen.V6_of m o c main_arg13 (by decide)).trans <|
    (Gen.V5_of m c main_arg13 (by decide)).trans <|
    (Gen.V4_of m c main_arg13 (by decide)).trans <|
    (Gen.V3_of m c main_arg13 (by decide)).trans <|
    (Gen.V2_of m c main_arg13 (by decide)).trans <|
    (Gen.V1_of m c main_arg13 (by decide)).trans <| rfl

theorem V16_arg14 (c : Dev nD) : Gen.V16 m o c (Proc.devRef .tc main_arg14) = m ((c : Thread nD τ).loc main_arg14) :=
  (Gen.V16_of m o c main_arg14 (by decide)).trans <|
    (Gen.V15_of m o c main_arg14 (by decide)).trans <|
    (Gen.V14_of m o c main_arg14 (by decide)).trans <|
    (Gen.V13_of m o c main_arg14 (by decide)).trans <|
    (Gen.V12_of m o c main_arg14 (by decide)).trans <|
    (Gen.V11_of m o c main_arg14 (by decide)).trans <|
    (Gen.V10_of m o c main_arg14 (by decide)).trans <|
    (Gen.V9_of m o c main_arg14 (by decide)).trans <|
    (Gen.V8_of m o c main_arg14 (by decide)).trans <|
    (Gen.V7_of m o c main_arg14 (by decide)).trans <|
    (Gen.V6_of m o c main_arg14 (by decide)).trans <|
    (Gen.V5_of m c main_arg14 (by decide)).trans <|
    (Gen.V4_of m c main_arg14 (by decide)).trans <|
    (Gen.V3_of m c main_arg14 (by decide)).trans <|
    (Gen.V2_of m c main_arg14 (by decide)).trans <|
    (Gen.V1_of m c main_arg14 (by decide)).trans <| rfl

theorem V18_arg15 (c : Dev nD) : Gen.V18 m o c (Proc.devRef .tc main_arg15) = m ((c : Thread nD τ).loc main_arg15) :=
  (Gen.V18_of m o c main_arg15 (by decide)).trans <|
    (Gen.V17_of m o c main_arg15 (by decide)).trans <|
    (Gen.V16_of m o c main_arg15 (by decide)).trans <|
    (Gen.V15_of m o c main_arg15 (by decide)).trans <|
    (Gen.V14_of m o c main_arg15 (by decide)).trans <|
    (Gen.V13_of m o c main_arg15 (by decide)).trans <|
    (Gen.V12_of m o c main_arg15 (by decide)).trans <|
    (Gen.V11_of m o c main_arg15 (by decide)).trans <|
    (Gen.V10_of m o c main_arg15 (by decide)).trans <|
    (Gen.V9_of m o c main_arg15 (by decide)).trans <|
    (Gen.V8_of m o c main_arg15 (by decide)).trans <|
    (Gen.V7_of m o c main_arg15 (by decide)).trans <|
    (Gen.V6_of m o c main_arg15 (by decide)).trans <|
    (Gen.V5_of m c main_arg15 (by decide)).trans <|
    (Gen.V4_of m c main_arg15 (by decide)).trans <|
    (Gen.V3_of m c main_arg15 (by decide)).trans <|
    (Gen.V2_of m c main_arg15 (by decide)).trans <|
    (Gen.V1_of m c main_arg15 (by decide)).trans <| rfl

theorem V18_arg16 (c : Dev nD) : Gen.V18 m o c (Proc.devRef .tc main_arg16) = m ((c : Thread nD τ).loc main_arg16) :=
  (Gen.V18_of m o c main_arg16 (by decide)).trans <|
    (Gen.V17_of m o c main_arg16 (by decide)).trans <|
    (Gen.V16_of m o c main_arg16 (by decide)).trans <|
    (Gen.V15_of m o c main_arg16 (by decide)).trans <|
    (Gen.V14_of m o c main_arg16 (by decide)).trans <|
    (Gen.V13_of m o c main_arg16 (by decide)).trans <|
    (Gen.V12_of m o c main_arg16 (by decide)).trans <|
    (Gen.V11_of m o c main_arg16 (by decide)).trans <|
    (Gen.V10_of m o c main_arg16 (by decide)).trans <|
    (Gen.V9_of m o c main_arg16 (by decide)).trans <|
    (Gen.V8_of m o c main_arg16 (by decide)).trans <|
    (Gen.V7_of m o c main_arg16 (by decide)).trans <|
    (Gen.V6_of m o c main_arg16 (by decide)).trans <|
    (Gen.V5_of m c main_arg16 (by decide)).trans <|
    (Gen.V4_of m c main_arg16 (by decide)).trans <|
    (Gen.V3_of m c main_arg16 (by decide)).trans <|
    (Gen.V2_of m c main_arg16 (by decide)).trans <|
    (Gen.V1_of m c main_arg16 (by decide)).trans <| rfl

/-- After the second region its result array holds what the region leaves there. -/
theorem V10_v60 (c : Dev nD) : Gen.V10 m o c (Proc.devRef .tc main_v60) = o 10 main_v60 c := by
  show Function.update (Gen.V9 m o c) (Proc.devRef .tc main_v60) (o 10 main_v60 c) (Proc.devRef .tc main_v60) = _
  rw [Function.update_self]

theorem V11_v77 (c : Dev nD) : Gen.V11 m o c (Proc.devRef .tc main_v77)
    = tailPool (extractStridedSlice S10000x256 ![0, 0] (o 10 main_v60 c) slices_S10240x256_S10000x256_0_0)
        (m ((c : Thread nD τ).loc main_arg2)) (m ((c : Thread nD τ).loc main_arg7)) (m ((c : Thread nD τ).loc main_arg8)) := by
  show StableHlo.after hostOps2 (Gen.V10 m o c) (Proc.devRef .tc main_v77) = _
  rw [ops2_v77, V10_v60, V10_arg2, V10_arg7, V10_arg8]

theorem V12_v78 (c : Dev nD) : Gen.V12 m o c (Proc.devRef .tc main_v78) = clip128 (Gen.V11 m o c (Proc.devRef .tc main_v77)) := by
  show StableHlo.after hostOps2_1 (Gen.V11 m o c) (Proc.devRef .tc main_v78) = _
  rw [ops2_1_v78]

theorem V13_v82 (c : Dev nD) : Gen.V13 m o c (Proc.devRef .tc main_v82)
    = dense128 (Gen.V12 m o c (Proc.devRef .tc main_v78)) (m ((c : Thread nD τ).loc main_arg9)) (m ((c : Thread nD τ).loc main_arg10)) := by
  show StableHlo.after hostOps2_2 (Gen.V12 m o c) (Proc.devRef .tc main_v82) = _
  rw [ops2_2_v82, V12_arg9, V12_arg10]

theorem V14_v83 (c : Dev nD) : Gen.V14 m o c (Proc.devRef .tc main_v83) = clip128 (Gen.V13 m o c (Proc.devRef .tc main_v82)) := by
  show StableHlo.after hostOps2_3 (Gen.V13 m o c) (Proc.devRef .tc main_v83) = _
  rw [ops2_3_v83]

theorem V15_v87 (c : Dev nD) : Gen.V15 m o c (Proc.devRef .tc main_v87)
    = dense64 (Gen.V14 m o c (Proc.devRef .tc main_v83)) (m ((c : Thread nD τ).loc main_arg11)) (m ((c : Thread nD τ).loc main_arg12)) := by
  show StableHlo.after hostOps2_4 (Gen.V14 m o c) (Proc.devRef .tc main_v87) = _
  rw [ops2_4_v87, V14_arg11, V14_arg12]

theorem V16_v88 (c : Dev nD) : Gen.V16 m o c (Proc.devRef .tc main_v88) = clip64 (Gen.V15 m o c (Proc.devRef .tc main_v87)) := by
  show StableHlo.after hostOps2_5 (Gen.V15 m o c) (Proc.devRef .tc main_v88) = _
  rw [ops2_5_v88]

theorem V17_v92 (c : Dev nD) : Gen.V17 m o c (Proc.devRef .tc main_v92)
    = dense32 (Gen.V16 m o c (Proc.devRef .tc main_v88)) (m ((c : Thread nD τ).loc main_arg13)) (m ((c : Thread nD τ).loc main_arg14)) := by
  show StableHlo.after hostOps2_6 (Gen.V16 m o c) (Proc.devRef .tc main_v92) = _
  rw [ops2_6_v92, V16_arg13, V16_arg14]

theorem V18_v93 (c : Dev nD) : Gen.V18 m o c (Proc.devRef .tc main_v93) = clip32 (Gen.V17 m o c (Proc.devRef .tc main_v92)) := by
  show StableHlo.after hostOps2_7 (Gen.V17 m o c) (Proc.devRef .tc main_v93) = _
  rw [ops2_7_v93]

/-- The output buffer at the end: everything after the second region applied to the 10000 rows of what the region leaves. -/
theorem V19_v98 (c : Dev nD) : Gen.V19 m o c (Proc.devRef .tc main_v98)
    = tailFn (extractStridedSlice S10000x256 ![0, 0] (o 10 main_v60 c) slices_S10240x256_S10000x256_0_0)
        (m ((c : Thread nD τ).loc main_arg2))
        (m ((c : Thread nD τ).loc main_arg7)) (m ((c : Thread nD τ).loc main_arg8))
        (m ((c : Thread nD τ).loc main_arg9)) (m ((c : Thread nD τ).loc main_arg10))
        (m ((c : Thread nD τ).loc main_arg11)) (m ((c : Thread nD τ).loc main_arg12))
        (m ((c : Thread nD τ).loc main_arg13)) (m ((c : Thread nD τ).loc main_arg14))
        (m ((c : Thread nD τ).loc main_arg15)) (m ((c : Thread nD τ).loc main_arg16)) := by
  show StableHlo.after hostOps2_8 (Gen.V18 m o c) (Proc.devRef .tc main_v98) = _
  rw [ops2_8_v98, V18_arg15, V18_arg16, V18_v93, V17_v92, V16_v88, V15_v87, V14_v83, V13_v82, V12_v78, V11_v77]
  rfl

end Cert.KernelIdeal.Hand

end
-- ==== Proof.Ref.Spec2.lean ====
/- The second convolution layer, over the first: the projected features are the first layer's rows against the second
   weight matrix, a contraction over the 256 hidden features. -/
import proofs.«143978_j4672924418728_1_alg».proof.Proof.Ref.Spec

noncomputable section

namespace Cert.Hand.Ref

open Idealize.ShloMosaic Idealize.ShloMosaic.ValueIdx
open scoped BigOperators

variable (C : ChainFacts)

/-- Projected features of the second layer at (p, f): Σ_k L(p, k) · W(k, f). -/
def hw2 (L : Fin 10000 → Fin 256 → EReal) (W : FVec Ideal ⟨2, ![256, 256]⟩ .f32) (p : Fin 10000) (f : Fin 256) : EReal :=
  ∑ k : Fin 256, L p k * W (ix2 k f)

/-- The second layer at node `d`, feature `f`. -/
def layer2 (x : FVec Ideal ⟨2, ![10000, 1]⟩ .f32) (ei : IVec SEI 32) (W1 : FVec Ideal ⟨2, ![1, 256]⟩ .f32)
    (b1 : FVec Ideal ⟨1, ![256]⟩ .f32) (W2 : FVec Ideal ⟨2, ![256, 256]⟩ .f32) (b2 : FVec Ideal ⟨1, ![256]⟩ .f32)
    (d : Fin 10000) (f : Fin 256) : EReal :=
  gcnRow C ei (hw2 (layer1 C x ei W1 b1) W2) (fun f => b2 (ix1 f)) d f

/-- The second layer as an array [10000, 256]. -/
def layer2Arr (x : FVec Ideal ⟨2, ![10000, 1]⟩ .f32) (ei : IVec SEI 32) (W1 : FVec Ideal ⟨2, ![1, 256]⟩ .f32)
    (b1 : FVec Ideal ⟨1, ![256]⟩ .f32) (W2 : FVec Ideal ⟨2, ![256, 256]⟩ .f32) (b2 : FVec Ideal ⟨1, ![256]⟩ .f32) :
    (⟨2, ![10000, 256]⟩ : Shape).Idx → EReal :=
  fun j => layer2 C x ei W1 b1 W2 b2 (j 0) (j 1)

end Cert.Hand.Ref

end
-- ==== Proof.KI.Layers.lean ====
/- The two convolution layers of the kernel program, entry by entry, are the specification's. A region leaves in its result array,
   at row d and feature f, max( (((((0 + S₀) + S₁) + S₂) + S₃) + S₄) + bias f, 0 ) over the dense matrix of the edge coefficients and the
   zero-padded projected features; with every edge index in [0, 10000) and real inputs that is the specification's
   max( (0 + Σ over the edges into d of h(source) f · coefficient) + bias f, 0 ). The first layer's h is x·W₁; the second's is the
   first layer's rows times W₂, which the host computes between the regions from the first region's result. The host operations
   after the second region then apply to the specification's second-layer array. -/
import proofs.«143978_j4672924418728_1_alg».proof.Proof.KI.RunVals
import proofs.«143978_j4672924418728_1_alg».proof.Proof.KI.Final1
import proofs.«143978_j4672924418728_1_alg».proof.Proof.KI.LayerEq
import proofs.«143978_j4672924418728_1_alg».proof.Proof.KI.HostSpec
import proofs.«143978_j4672924418728_1_alg».proof.Proof.KI.Mid
import proofs.«143978_j4672924418728_1_alg».proof.Proof.KI.Tail
import proofs.«143978_j4672924418728_1_alg».proof.Proof.Ref.Spec2
import proofs.«143978_j4672924418728_1_alg».proof.Proof.Ref.SpecFacts

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.GinMath Cert.Hand.Ref
open scoped BigOperators

variable (m : (ℓ : Loc nD τ sig) → Buf (Elt Ideal) ℓ) (c : Dev nD)

/- The argument arrays as launched: node features, edge indices, and the two layers' weights and biases. -/
set_option quotPrecheck false
local notation "x₀" => (m ((c : Thread nD τ).loc main_arg0) : FVec Ideal S10000x1 .f32)
local notation "ei₀" => (m ((c : Thread nD τ).loc main_arg1) : IVec S2x320000 32)
local notation "W₁" => (m ((c : Thread nD τ).loc main_arg3) : FVec Ideal S1x256 .f32)
local notation "b₁" => (m ((c : Thread nD τ).loc main_arg4) : FVec Ideal S256 .f32)
local notation "W₂" => (m ((c : Thread nD τ).loc main_arg5) : FVec Ideal S256x256 .f32)
local notation "b₂" => (m ((c : Thread nD τ).loc main_arg6) : FVec Ideal S256 .f32)

/-- Row d of the 10000 as a row of the padded 10240. -/
def padRow (d : Fin 10000) : Fin 10240 := ⟨d.val, by have := d.isLt; omega⟩

theorem padRow_mk (s : Fin 10240) (hs : s.val < 10000) : padRow ⟨s.val, hs⟩ = s := Fin.ext rfl

/-- The first layer's projected features are real when the features and weights are. -/
theorem xw1_real (x : FVec Ideal S10000x1 .f32) (W : FVec Ideal S1x256 .f32) (hx : ∀ i, IsReal (x i)) (hW : ∀ i, IsReal (W i))
    (p : Fin 10000) (f : Fin 256) : IsReal (xw1 x W p f) := by
  unfold xw1
  exact IsReal.sum fun k _ => (hx _).mul (hW _)

/-- An endpoint word in [0, 10000) is the node it names. -/
theorem dst_node (ei : IVec S2x320000 32) (hidx : ∀ j, 0 ≤ (ei j).toInt ∧ (ei j).toInt < 10000) (e : Fin 330000) :
    (dstV chain ei (ix1 e)).toInt = ((nodeOf (dstV chain ei (ix1 e))).val : ℤ) :=
  (nodeOf_val _ (dstV_range chain ei hidx e).1 (dstV_range chain ei hidx e).2).symm

theorem src_node (ei : IVec S2x320000 32) (hidx : ∀ j, 0 ≤ (ei j).toInt ∧ (ei j).toInt < 10000) (e : Fin 330000) :
    (srcV chain ei (ix1 e)).toInt = ((nodeOf (srcV chain ei (ix1 e))).val : ℤ) :=
  (nodeOf_val _ (srcV_range chain ei hidx e).1 (srcV_range chain ei hidx e).2).symm

/-- THE FIRST LAYER: what the first region leaves at row d < 10000, feature k, is the specification's first layer. -/
theorem L1K (hidx : ∀ j, 0 ≤ (ei₀ j).toInt ∧ (ei₀ j).toInt < 10000) (hx : ∀ i, IsReal (x₀ i)) (hW1 : ∀ i, IsReal (W₁ i))
    (d : Fin 10000) (k : Fin 256) :
    (outs m 6 main_v54 c : FVec Ideal S10240x256 .f32) (ix2 (padRow d) k) = layer1 chain x₀ ei₀ W₁ b₁ d k := by
  rw [outs6 m c, final0 (ent0 m) c]
  exact layerEntry_eq_gcnRow chain ei₀ _ _ _ (xw1 x₀ W₁) (fun f => b₁ (ix1 f))
    (dst_node ei₀ hidx) (src_node ei₀ hidx) (fun e => normV_real chain ei₀ e) (xw1_real x₀ W₁ hx hW1)
    (fun d' s' => V5_adj_apply chain m c hidx d' s') (fun s f => V5_h m c s f) (fun f => V5_b m c f) d k

/-- It is real when the inputs are. -/
theorem L1K_real (hx : ∀ i, IsReal (x₀ i)) (hW1 : ∀ i, IsReal (W₁ i)) (hb1 : ∀ i, IsReal (b₁ i))
    (d : Fin 10000) (k : Fin 256) : IsReal (layer1 chain x₀ ei₀ W₁ b₁ d k) := by
  unfold layer1
  exact isReal_gcnRow chain ei₀ (xw1 x₀ W₁) (fun f => b₁ (ix1 f)) (fun e => normV_real chain ei₀ e)
    (xw1_real x₀ W₁ hx hW1) (fun f => hb1 _) d k

/-- The second layer's projected features are real when the first layer and the weights are. -/
theorem hw2_real (L : Fin 10000 → Fin 256 → EReal) (W : FVec Ideal S256x256 .f32) (hL : ∀ p k, IsReal (L p k)) (hW : ∀ i, IsReal (W i))
    (p : Fin 10000) (f : Fin 256) : IsReal (hw2 L W p f) := by
  unfold hw2
  exact IsReal.sum fun k _ => (hL p k).mul (hW _)

/-- THE SECOND LAYER: what the second region leaves at row d < 10000, feature f, is the specification's second layer. -/
theorem L2K (hidx : ∀ j, 0 ≤ (ei₀ j).toInt ∧ (ei₀ j).toInt < 10000) (hx : ∀ i, IsReal (x₀ i)) (hW1 : ∀ i, IsReal (W₁ i))
    (hb1 : ∀ i, IsReal (b₁ i)) (hW2 : ∀ i, IsReal (W₂ i)) (d : Fin 10000) (f : Fin 256) :
    (outs m 10 main_v60 c : FVec Ideal S10240x256 .f32) (ix2 (padRow d) f) = layer2 chain x₀ ei₀ W₁ b₁ W₂ b₂ d f := by
  rw [outs10 m c, final1 (ent1 m) c]
  refine layerEntry_eq_gcnRow chain ei₀ _ _ _ (hw2 (layer1 chain x₀ ei₀ W₁ b₁) W₂) (fun f => b₂ (ix1 f))
    (dst_node ei₀ hidx) (src_node ei₀ hidx) (fun e => normV_real chain ei₀ e)
    (hw2_real _ W₂ (L1K_real m c hx hW1 hb1) hW2) (fun d' s' => ?_) (fun s f' => ?_) (fun f' => V9_v59_apply m (outs m) c f') d f
  · -- the matrix enters the second region as it entered the first
    show Gen.V9 m (outs m) c (Proc.devRef .tc main_v49) (ix2 d' s') = _
    rw [V9_v49 m (outs m) c]
    exact V5_adj_apply chain m c hidx d' s'
  · -- the feature operand: on a row of the 10000 the first layer's row against the weights, zero below
    show (Gen.V9 m (outs m) c (Proc.devRef .tc main_v58) : FVec Ideal S10240x256 .bf16) (ix2 s f') = _
    rw [V9_v58_apply m (outs m) c s f']
    by_cases hs : s.val < 10000
    · rw [if_pos hs, dif_pos hs]
      unfold hw2
      show (∑ k : Fin 256, _ : EReal) = ∑ k : Fin 256, _
      refine Finset.sum_congr rfl fun k _ => ?_
      rw [← L1K m c hidx hx hW1 ⟨s.val, hs⟩ k, padRow_mk s hs]
    · rw [if_neg hs, dif_neg hs]

/-- The second region's result cut back to its 10000 rows is the specification's second-layer array. -/
theorem slice_outs10 (hidx : ∀ j, 0 ≤ (ei₀ j).toInt ∧ (ei₀ j).toInt < 10000) (hx : ∀ i, IsReal (x₀ i)) (hW1 : ∀ i, IsReal (W₁ i))
    (hb1 : ∀ i, IsReal (b₁ i)) (hW2 : ∀ i, IsReal (W₂ i)) :
    (extractStridedSlice S10000x256 ![0, 0] (outs m 10 main_v60 c) slices_S10240x256_S10000x256_0_0
        : (⟨S10000x256, .f32⟩ : BufTy).Contents (Elt Ideal))
      = layer2Arr chain x₀ ei₀ W₁ b₁ W₂ b₂ := by
  funext j
  obtain ⟨d, f, rfl⟩ : ∃ (d : Fin 10000) (f : Fin 256), j = ix2 d f := ⟨j 0, j 1, eq_ix2 j⟩
  rw [extractStridedSlice_apply _ _ _ (ix2 d f) (ix2 (padRow d) f) (fun a => by
      match a with
      | ⟨0, _⟩ => show d.val = 0 + d.val; omega
      | ⟨1, _⟩ => show f.val = 0 + f.val; omega)]
  exact L2K m c hidx hx hW1 hb1 hW2 d f

/-- THE RESULT of the kernel program: the host operations after the second region applied to the specification's
    second-layer array, the graph vector and the ten weight and bias arrays of the dense layers. -/
theorem result_eq (hidx : ∀ j, 0 ≤ (ei₀ j).toInt ∧ (ei₀ j).toInt < 10000) (hx : ∀ i, IsReal (x₀ i)) (hW1 : ∀ i, IsReal (W₁ i))
    (hb1 : ∀ i, IsReal (b₁ i)) (hW2 : ∀ i, IsReal (W₂ i)) :
    Gen.V19 m (outs m) c (Proc.devRef .tc main_v98)
      = tailFn (F := Ideal) (layer2Arr chain x₀ ei₀ W₁ b₁ W₂ b₂)
          (m ((c : Thread nD τ).loc main_arg2))
          (m ((c : Thread nD τ).loc main_arg7)) (m ((c : Thread nD τ).loc main_arg8))
          (m ((c : Thread nD τ).loc main_arg9)) (m ((c : Thread nD τ).loc main_arg10))
          (m ((c : Thread nD τ).loc main_arg11)) (m ((c : Thread nD τ).loc main_arg12))
          (m ((c : Thread nD τ).loc main_arg13)) (m ((c : Thread nD τ).loc main_arg14))
          (m ((c : Thread nD τ).loc main_arg15)) (m ((c : Thread nD τ).loc main_arg16)) := by
  rw [V19_v98 m (outs m) c, slice_outs10 m c hidx hx hW1 hb1 hW2]

end Cert.KernelIdeal.Hand

end
-- ==== Proof.LibHostReduce2.lean ====
/-
  The two whole-array reductions of a rank-2 array on the host, read at the scalar's one index.

  A float `reduce … add` across both axes of an `n0 × n1` array into a scalar is, on the extended reals, the
  initial value plus the double sum of the entries. A `reduce … or` of one-bit entries across both axes is 1
  exactly when the initial bit is 1 or some entry is 1: the left fold of `or` from the initial bit over the
  entries in row-major order keeps a 1 once it has one and has none unless it met one.
-/
import Idealize.ShloMosaic.Lib.ReduceAll
import Idealize.ShloMosaic.Lib.ValueIdx
import Idealize.ShloMosaic.PureOps.Ideal
import Idealize.ShloMosaic.PureOps.Ideal.Laws

noncomputable section

namespace Cert.HostReduce2

open Idealize.ShloMosaic
open scoped BigOperators

/-! ## A left fold by `or` over one-bit words -/

/-- A left fold by `or` over `i1` words is 1 exactly when it started at 1 or met a 1. -/
theorem foldl_ori_eq_one {ι : Type} (f : ι → BitVec 1) :
    ∀ (l : List ι) (init : BitVec 1),
      l.foldl (fun r n => IntOp.ori r (f n)) init = 1#1 ↔ init = 1#1 ∨ ∃ n ∈ l, f n = 1#1
  | [], init => by simp
  | a :: l, init => by
    rw [List.foldl_cons, foldl_ori_eq_one f l, IntOp.ori_eq_one]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

/-! ## `jnp.any`: a reduce by `or` over all axes -/

/-- A `stablehlo.reduce` by `or` into a result of one index is 1 exactly when its initial bit is 1 or some operand
    element is 1 (the twin of `Host.reduce_andi_all`). -/
theorem reduce_ori_eq_one_iff {s t u : Shape} {axes : List (Fin s.rank)} [Subsingleton t.Idx]
    (x : s.Idx → BitVec 1) (init : u.Idx → BitVec 1) (h : s.ReducesTo axes t) (hu : 0 < u.numel) (j : t.Idx) :
    Host.reduce IntOp.ori x init h hu j = 1#1 ↔ init (Shape.Idx.first hu) = 1#1 ∨ ∃ i, x i = 1#1 := by
  rw [Host.reduce_eq_foldl, foldl_ori_eq_one]
  refine or_congr Iff.rfl ⟨fun ⟨i, _, hi⟩ => ⟨i, hi⟩, fun ⟨i, hi⟩ => ⟨i, ?_, hi⟩⟩
  rw [List.mem_filter]
  exact ⟨List.mem_map.2 ⟨s.rowMajor i, List.mem_finRange _, Equiv.symm_apply_apply _ _⟩,
    by simp [Subsingleton.elim (h.drop i) j]⟩

/-! ## Rank 2 -/

/-- The scalar shape has one index. -/
instance : Subsingleton (⟨0, ![]⟩ : Shape).Idx := ⟨fun _ _ => funext fun d => d.elim0⟩

/-- A rank-2 index is its pair of coordinates. -/
def idx2Equiv (n0 n1 : Nat) : Fin n0 × Fin n1 ≃ (⟨2, ![n0, n1]⟩ : Shape).Idx where
  toFun p := ValueIdx.ix2 p.1 p.2
  invFun i := (i 0, i 1)
  left_inv _ := rfl
  right_inv i := (ValueIdx.eq_ix2 i).symm

/-- A sum over the indices of a rank-2 shape is the double sum over its coordinates. -/
theorem sum_idx2 {M : Type*} [AddCommMonoid M] {n0 n1 : Nat} (g : (⟨2, ![n0, n1]⟩ : Shape).Idx → M) :
    ∑ i, g i = ∑ a : Fin n0, ∑ b : Fin n1, g (ValueIdx.ix2 a b) :=
  ((Equiv.sum_comp (idx2Equiv n0 n1) g).symm).trans (Fintype.sum_prod_type _)

/-- The host's float sum of an `n0 × n1` array across both axes, on the extended reals: the initial value plus the
    double sum of the entries. -/
theorem reduceAdd_rank2 {φ : FTy} {n0 n1 : Nat} (x : FVec Ideal (⟨2, ![n0, n1]⟩ : Shape) φ)
    (v : FVec Ideal (⟨0, ![]⟩ : Shape) φ) (h : (⟨2, ![n0, n1]⟩ : Shape).ReducesTo [0, 1] (⟨0, ![]⟩ : Shape))
    (hpos : 0 < (⟨0, ![]⟩ : Shape).numel) :
    Host.reduceAdd (F := Ideal) x v h hpos ValueIdx.ix0
      = v ValueIdx.ix0 + ∑ i : Fin n0, ∑ j : Fin n1, x (ValueIdx.ix2 i j) := by
  show Ideal.hostReduceAdd h x (v (Shape.Idx.first hpos)) ValueIdx.ix0 = _
  rw [Ideal.hostReduceAdd_total h (fun b => b.elim0) x _ ValueIdx.ix0, sum_idx2,
    ValueIdx.eq_ix0 (Shape.Idx.first hpos)]

/-- The host's `or` of an `n0 × n1` array of bits across both axes: 1 exactly when the initial bit is 1 or some
    entry is 1. -/
theorem reduce_ori_rank2 {n0 n1 : Nat} (x : IVec (⟨2, ![n0, n1]⟩ : Shape) 1) (v : IVec (⟨0, ![]⟩ : Shape) 1)
    (h : (⟨2, ![n0, n1]⟩ : Shape).ReducesTo [0, 1] (⟨0, ![]⟩ : Shape)) (hpos : 0 < (⟨0, ![]⟩ : Shape).numel) :
    Host.reduce IntOp.ori x v h hpos ValueIdx.ix0 = 1#1
      ↔ (v ValueIdx.ix0 = 1#1 ∨ ∃ (i : Fin n0) (j : Fin n1), x (ValueIdx.ix2 i j) = 1#1) := by
  rw [reduce_ori_eq_one_iff x v h hpos ValueIdx.ix0, ValueIdx.eq_ix0 (Shape.Idx.first hpos)]
  refine or_congr Iff.rfl ⟨fun ⟨i, hi⟩ => ⟨i 0, i 1, ?_⟩, fun ⟨i, j, hij⟩ => ⟨_, hij⟩⟩
  exact (congrArg x (ValueIdx.eq_ix2 i)).symm.trans hi

end Cert.HostReduce2

end
-- ==== Proof.Ref.Pre.lean ====
/-
  The precondition read back. The printed predicate is a conjunction of seventeen whole-array tests: for each of the
  fifteen float arrays, that every entry's absolute value lies below +∞, and for the edge-index array, that every
  entry is at least 0 and below 10000 as a signed word. Each test is a reduction by `and` over all axes, so when
  the conjunction is 1 every entry passes its test. On the extended reals an entry whose absolute value
  `max x (-x)` is below `⊤` is neither infinity, that is, it is a real number; and a signed comparison that
  answers 1 is the inequality between the words' integer values.
-/
import proofs.«143978_j4672924418728_1_alg».proof.Pre_finite_inputs
import proofs.«143978_j4672924418728_1_alg».proof.Proof.LibReal
import proofs.«143978_j4672924418728_1_alg».proof.Proof.LibHostReduce2
import Idealize.ShloMosaic.Lib.ReduceAll
import Idealize.ShloMosaic.Lib.Affine

noncomputable section

namespace Cert.Hand.Ref

open Idealize.ShloMosaic Cert.GinMath Cert.Pre_finite_inputs

/-- One float test: if the reduction by `and` of the entrywise comparison `|a| < +∞` over all axes is 1, every
    entry of `a` is real. -/
theorem real_of_all {s : Shape} {ax : List (Fin s.rank)} (a : FVec Ideal s .f32)
    (hb : S_.BroadcastsInDim s (![] : Fin 0 → Fin s.rank)) (hr : s.ReducesTo ax S_) (hu : 0 < S_.numel)
    (init : IVec S_ 1) (j : S_.Idx)
    (e : Host.reduce IntOp.andi (cmpf .olt (Host.absf a) (broadcastInDim s ![] hb (constant S_ .f32 0x7F800000#32)))
      init hr hu j = 1#1) (i : s.Idx) : IsReal (a i) :=
  isReal_of_cmp_abs_lt_inf (Host.reduce_andi_all _ _ hr hu j e i)

/-- One signed lower-bound test on 32-bit words: all entries are at least the constant's integer value. -/
theorem ge_of_all {s : Shape} {ax : List (Fin s.rank)} (a : IVec s 32) (k : BitVec 32)
    (hb : S_.BroadcastsInDim s (![] : Fin 0 → Fin s.rank)) (hr : s.ReducesTo ax S_) (hu : 0 < S_.numel)
    (init : IVec S_ 1) (j : S_.Idx)
    (e : Host.reduce IntOp.andi (cmpi .sge a (broadcastInDim s ![] hb (constantI S_ 32 k))) init hr hu j = 1#1)
    (i : s.Idx) : k.toInt ≤ (a i).toInt :=
  IntOp.cmpi_sge.1 (Host.reduce_andi_all _ _ hr hu j e i)

/-- One signed upper-bound test on 32-bit words: all entries are below the constant's integer value. -/
theorem lt_of_all {s : Shape} {ax : List (Fin s.rank)} (a : IVec s 32) (k : BitVec 32)
    (hb : S_.BroadcastsInDim s (![] : Fin 0 → Fin s.rank)) (hr : s.ReducesTo ax S_) (hu : 0 < S_.numel)
    (init : IVec S_ 1) (j : S_.Idx)
    (e : Host.reduce IntOp.andi (cmpi .slt a (broadcastInDim s ![] hb (constantI S_ 32 k))) init hr hu j = 1#1)
    (i : s.Idx) : (a i).toInt < k.toInt :=
  IntOp.cmpi_slt.1 (Host.reduce_andi_all _ _ hr hu j e i)

variable [Cert.Pre_finite_inputs.Facts]
variable {a0 : FVec Ideal S10000x1 .f32} {a1 : IVec S2x320000 32} {a2 : IVec S10000 32} {a3 : FVec Ideal S1x256 .f32} {a4 : FVec Ideal S256 .f32} {a5 : FVec Ideal S256x256 .f32} {a6 : FVec Ideal S256 .f32} {a7 : FVec Ideal S256x128 .f32} {a8 : FVec Ideal S128 .f32} {a9 : FVec Ideal S128x128 .f32} {a10 : FVec Ideal S128 .f32} {a11 : FVec Ideal S128x64 .f32} {a12 : FVec Ideal S64 .f32} {a13 : FVec Ideal S64x32 .f32} {a14 : FVec Ideal S32 .f32} {a15 : FVec Ideal S32x1 .f32} {a16 : FVec Ideal S1 .f32}

/-- The precondition decoded: every entry of each float array is real, and every edge index lies in [0, 10000). -/
theorem pre_all (h : fn (F := Ideal) a0 a1 a2 a3 a4 a5 a6 a7 a8 a9 a10 a11 a12 a13 a14 a15 a16 = fun _ => 1#1) :
    (∀ i, IsReal (a0 i))
      ∧ (∀ i, IsReal (a3 i))
      ∧ (∀ i, IsReal (a4 i))
      ∧ (∀ i, IsReal (a5 i))
      ∧ (∀ i, IsReal (a6 i))
      ∧ (∀ i, IsReal (a7 i))
      ∧ (∀ i, IsReal (a8 i))
      ∧ (∀ i, IsReal (a9 i))
      ∧ (∀ i, IsReal (a10 i))
      ∧ (∀ i, IsReal (a11 i))
      ∧ (∀ i, IsReal (a12 i))
      ∧ (∀ i, IsReal (a13 i))
      ∧ (∀ i, IsReal (a14 i))
      ∧ (∀ i, IsReal (a15 i))
      ∧ (∀ i, IsReal (a16 i))
      ∧ (∀ j, 0 ≤ (a1 j).toInt) ∧ (∀ j, (a1 j).toInt < 10000) := by
  have e := congrFun h ValueIdx.ix0
  dsimp only [fn, fn_part1, fn_part2, fn_part3, fn_part4, andi] at e
  simp only [IntOp.andi_eq_one] at e
  obtain ⟨⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, eGe⟩, eLt⟩ := e
  refine ⟨fun i => real_of_all _ _ _ _ _ _ e0 i,
    fun i => real_of_all _ _ _ _ _ _ e3 i,
    fun i => real_of_all _ _ _ _ _ _ e4 i,
    fun i => real_of_all _ _ _ _ _ _ e5 i,
    fun i => real_of_all _ _ _ _ _ _ e6 i,
    fun i => real_of_all _ _ _ _ _ _ e7 i,
    fun i => real_of_all _ _ _ _ _ _ e8 i,
    fun i => real_of_all _ _ _ _ _ _ e9 i,
    fun i => real_of_all _ _ _ _ _ _ e10 i,
    fun i => real_of_all _ _ _ _ _ _ e11 i,
    fun i => real_of_all _ _ _ _ _ _ e12 i,
    fun i => real_of_all _ _ _ _ _ _ e13 i,
    fun i => real_of_all _ _ _ _ _ _ e14 i,
    fun i => real_of_all _ _ _ _ _ _ e15 i,
    fun i => real_of_all _ _ _ _ _ _ e16 i,
    fun j => ?_, fun j => ?_⟩
  · exact ge_of_all _ _ _ _ _ _ _ eGe j
  · exact lt_of_all _ _ _ _ _ _ _ eLt j

theorem pre_real_arg0 (h : fn (F := Ideal) a0 a1 a2 a3 a4 a5 a6 a7 a8 a9 a10 a11 a12 a13 a14 a15 a16 = fun _ => 1#1) (i) : IsReal (a0 i) :=
  (pre_all h).1 i

theorem pre_real_arg3 (h : fn (F := Ideal) a0 a1 a2 a3 a4 a5 a6 a7 a8 a9 a10 a11 a12 a13 a14 a15 a16 = fun _ => 1#1) (i) : IsReal (a3 i) :=
  (pre_all h).2.1 i

theorem pre_real_arg4 (h : fn (F := Ideal) a0 a1 a2 a3 a4 a5 a6 a7 a8 a9 a10 a11 a12 a13 a14 a15 a16 = fun _ => 1#1) (i) : IsReal (a4 i) :=
  (pre_all h).2.2.1 i

theorem pre_real_arg5 (h : fn (F := Ideal) a0 a1 a2 a3 a4 a5 a6 a7 a8 a9 a10 a11 a12 a13 a14 a15 a16 = fun _ => 1#1) (i) : IsReal (a5 i) :=
  (pre_all h).2.2.2.1 i

theorem pre_real_arg6 (h : fn (F := Ideal) a0 a1 a2 a3 a4 a5 a6 a7 a8 a9 a10 a11 a12 a13 a14 a15 a16 = fun _ => 1#1) (i) : IsReal (a6 i) :=
  (pre_all h).2.2.2.2.1 i

theorem pre_real_arg7 (h : fn (F := Ideal) a0 a1 a2 a3 a4 a5 a6 a7 a8 a9 a10 a11 a12 a13 a14 a15 a16 = fun _ => 1#1) (i) : IsReal (a7 i) :=
  (pre_all h).2.2.2.2.2.1 i

theorem pre_real_arg8 (h : fn (F := Ideal) a0 a1 a2 a3 a4 a5 a6 a7 a8 a9 a10 a11 a12 a13 a14 a15 a16 = fun _ => 1#1) (i) : IsReal (a8 i) :=
  (pre_all h).2.2.2.2.2.2.1 i

theorem pre_real_arg9 (h : fn (F := Ideal) a0 a1 a2 a3 a4 a5 a6 a7 a8 a9 a10 a11 a12 a13 a14 a15 a16 = fun _ => 1#1) (i) : IsReal (a9 i) :=
  (pre_all h).2.2.2.2.2.2.2.1 i

theorem pre_real_arg10 (h : fn (F := Ideal) a0 a1 a2 a3 a4 a5 a6 a7 a8 a9 a10 a11 a12 a13 a14 a15 a16 = fun _ => 1#1) (i) : IsReal (a10 i) :=
  (pre_all h).2.2.2.2.2.2.2.2.1 i

theorem pre_real_arg11 (h : fn (F := Ideal) a0 a1 a2 a3 a4 a5 a6 a7 a8 a9 a10 a11 a12 a13 a14 a15 a16 = fun _ => 1#1) (i) : IsReal (a11 i) :=
  (pre_all h).2.2.2.2.2.2.2.2.2.1 i

theorem pre_real_arg12 (h : fn (F := Ideal) a0 a1 a2 a3 a4 a5 a6 a7 a8 a9 a10 a11 a12 a13 a14 a15 a16 = fun _ => 1#1) (i) : IsReal (a12 i) :=
  (pre_all h).2.2.2.2.2.2.2.2.2.2.1 i

theorem pre_real_arg13 (h : fn (F := Ideal) a0 a1 a2 a3 a4 a5 a6 a7 a8 a9 a10 a11 a12 a13 a14 a15 a16 = fun _ => 1#1) (i) : IsReal (a13 i) :=
  (pre_all h).2.2.2.2.2.2.2.2.2.2.2.1 i

theorem pre_real_arg14 (h : fn (F := Ideal) a0 a1 a2 a3 a4 a5 a6 a7 a8 a9 a10 a11 a12 a13 a14 a15 a16 = fun _ => 1#1) (i) : IsReal (a14 i) :=
  (pre_all h).2.2.2.2.2.2.2.2.2.2.2.2.1 i

theorem pre_real_arg15 (h : fn (F := Ideal) a0 a1 a2 a3 a4 a5 a6 a7 a8 a9 a10 a11 a12 a13 a14 a15 a16 = fun _ => 1#1) (i) : IsReal (a15 i) :=
  (pre_all h).2.2.2.2.2.2.2.2.2.2.2.2.2.1 i

theorem pre_real_arg16 (h : fn (F := Ideal) a0 a1 a2 a3 a4 a5 a6 a7 a8 a9 a10 a11 a12 a13 a14 a15 a16 = fun _ => 1#1) (i) : IsReal (a16 i) :=
  (pre_all h).2.2.2.2.2.2.2.2.2.2.2.2.2.2.1 i

/-- Every edge index is a node number: at least 0 and below 10000, read as a signed word. -/
theorem pre_index_range (h : fn (F := Ideal) a0 a1 a2 a3 a4 a5 a6 a7 a8 a9 a10 a11 a12 a13 a14 a15 a16 = fun _ => 1#1) (j) :
    0 ≤ (a1 j).toInt ∧ (a1 j).toInt < 10000 :=
  ⟨(pre_all h).2.2.2.2.2.2.2.2.2.2.2.2.2.2.2.1 j, (pre_all h).2.2.2.2.2.2.2.2.2.2.2.2.2.2.2.2 j⟩

end Cert.Hand.Ref

end
-- ==== Proof.LibEdgeSum.lean ====
import proofs.«143978_j4672924418728_1_alg».proof.Proof.LibReal
import proofs.«143978_j4672924418728_1_alg».proof.Proof.LibRowIndex

/-!
# A scatter-add of rows as a sum over edges, and projecting before or after aggregating

A scatter-add of E update rows into an [N, C] array, the e-th row landing on the row its scatter index names,
leaves at entry (p, q) the operand's entry plus the sum, over the edges e whose index is p, of update (e, q).

If every update row is a weight a_e times a feature row x_e, then multiplying the aggregated row by a matrix
column w is aggregating the projected rows: Σ_k (Σ_e a_e x_{e,k}) w_k = Σ_e a_e (Σ_k x_{e,k} w_k) — on the
extended reals this needs every number to be real, since products do not distribute over sums that meet
both infinities.
-/

noncomputable section

namespace Cert.EdgeSum

open Idealize.ShloMosaic Idealize.ShloMosaic.ValueIdx Cert.GinMath Cert.RowIndex
open scoped BigOperators

/-- A scatter-add of rows at entry (p, q): the operand there plus the updates (e, q) of the edges e whose
    scatter index, read signed, is p. -/
theorem rowScatterAdd_apply {N E C w : Nat}
    (wf : ScatterDims.WF ⟨2, ![N, C]⟩ ⟨2, ![E, 1]⟩ ⟨2, ![E, C]⟩ [1] [0] [0] 1)
    (z : (⟨2, ![N, C]⟩ : Shape).Idx → EReal) (idx : IVec ⟨2, ![E, 1]⟩ w)
    (u : (⟨2, ![E, C]⟩ : Shape).Idx → EReal) (p : Fin N) (q : Fin C) :
    Host.scatterAdd (F := Ideal) (φ := .f32) (rowScatterDims N E C wf) z idx u (ix2 p q)
      = z (ix2 p q)
        + ∑ e ∈ Finset.univ.filter (fun e : Fin E => (idx (ix2 e (0 : Fin 1))).toInt = (p.val : ℤ)), u (ix2 e q) := by
  show Ideal.hostScatterAdd (rowScatterDims N E C wf) z idx u (ix2 p q) = _
  unfold Ideal.hostScatterAdd
  congr 1
  refine Finset.sum_nbij' (fun j => j 0) (fun e => ix2 e q) ?_ ?_ ?_ ?_ ?_
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    exact Finset.mem_filter.mpr ⟨Finset.mem_univ _, h.1⟩
  · intro e he
    exact Finset.mem_filter.mpr ⟨Finset.mem_univ _,
      (rowScatter_resultIdx wf idx e q p q).mpr ⟨(Finset.mem_filter.mp he).2, rfl⟩⟩
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    show ix2 e q = ix2 e c
    rw [h.2]
  · intro e _
    rfl
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    show u (ix2 e c) = u (ix2 e q)
    rw [h.2]

/-- Projecting the aggregated row is aggregating the projected rows, all numbers being real. -/
theorem project_aggregate {ι κ : Type*} [Fintype κ] (S : Finset ι) (a : ι → EReal) (x : ι → κ → EReal) (w : κ → EReal)
    (ha : ∀ e, IsReal (a e)) (hx : ∀ e k, IsReal (x e k)) (hw : ∀ k, IsReal (w k)) :
    ∑ k : κ, (0 + ∑ e ∈ S, a e * x e k) * w k = 0 + ∑ e ∈ S, a e * ∑ k : κ, x e k * w k := by
  classical
  obtain ⟨a', ha'⟩ := exists_real_fun ha
  obtain ⟨w', hw'⟩ := exists_real_fun hw
  obtain ⟨x', hx'⟩ := exists_real_fun (f := fun q : ι × κ => x q.1 q.2) (fun q => hx q.1 q.2)
  have hxe : ∀ e k, x e k = ((x' (e, k) : ℝ) : EReal) := fun e k => hx' (e, k)
  simp only [ha', hw', hxe, zero_add, ← EReal.coe_mul, ← coe_sum]
  congr 1
  simp only [Finset.sum_mul, Finset.mul_sum]
  rw [Finset.sum_comm]
  refine Finset.sum_congr rfl fun e _ => Finset.sum_congr rfl fun k _ => ?_
  ring

end Cert.EdgeSum

end
-- ==== Proof.Ref.Value1.lean ====
/-
  The reference's first layer, read at a node and a feature.

  The reference computes the edge coefficients by the chain of the specification, gathers the projected features
  x·W₁ at the edges' sources (indexing wraps negative words and the gather clamps into [0, 9999]: both leave a word
  of [0, 10000) alone), scales each gathered row by its edge's coefficient, scatter-adds the rows at the edges'
  targets into zeros, adds the bias and clips at zero. At node d and feature f that is
      max((0 + Σ_{e : target(e) = d} (x·W₁)(source(e), f) · coefficient(e)) + b₁(f), 0).
-/
import proofs.«143978_j4672924418728_1_alg».proof.Proof.Ref.Imports
import proofs.«143978_j4672924418728_1_alg».proof.Proof.LibEdgeSum
import proofs.«143978_j4672924418728_1_alg».proof.Proof.Ref.SpecFacts

noncomputable section

namespace Cert.Hand.Ref

open Idealize.ShloMosaic Idealize.ShloMosaic.ValueIdx Cert.GinMath Cert.RowIndex Cert.EdgeSum
open Cert.ReferenceIdeal Cert.ReferenceIdeal.Gen Cert.ReferenceIdeal.ReadP
open scoped BigOperators

/-! ## The reference's stages are the specification's chain -/

theorem v3_eq (ei : IVec S2x320000 32) : val_main_v3 (F := Ideal) ei = srcV chain ei := rfl

theorem v6_eq (ei : IVec S2x320000 32) : val_main_v6 (F := Ideal) ei = dstV chain ei := rfl

theorem v10_eq (ei : IVec S2x320000 32) : val_main_v10 (F := Ideal) ei = degV chain ei := rfl

theorem v18_eq (ei : IVec S2x320000 32) : val_main_v18 (F := Ideal) ei = dinvV chain ei := by
  unfold val_main_v18 val_main_v12 val_main_v17 val_main_v15 val_main_v14 dinvV
  rw [v10_eq]
  rfl

theorem v33_eq (ei : IVec S2x320000 32) : val_main_v33 (F := Ideal) ei = normV chain ei := by
  unfold val_main_v33 val_main_v25 val_main_v32 normV
  rw [v18_eq]
  rfl

theorem v40_eq (ei : IVec S2x320000 32) : val_main_v40 (F := Ideal) ei = colV chain (wrapV chain (srcV chain ei)) := rfl

theorem v46_eq (ei : IVec S2x320000 32) : val_main_v46 (F := Ideal) ei = colV chain (dstV chain ei) := rfl

/-! ## The first layer at (d, f) -/

variable (x0 : FVec Ideal S10000x1 .f32) (ei : IVec S2x320000 32) (x3 : FVec Ideal S1x256 .f32)
  (x4 : FVec Ideal S256 .f32)

/-- The projection x·W₁ at (p, f). -/
theorem v34_at (p : Fin 10000) (f : Fin 256) : val_main_v34 (F := Ideal) x0 x3 (ix2 p f) = xw1 x0 x3 p f := by
  rw [val_main_v34_apply]
  unfold xw1
  refine Finset.sum_congr rfl fun k _ => ?_
  have el : lidx_main_v34 (ix2 p f) k = ix2 p k := funext fun a => by
    match a with
    | ⟨0, _⟩ => rfl
    | ⟨1, _⟩ => rfl
  have er : ridx_main_v34 (ix2 p f) k = ix2 k f := funext fun a => by
    match a with
    | ⟨0, _⟩ => rfl
    | ⟨1, _⟩ => rfl
  rw [el, er]

/-- The gathered row of edge e at feature f: the projection at the edge's source node. -/
theorem v41_at (hidx : ∀ j, 0 ≤ (ei j).toInt ∧ (ei j).toInt < 10000) (e : Fin 330000) (f : Fin 256) :
    val_main_v41 (F := Ideal) x0 ei x3 (ix2 e f) = xw1 x0 x3 (nodeOf (srcV chain ei (ix1 e))) f := by
  refine (rowGather_apply (N := 10000) (E := 330000) (C := 256) (by decide)
    gather_S10000x256_S330000x1_S330000x256_1_0_n_n_0_1_1256_wf (val_main_v34 (F := Ideal) x0 x3)
    (val_main_v40 (F := Ideal) ei) e f).trans ?_
  rw [v40_eq, clampRow_col_wrap chain _ e (srcV_range chain ei hidx e).1]
  exact v34_at x0 x3 _ f

/-- The coefficient column broadcast along the features, at (e, f). -/
theorem v43_at (e : Fin 330000) (f : Fin 256) : val_main_v43 (F := Ideal) ei (ix2 e f) = normV chain ei (ix1 e) := by
  rw [val_main_v43_apply, val_main_v42_apply, v33_eq]
  exact congrArg (normV chain ei) (funext fun a => by
    match a with
    | ⟨0, _⟩ => rfl)

/-- The bias row broadcast down the nodes, at (d, f). -/
theorem v49_at (d : Fin 10000) (f : Fin 256) : val_main_v49 (F := Ideal) x4 (ix2 d f) = x4 (ix1 f) := by
  rw [val_main_v49_apply, val_main_v48_apply]
  exact congrArg x4 (funext fun a => by
    match a with
    | ⟨0, _⟩ => rfl)

/-- The scatter-add at (d, f): zero plus, over the edges into d, the scaled gathered rows. -/
theorem v47_at (hidx : ∀ j, 0 ≤ (ei j).toInt ∧ (ei j).toInt < 10000) (d : Fin 10000) (f : Fin 256) :
    val_main_v47 (F := Ideal) x0 ei x3 (ix2 d f)
      = 0 + ∑ e ∈ edgesInto chain ei d, xw1 x0 x3 (nodeOf (srcV chain ei (ix1 e))) f * normV chain ei (ix1 e) := by
  refine (rowScatterAdd_apply (N := 10000) (E := 330000) (C := 256)
    scatter_S10000x256_S330000x1_S330000x256_1_0_0_1_wf (val_main_v45 (F := Ideal))
    (val_main_v46 (F := Ideal) ei) (val_main_v44 (F := Ideal) x0 ei x3) d f).trans ?_
  have h45 : val_main_v45 (F := Ideal) (ix2 d f) = 0 := by
    rw [val_main_v45_apply, val_main_cst_10_apply, Ideal.ofBits_def]
    exact ofBits_zero
  rw [h45]
  unfold edgesInto
  simp only [v46_eq, colV_apply]
  refine congrArg (fun s => (0 : EReal) + s) (Finset.sum_congr rfl fun e _ => ?_)
  rw [val_main_v44_apply, v41_at x0 ei x3 hidx e f, v43_at ei e f]
  rfl

/-- THE FIRST LAYER of the reference at node d, feature f. -/
theorem v51_at (hidx : ∀ j, 0 ≤ (ei j).toInt ∧ (ei j).toInt < 10000) (d : Fin 10000) (f : Fin 256) :
    val_main_v51 (F := Ideal) x0 ei x3 x4 (ix2 d f) = layer1 chain x0 ei x3 x4 d f := by
  have hz : val_main_call1_v0 (F := Ideal) (ix2 d f) = 0 := by
    rw [val_main_call1_v0_apply, val_main_call1_cst_apply, Ideal.ofBits_def]
    exact ofBits_zero
  rw [val_main_v51_apply, val_main_v50_apply, v47_at x0 ei x3 hidx d f, v49_at x4 d f, hz]
  rfl

end Cert.Hand.Ref

end
-- ==== Proof.Ref.Value2.lean ====
/-
  The reference's second layer, read at a node and a feature: the same aggregation as the first layer, applied to
  the first layer's output times W₂, with the edge coefficients computed a second time by the same chain:
      max((0 + Σ_{e : target(e) = d} (h·W₂)(source(e), f) · coefficient(e)) + b₂(f), 0).
-/
import proofs.«143978_j4672924418728_1_alg».proof.Proof.Ref.Imports
import proofs.«143978_j4672924418728_1_alg».proof.Proof.LibEdgeSum
import proofs.«143978_j4672924418728_1_alg».proof.Proof.Ref.SpecFacts
import proofs.«143978_j4672924418728_1_alg».proof.Proof.Ref.Spec2
import proofs.«143978_j4672924418728_1_alg».proof.Proof.Ref.Value1

noncomputable section

namespace Cert.Hand.Ref

open Idealize.ShloMosaic Idealize.ShloMosaic.ValueIdx Cert.GinMath Cert.RowIndex Cert.EdgeSum
open Cert.ReferenceIdeal Cert.ReferenceIdeal.Gen Cert.ReferenceIdeal.ReadP
open scoped BigOperators

/-! ## The second copy of the chain -/

theorem v55_eq (ei : IVec S2x320000 32) : val_main_v55 (F := Ideal) ei = srcV chain ei := rfl

theorem v58_eq (ei : IVec S2x320000 32) : val_main_v58 (F := Ideal) ei = dstV chain ei := rfl

theorem v62_eq (ei : IVec S2x320000 32) : val_main_v62 (F := Ideal) ei = degV chain ei := rfl

theorem v70_eq (ei : IVec S2x320000 32) : val_main_v70 (F := Ideal) ei = dinvV chain ei := by
  unfold val_main_v70 val_main_v64 val_main_v69 val_main_v67 val_main_v66 dinvV
  rw [v62_eq]
  rfl

theorem v85_eq (ei : IVec S2x320000 32) : val_main_v85 (F := Ideal) ei = normV chain ei := by
  unfold val_main_v85 val_main_v77 val_main_v84 normV
  rw [v70_eq]
  rfl

theorem v92_eq (ei : IVec S2x320000 32) : val_main_v92 (F := Ideal) ei = colV chain (wrapV chain (srcV chain ei)) := rfl

theorem v98_eq (ei : IVec S2x320000 32) : val_main_v98 (F := Ideal) ei = colV chain (dstV chain ei) := rfl

/-! ## The second layer at (d, f) -/

variable (x0 : FVec Ideal S10000x1 .f32) (ei : IVec S2x320000 32) (x3 : FVec Ideal S1x256 .f32)
  (x4 : FVec Ideal S256 .f32) (x5 : FVec Ideal S256x256 .f32) (x6 : FVec Ideal S256 .f32)

/-- The projection h·W₂ at (p, f), h the first layer's output. -/
theorem v86_at (hidx : ∀ j, 0 ≤ (ei j).toInt ∧ (ei j).toInt < 10000) (p : Fin 10000) (f : Fin 256) :
    val_main_v86 (F := Ideal) x0 ei x3 x4 x5 (ix2 p f) = hw2 (layer1 chain x0 ei x3 x4) x5 p f := by
  rw [val_main_v86_apply]
  unfold hw2
  refine Finset.sum_congr rfl fun k _ => ?_
  have el : lidx_main_v86 (ix2 p f) k = ix2 p k := funext fun a => by
    match a with
    | ⟨0, _⟩ => rfl
    | ⟨1, _⟩ => rfl
  have er : ridx_main_v86 (ix2 p f) k = ix2 k f := funext fun a => by
    match a with
    | ⟨0, _⟩ => rfl
    | ⟨1, _⟩ => rfl
  rw [el, er, v51_at x0 ei x3 x4 hidx p k]

theorem v93_at (hidx : ∀ j, 0 ≤ (ei j).toInt ∧ (ei j).toInt < 10000) (e : Fin 330000) (f : Fin 256) :
    val_main_v93 (F := Ideal) x0 ei x3 x4 x5 (ix2 e f)
      = hw2 (layer1 chain x0 ei x3 x4) x5 (nodeOf (srcV chain ei (ix1 e))) f := by
  refine (rowGather_apply (N := 10000) (E := 330000) (C := 256) (by decide)
    gather_S10000x256_S330000x1_S330000x256_1_0_n_n_0_1_1256_wf (val_main_v86 (F := Ideal) x0 ei x3 x4 x5)
    (val_main_v92 (F := Ideal) ei) e f).trans ?_
  rw [v92_eq, clampRow_col_wrap chain _ e (srcV_range chain ei hidx e).1]
  exact v86_at x0 ei x3 x4 x5 hidx _ f

theorem v95_at (e : Fin 330000) (f : Fin 256) : val_main_v95 (F := Ideal) ei (ix2 e f) = normV chain ei (ix1 e) := by
  rw [val_main_v95_apply, val_main_v94_apply, v85_eq]
  exact congrArg (normV chain ei) (funext fun a => by
    match a with
    | ⟨0, _⟩ => rfl)

theorem v101_at (d : Fin 10000) (f : Fin 256) : val_main_v101 (F := Ideal) x6 (ix2 d f) = x6 (ix1 f) := by
  rw [val_main_v101_apply, val_main_v100_apply]
  exact congrArg x6 (funext fun a => by
    match a with
    | ⟨0, _⟩ => rfl)

theorem v99_at (hidx : ∀ j, 0 ≤ (ei j).toInt ∧ (ei j).toInt < 10000) (d : Fin 10000) (f : Fin 256) :
    val_main_v99 (F := Ideal) x0 ei x3 x4 x5 (ix2 d f)
      = 0 + ∑ e ∈ edgesInto chain ei d,
          hw2 (layer1 chain x0 ei x3 x4) x5 (nodeOf (srcV chain ei (ix1 e))) f * normV chain ei (ix1 e) := by
  refine (rowScatterAdd_apply (N := 10000) (E := 330000) (C := 256)
    scatter_S10000x256_S330000x1_S330000x256_1_0_0_1_wf (val_main_v97 (F := Ideal))
    (val_main_v98 (F := Ideal) ei) (val_main_v96 (F := Ideal) x0 ei x3 x4 x5) d f).trans ?_
  have h97 : val_main_v97 (F := Ideal) (ix2 d f) = 0 := by
    rw [val_main_v97_apply, val_main_cst_23_apply, Ideal.ofBits_def]
    exact ofBits_zero
  rw [h97]
  unfold edgesInto
  simp only [v98_eq, colV_apply]
  refine congrArg (fun s => (0 : EReal) + s) (Finset.sum_congr rfl fun e _ => ?_)
  rw [val_main_v96_apply, v93_at x0 ei x3 x4 x5 hidx e f, v95_at ei e f]
  rfl

/-- THE SECOND LAYER of the reference at node d, feature f. -/
theorem v103_at (hidx : ∀ j, 0 ≤ (ei j).toInt ∧ (ei j).toInt < 10000) (d : Fin 10000) (f : Fin 256) :
    val_main_v103 (F := Ideal) x0 ei x3 x4 x5 x6 (ix2 d f)
      = layer2 chain x0 ei x3 x4 x5 x6 d f := by
  have hz : val_main_call3_v0 (F := Ideal) (ix2 d f) = 0 := by
    rw [val_main_call3_v0_apply, val_main_call3_cst_apply, Ideal.ofBits_def]
    exact ofBits_zero
  rw [val_main_v103_apply, val_main_v102_apply, v99_at x0 ei x3 x4 x5 hidx d f, v101_at x6 d f, hz]
  rfl

/-- The second layer's buffer is the specification's array. -/
theorem v103_eq (hidx : ∀ j, 0 ≤ (ei j).toInt ∧ (ei j).toInt < 10000) :
    val_main_v103 (F := Ideal) x0 ei x3 x4 x5 x6 = layer2Arr chain x0 ei x3 x4 x5 x6 := by
  funext j
  obtain ⟨d, f, rfl⟩ : ∃ (d : Fin 10000) (f : Fin 256), j = ix2 d f := ⟨j 0, j 1, eq_ix2 j⟩
  exact v103_at x0 ei x3 x4 x5 x6 hidx d f

end Cert.Hand.Ref

end
-- ==== Proof.Ref.TailEq.lean ====
/- The reference's operations after its second layer are the kernel program's operations after its second region: the
   per-graph mean of the node rows (a scatter-add of the rows by graph, divided by the graphs' node counts, at least one),
   four dense layers with a clip below at zero after each of the first four products, and a last dense layer of one column laid
   out as a vector. Stage by stage the two programs apply the same operation to the same operands, so the reference's result
   is the kernel program's tail function of the reference's second-layer array. -/
import proofs.«143978_j4672924418728_1_alg».proof.Proof.Ref.Imports
import proofs.«143978_j4672924418728_1_alg».proof.Proof.KI.Tail

set_option maxRecDepth 16384

noncomputable section

namespace Cert.Hand.Ref

open Idealize.ShloMosaic
open Cert.ReferenceIdeal Cert.ReferenceIdeal.Gen Cert.ReferenceIdeal.ReadP
open Cert.KernelIdeal.Hand (tailFn tailPool clip128 clip64 clip32 dense128 dense64 dense32 dense1)

variable (x0 : (⟨S10000x1, .f32⟩ : BufTy).Contents (Elt Ideal)) (x1 : (⟨S2x320000, .i32⟩ : BufTy).Contents (Elt Ideal)) (x2 : (⟨S10000, .i32⟩ : BufTy).Contents (Elt Ideal)) (x3 : (⟨S1x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal)) (x11 : (⟨S128x64, .f32⟩ : BufTy).Contents (Elt Ideal)) (x12 : (⟨S64, .f32⟩ : BufTy).Contents (Elt Ideal)) (x13 : (⟨S64x32, .f32⟩ : BufTy).Contents (Elt Ideal)) (x14 : (⟨S32, .f32⟩ : BufTy).Contents (Elt Ideal)) (x15 : (⟨S32x1, .f32⟩ : BufTy).Contents (Elt Ideal)) (x16 : (⟨S1, .f32⟩ : BufTy).Contents (Elt Ideal))

/-- The pooled rows through the first dense layer. -/
theorem tail_v119 : val_main_v119 (F := Ideal) x0 x1 x2 x3 x4 x5 x6 x7 x8 = tailPool (F := Ideal) (val_main_v103 (F := Ideal) x0 x1 x3 x4 x5 x6) x2 x7 x8 := rfl

theorem tail_v120 : val_main_v120 (F := Ideal) x0 x1 x2 x3 x4 x5 x6 x7 x8 = clip128 (F := Ideal) (val_main_v119 (F := Ideal) x0 x1 x2 x3 x4 x5 x6 x7 x8) := rfl

theorem tail_v124 : val_main_v124 (F := Ideal) x0 x1 x2 x3 x4 x5 x6 x7 x8 x9 x10 = dense128 (F := Ideal) (val_main_v120 (F := Ideal) x0 x1 x2 x3 x4 x5 x6 x7 x8) x9 x10 := rfl

theorem tail_v125 : val_main_v125 (F := Ideal) x0 x1 x2 x3 x4 x5 x6 x7 x8 x9 x10 = clip128 (F := Ideal) (val_main_v124 (F := Ideal) x0 x1 x2 x3 x4 x5 x6 x7 x8 x9 x10) := rfl

theorem tail_v129 : val_main_v129 (F := Ideal) x0 x1 x2 x3 x4 x5 x6 x7 x8 x9 x10 x11 x12 = dense64 (F := Ideal) (val_main_v125 (F := Ideal) x0 x1 x2 x3 x4 x5 x6 x7 x8 x9 x10) x11 x12 := rfl

theorem tail_v130 : val_main_v130 (F := Ideal) x0 x1 x2 x3 x4 x5 x6 x7 x8 x9 x10 x11 x12 = clip64 (F := Ideal) (val_main_v129 (F := Ideal) x0 x1 x2 x3 x4 x5 x6 x7 x8 x9 x10 x11 x12) := rfl

theorem tail_v134 : val_main_v134 (F := Ideal) x0 x1 x2 x3 x4 x5 x6 x7 x8 x9 x10 x11 x12 x13 x14 = dense32 (F := Ideal) (val_main_v130 (F := Ideal) x0 x1 x2 x3 x4 x5 x6 x7 x8 x9 x10 x11 x12) x13 x14 := rfl

theorem tail_v135 : val_main_v135 (F := Ideal) x0 x1 x2 x3 x4 x5 x6 x7 x8 x9 x10 x11 x12 x13 x14 = clip32 (F := Ideal) (val_main_v134 (F := Ideal) x0 x1 x2 x3 x4 x5 x6 x7 x8 x9 x10 x11 x12 x13 x14) := rfl

theorem tail_v140 : val_main_v140 (F := Ideal) x0 x1 x2 x3 x4 x5 x6 x7 x8 x9 x10 x11 x12 x13 x14 x15 x16 = dense1 (F := Ideal) (val_main_v135 (F := Ideal) x0 x1 x2 x3 x4 x5 x6 x7 x8 x9 x10 x11 x12 x13 x14) x15 x16 := rfl

/-- THE TAIL: the reference's result is the kernel program's tail function of the reference's second-layer array, the
    graph vector and the ten weight and bias arrays. -/
theorem tail_eq : val_main_v140 (F := Ideal) x0 x1 x2 x3 x4 x5 x6 x7 x8 x9 x10 x11 x12 x13 x14 x15 x16
    = tailFn (F := Ideal) (val_main_v103 (F := Ideal) x0 x1 x3 x4 x5 x6) x2 x7 x8 x9 x10 x11 x12 x13 x14 x15 x16 := by
  rw [tail_v140, tail_v135, tail_v134, tail_v130, tail_v129, tail_v125, tail_v124, tail_v120, tail_v119]
  rfl

end Cert.Hand.Ref

end
-- ==== Proof.Alg.lean ====
/- The two idealized programs compute one function of the arguments. The kernel program's result is the shared tail (mean
   pool and the small dense layers) applied to the second convolution layer read off its dense-matrix products; the
   reference's is the same tail applied to the second layer computed edge by edge; under the precondition — every float
   input real, every edge index a node number — the two second layers are the same array, entry by entry: the dense
   matrix against the zero-padded features is, by distributivity over the reals, the sum over the edges into a node of
   the source's feature times the edge's weight. -/
import proofs.«143978_j4672924418728_1_alg».proof.Defs
import proofs.«143978_j4672924418728_1_alg».proof.Proof.Gen.Kernel
import proofs.«143978_j4672924418728_1_alg».proof.Proof.Gen.KernelIdeal
import proofs.«143978_j4672924418728_1_alg».proof.Proof.Gen.ReferenceIdeal
import proofs.«143978_j4672924418728_1_alg».proof.Proof.Gen.Pre_finite_inputs
import proofs.«143978_j4672924418728_1_alg».proof.Proof.KI.Run
import proofs.«143978_j4672924418728_1_alg».proof.Proof.KI.Layers
import proofs.«143978_j4672924418728_1_alg».proof.Proof.Ref.Frame
import proofs.«143978_j4672924418728_1_alg».proof.Proof.Ref.Pre
import proofs.«143978_j4672924418728_1_alg».proof.Proof.Ref.Value2
import proofs.«143978_j4672924418728_1_alg».proof.Proof.Ref.TailEq

set_option maxRecDepth 16384

noncomputable section

namespace Cert.Proof

open Idealize.ShloMosaic Idealize.ShloMosaic.TcCoe Idealize.SL.Sem
open Cert.GinMath Cert.Hand.Ref

/-- The common result, of the kernel program's argument arrays on core `c`. -/
def resultOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v98) :=
  Cert.KernelIdeal.Hand.tailFn (F := Ideal)
    (layer2Arr chain (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
    (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨resultOf m, ?_, ?_⟩
  · -- the kernel program: every unscoped buffer read back after the run; the result by the two layers and the tail
    refine (θ_run (Cert.KernelIdeal.defs (F := Ideal)) _ _).mono (fun r h c => ?_) (Cert.KernelIdeal.Hand.run_all (F := Ideal) m ρ)
    have hp := hpre c
    refine ⟨(h c _ (Finset.mem_filter.mpr ⟨StableHlo.devRef_mem_tcRefs Cert.KernelIdeal.main_v98, by decide⟩)).trans
        (Cert.KernelIdeal.Hand.result_eq m c (fun j => pre_index_range hp j) (fun i => pre_real_arg0 hp i)
          (fun i => pre_real_arg3 hp i) (fun i => pre_real_arg4 hp i) (fun i => pre_real_arg5 hp i)),
      (h c _ (Finset.mem_filter.mpr ⟨StableHlo.devRef_mem_tcRefs Cert.KernelIdeal.main_arg0, by decide⟩)).trans (Cert.KernelIdeal.Gen.V19_main_arg0 m (Cert.KernelIdeal.Hand.outs m) c),
      (h c _ (Finset.mem_filter.mpr ⟨StableHlo.devRef_mem_tcRefs Cert.KernelIdeal.main_arg1, by decide⟩)).trans (Cert.KernelIdeal.Gen.V19_main_arg1 m (Cert.KernelIdeal.Hand.outs m) c),
      (h c _ (Finset.mem_filter.mpr ⟨StableHlo.devRef_mem_tcRefs Cert.KernelIdeal.main_arg2, by decide⟩)).trans (Cert.KernelIdeal.Gen.V19_main_arg2 m (Cert.KernelIdeal.Hand.outs m) c),
      (h c _ (Finset.mem_filter.mpr ⟨StableHlo.devRef_mem_tcRefs Cert.KernelIdeal.main_arg3, by decide⟩)).trans (Cert.KernelIdeal.Gen.V19_main_arg3 m (Cert.KernelIdeal.Hand.outs m) c),
      (h c _ (Finset.mem_filter.mpr ⟨StableHlo.devRef_mem_tcRefs Cert.KernelIdeal.main_arg4, by decide⟩)).trans (Cert.KernelIdeal.Gen.V19_main_arg4 m (Cert.KernelIdeal.Hand.outs m) c),
      (h c _ (Finset.mem_filter.mpr ⟨StableHlo.devRef_mem_tcRefs Cert.KernelIdeal.main_arg5, by decide⟩)).trans (Cert.KernelIdeal.Gen.V19_main_arg5 m (Cert.KernelIdeal.Hand.outs m) c),
      (h c _ (Finset.mem_filter.mpr ⟨StableHlo.devRef_mem_tcRefs Cert.KernelIdeal.main_arg6, by decide⟩)).trans (Cert.KernelIdeal.Gen.V19_main_arg6 m (Cert.KernelIdeal.Hand.outs m) c),
      (h c _ (Finset.mem_filter.mpr ⟨StableHlo.devRef_mem_tcRefs Cert.KernelIdeal.main_arg7, by decide⟩)).trans (Cert.KernelIdeal.Gen.V19_main_arg7 m (Cert.KernelIdeal.Hand.outs m) c),
      (h c _ (Finset.mem_filter.mpr ⟨StableHlo.devRef_mem_tcRefs Cert.KernelIdeal.main_arg8, by decide⟩)).trans (Cert.KernelIdeal.Gen.V19_main_arg8 m (Cert.KernelIdeal.Hand.outs m) c),
      (h c _ (Finset.mem_filter.mpr ⟨StableHlo.devRef_mem_tcRefs Cert.KernelIdeal.main_arg9, by decide⟩)).trans (Cert.KernelIdeal.Gen.V19_main_arg9 m (Cert.KernelIdeal.Hand.outs m) c),
      (h c _ (Finset.mem_filter.mpr ⟨StableHlo.devRef_mem_tcRefs Cert.KernelIdeal.main_arg10, by decide⟩)).trans (Cert.KernelIdeal.Gen.V19_main_arg10 m (Cert.KernelIdeal.Hand.outs m) c),
      (h c _ (Finset.mem_filter.mpr ⟨StableHlo.devRef_mem_tcRefs Cert.KernelIdeal.main_arg11, by decide⟩)).trans (Cert.KernelIdeal.Gen.V19_main_arg11 m (Cert.KernelIdeal.Hand.outs m) c),
      (h c _ (Finset.mem_filter.mpr ⟨StableHlo.devRef_mem_tcRefs Cert.KernelIdeal.main_arg12, by decide⟩)).trans (Cert.KernelIdeal.Gen.V19_main_arg12 m (Cert.KernelIdeal.Hand.outs m) c),
      (h c _ (Finset.mem_filter.mpr ⟨StableHlo.devRef_mem_tcRefs Cert.KernelIdeal.main_arg13, by decide⟩)).trans (Cert.KernelIdeal.Gen.V19_main_arg13 m (Cert.KernelIdeal.Hand.outs m) c),
      (h c _ (Finset.mem_filter.mpr ⟨StableHlo.devRef_mem_tcRefs Cert.KernelIdeal.main_arg14, by decide⟩)).trans (Cert.KernelIdeal.Gen.V19_main_arg14 m (Cert.KernelIdeal.Hand.outs m) c),
      (h c _ (Finset.mem_filter.mpr ⟨StableHlo.devRef_mem_tcRefs Cert.KernelIdeal.main_arg15, by decide⟩)).trans (Cert.KernelIdeal.Gen.V19_main_arg15 m (Cert.KernelIdeal.Hand.outs m) c),
      (h c _ (Finset.mem_filter.mpr ⟨StableHlo.devRef_mem_tcRefs Cert.KernelIdeal.main_arg16, by decide⟩)).trans (Cert.KernelIdeal.Gen.V19_main_arg16 m (Cert.KernelIdeal.Hand.outs m) c)⟩
  · -- the reference: its run's result term, read stage by stage, is the tail of the second layer of ITS arguments, which agree
    refine (θ_run (Cert.ReferenceIdeal.defs (F := Ideal)) _ _).mono (fun r h c => ⟨(h c).1.trans ?_, (h c).2⟩)
      (Cert.ReferenceIdeal.ValueP.run (F := Ideal) m' ρ')
    have hp := hpre c
    obtain ⟨e0, e1, e2, e3, e4, e5, e6, e7, e8, e9, e10, e11, e12, e13, e14, e15, e16⟩ := hagree c
    rw [Cert.ReferenceIdeal.ReadP.val_main_v140_eq, e0, e1, e2, e3, e4, e5, e6, e7, e8, e9, e10, e11, e12, e13, e14, e15, e16,
      tail_eq, v103_eq _ _ _ _ _ _ (fun j => pre_index_range hp j)]
    rfl

end Cert.Proof

end
-- ==== Proof.lean ====
/- The certificate of the graph-convolution kernel (two dense adjacency matmuls on a 5 × 5 grid, each accumulating in a
   scratch buffer across the inner grid axis) against its edge-by-edge reference. The three frames: each kernel region's
   body at every grid point, with the accumulator carried in the region's invariant, composed along @main's nineteen
   items (Proof/K, Proof/KI); the reference's run (Proof/Ref). Nothing was rewritten by the ideal pass. The two idealized
   programs agree under the precondition (Proof/Alg). -/
import proofs.«143978_j4672924418728_1_alg».proof.Defs
import proofs.«143978_j4672924418728_1_alg».proof.Proof.Gen.Kernel
import proofs.«143978_j4672924418728_1_alg».proof.Proof.Gen.KernelIdeal
import proofs.«143978_j4672924418728_1_alg».proof.Proof.Gen.ReferenceIdeal
import proofs.«143978_j4672924418728_1_alg».proof.Proof.Gen.Pre_finite_inputs
import proofs.«143978_j4672924418728_1_alg».proof.Proof.K.Run
import proofs.«143978_j4672924418728_1_alg».proof.Proof.KI.Run
import proofs.«143978_j4672924418728_1_alg».proof.Proof.Ref.Frame
import proofs.«143978_j4672924418728_1_alg».proof.Proof.Alg
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  Cert.Hand.Ref.frame_ri,
  trivial,
  Cert.Proof.algebraic⟩

end Cert.Proof

end
